-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S8192x4096 .f32) (main_arg1 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  main_v8
-- ==== Kernel.lean ====
abbrev S8192x4096 : Shape := ⟨2, ![8192, 4096]⟩
abbrev S16x4096 : Shape := ⟨2, ![16, 4096]⟩
abbrev S128x4096 : Shape := ⟨2, ![128, 4096]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S16x4096, .f32⟩
  | .local _ .vmem, ⟨3, _⟩ => ⟨S128x4096, .f32⟩
  | .local _ .vmem, ⟨4, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x4096_S128x4096_0_0 : ∀ a, (![0, 0] : Fin 2 → Nat) a + S128x4096.size a ≤ S128x4096.size a
  h_S128x4096 : 0 < S128x4096.numel
  rotates_S128x4096_d1 : S128x4096.Rotates 1 none
  inb_S16x4096_S1x4096_0_0 : ∀ a, (![0, 0] : Fin 2 → Nat) a + S1x4096.size a ≤ S16x4096.size a
  h_S1x4096 : 0 < S1x4096.numel
  broadcasts_S1x4096_S128x4096 : S1x4096.Broadcasts S128x4096
  inb_S16x4096_S1x4096_1_0 : ∀ a, (![1, 0] : Fin 2 → Nat) a + S1x4096.size a ≤ S16x4096.size a
  inb_S16x4096_S1x4096_2_0 : ∀ a, (![2, 0] : Fin 2 → Nat) a + S1x4096.size a ≤ S16x4096.size a
  inb_S16x4096_S1x4096_3_0 : ∀ a, (![3, 0] : Fin 2 → Nat) a + S1x4096.size a ≤ S16x4096.size a
  inb_S16x4096_S1x4096_4_0 : ∀ a, (![4, 0] : Fin 2 → Nat) a + S1x4096.size a ≤ S16x4096.size a
  inb_S16x4096_S1x4096_5_0 : ∀ a, (![5, 0] : Fin 2 → Nat) a + S1x4096.size a ≤ S16x4096.size a
  inb_S16x4096_S1x4096_6_0 : ∀ a, (![6, 0] : Fin 2 → Nat) a + S1x4096.size a ≤ S16x4096.size a
  inb_S16x4096_S1x4096_7_0 : ∀ a, (![7, 0] : Fin 2 → Nat) a + S1x4096.size a ≤ S16x4096.size a
  inb_S16x4096_S1x4096_8_0 : ∀ a, (![8, 0] : Fin 2 → Nat) a + S1x4096.size a ≤ S16x4096.size a
  inb_S16x4096_S1x4096_9_0 : ∀ a, (![9, 0] : Fin 2 → Nat) a + S1x4096.size a ≤ S16x4096.size a
  inb_S16x4096_S1x4096_10_0 : ∀ a, (![10, 0] : Fin 2 → Nat) a + S1x4096.size a ≤ S16x4096.size a
  inb_S16x4096_S1x4096_11_0 : ∀ a, (![11, 0] : Fin 2 → Nat) a + S1x4096.size a ≤ S16x4096.size a
  inb_S16x4096_S1x4096_12_0 : ∀ a, (![12, 0] : Fin 2 → Nat) a + S1x4096.size a ≤ S16x4096.size a
  inb_S16x4096_S1x4096_13_0 : ∀ a, (![13, 0] : Fin 2 → Nat) a + S1x4096.size a ≤ S16x4096.size a
  inb_S16x4096_S1x4096_14_0 : ∀ a, (![14, 0] : Fin 2 → Nat) a + S1x4096.size a ≤ S16x4096.size a
  inb_S16x4096_S1x4096_15_0 : ∀ a, (![15, 0] : Fin 2 → Nat) a + S1x4096.size a ≤ S16x4096.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16x4096 : Shape := ⟨2, ![16, 4096]⟩
abbrev S_ : Shape := ⟨0, ![]⟩
abbrev S1x4096 : Shape := ⟨2, ![1, 4096]⟩
abbrev S4096 : Shape := ⟨1, ![4096]⟩
abbrev S8192x4095 : Shape := ⟨2, ![8192, 4095]⟩
abbrev S8192x1 : Shape := ⟨2, ![8192, 1]⟩
abbrev S8192x4094 : Shape := ⟨2, ![8192, 4094]⟩
abbrev S8192x2 : Shape := ⟨2, ![8192, 2]⟩
abbrev S8192x4093 : Shape := ⟨2, ![8192, 4093]⟩
abbrev S8192x3 : Shape := ⟨2, ![8192, 3]⟩
abbrev S8192x4092 : Shape := ⟨2, ![8192, 4092]⟩
abbrev S8192x4 : Shape := ⟨2, ![8192, 4]⟩
abbrev S8192x4091 : Shape := ⟨2, ![8192, 4091]⟩
abbrev S8192x5 : Shape := ⟨2, ![8192, 5]⟩
abbrev S8192x4090 : Shape := ⟨2, ![8192, 4090]⟩
abbrev S8192x6 : Shape := ⟨2, ![8192, 6]⟩
abbrev S8192x4089 : Shape := ⟨2, ![8192, 4089]⟩
abbrev S8192x7 : Shape := ⟨2, ![8192, 7]⟩
abbrev S8192x4088 : Shape := ⟨2, ![8192, 4088]⟩
abbrev S8192x8 : Shape := ⟨2, ![8192, 8]⟩
abbrev S8192x4087 : Shape := ⟨2, ![8192, 4087]⟩
abbrev S8192x9 : Shape := ⟨2, ![8192, 9]⟩
abbrev S8192x4086 : Shape := ⟨2, ![8192, 4086]⟩
abbrev S8192x10 : Shape := ⟨2, ![8192, 10]⟩
abbrev S8192x4085 : Shape := ⟨2, ![8192, 4085]⟩
abbrev S8192x11 : Shape := ⟨2, ![8192, 11]⟩
abbrev S8192x4084 : Shape := ⟨2, ![8192, 4084]⟩
abbrev S8192x12 : Shape := ⟨2, ![8192, 12]⟩
abbrev S8192x4083 : Shape := ⟨2, ![8192, 4083]⟩
abbrev S8192x13 : Shape := ⟨2, ![8192, 13]⟩
abbrev S8192x4082 : Shape := ⟨2, ![8192, 4082]⟩
abbrev S8192x14 : Shape := ⟨2, ![8192, 14]⟩
abbrev S8192x4081 : Shape := ⟨2, ![8192, 4081]⟩
abbrev S8192x15 : Shape := ⟨2, ![8192, 15]⟩
abbrev S8192x4080 : Shape := ⟨2, ![8192, 4080]⟩
abbrev S8192x16 : Shape := ⟨2, ![8192, 16]⟩

abbrev nBuf : Space → Nat
  | .hbm => 149
  | .vmem => 0
  | .smem => 0
  | _ => 0

abbrev hbmTy0_0 (i : Nat) : BufTy := match i % 128 with
  | 0 => ⟨S8192x4096, .f32⟩
  | 1 => ⟨S16x4096, .f32⟩
  | 2 => ⟨S_, .f32⟩
  | 3 => ⟨S8192x4096, .f32⟩
  | 4 => ⟨S1x4096, .f32⟩
  | 5 => ⟨S4096, .f32⟩
  | 6 => ⟨S1x4096, .f32⟩
  | 7 => ⟨S8192x4095, .f32⟩
  | 8 => ⟨S8192x1, .f32⟩
  | 9 => ⟨S8192x4096, .f32⟩
  | 10 => ⟨S8192x4096, .f32⟩
  | 11 => ⟨S8192x4096, .f32⟩
  | 12 => ⟨S8192x4096, .f32⟩
  | 13 => ⟨S1x4096, .f32⟩
  | 14 => ⟨S4096, .f32⟩
  | 15 => ⟨S1x4096, .f32⟩
  | 16 => ⟨S8192x4094, .f32⟩
  | 17 => ⟨S8192x2, .f32⟩
  | 18 => ⟨S8192x4096, .f32⟩
  | 19 => ⟨S8192x4096, .f32⟩
  | 20 => ⟨S8192x4096, .f32⟩
  | 21 => ⟨S8192x4096, .f32⟩
  | 22 => ⟨S1x4096, .f32⟩
  | 23 => ⟨S4096, .f32⟩
  | 24 => ⟨S1x4096, .f32⟩
  | 25 => ⟨S8192x4093, .f32⟩
  | 26 => ⟨S8192x3, .f32⟩
  | 27 => ⟨S8192x4096, .f32⟩
  | 28 => ⟨S8192x4096, .f32⟩
  | 29 => ⟨S8192x4096, .f32⟩
  | 30 => ⟨S8192x4096, .f32⟩
  | 31 => ⟨S1x4096, .f32⟩
  | 32 => ⟨S4096, .f32⟩
  | 33 => ⟨S1x4096, .f32⟩
  | 34 => ⟨S8192x4092, .f32⟩
  | 35 => ⟨S8192x4, .f32⟩
  | 36 => ⟨S8192x4096, .f32⟩
  | 37 => ⟨S8192x4096, .f32⟩
  | 38 => ⟨S8192x4096, .f32⟩
  | 39 => ⟨S8192x4096, .f32⟩
  | 40 => ⟨S1x4096, .f32⟩
  | 41 => ⟨S4096, .f32⟩
  | 42 => ⟨S1x4096, .f32⟩
  | 43 => ⟨S8192x4091, .f32⟩
  | 44 => ⟨S8192x5, .f32⟩
  | 45 => ⟨S8192x4096, .f32⟩
  | 46 => ⟨S8192x4096, .f32⟩
  | 47 => ⟨S8192x4096, .f32⟩
  | 48 => ⟨S8192x4096, .f32⟩
  | 49 => ⟨S1x4096, .f32⟩
  | 50 => ⟨S4096, .f32⟩
  | 51 => ⟨S1x4096, .f32⟩
  | 52 => ⟨S8192x4090, .f32⟩
  | 53 => ⟨S8192x6, .f32⟩
  | 54 => ⟨S8192x4096, .f32⟩
  | 55 => ⟨S8192x4096, .f32⟩
  | 56 => ⟨S8192x4096, .f32⟩
  | 57 => ⟨S8192x4096, .f32⟩
  | 58 => ⟨S1x4096, .f32⟩
  | 59 => ⟨S4096, .f32⟩
  | 60 => ⟨S1x4096, .f32⟩
  | 61 => ⟨S8192x4089, .f32⟩
  | 62 => ⟨S8192x7, .f32⟩
  | 63 => ⟨S8192x4096, .f32⟩
  | 64 => ⟨S8192x4096, .f32⟩
  | 65 => ⟨S8192x4096, .f32⟩
  | 66 => ⟨S8192x4096, .f32⟩
  | 67 => ⟨S1x4096, .f32⟩
  | 68 => ⟨S4096, .f32⟩
  | 69 => ⟨S1x4096, .f32⟩
  | 70 => ⟨S8192x4088, .f32⟩
  | 71 => ⟨S8192x8, .f32⟩
  | 72 => ⟨S8192x4096, .f32⟩
  | 73 => ⟨S8192x4096, .f32⟩
  | 74 => ⟨S8192x4096, .f32⟩
  | 75 => ⟨S8192x4096, .f32⟩
  | 76 => ⟨S1x4096, .f32⟩
  | 77 => ⟨S4096, .f32⟩
  | 78 => ⟨S1x4096, .f32⟩
  | 79 => ⟨S8192x4087, .f32⟩
  | 80 => ⟨S8192x9, .f32⟩
  | 81 => ⟨S8192x4096, .f32⟩
  | 82 => ⟨S8192x4096, .f32⟩
  | 83 => ⟨S8192x4096, .f32⟩
  | 84 => ⟨S8192x4096, .f32⟩
  | 85 => ⟨S1x4096, .f32⟩
  | 86 => ⟨S4096, .f32⟩
  | 87 => ⟨S1x4096, .f32⟩
  | 88 => ⟨S8192x4086, .f32⟩
  | 89 => ⟨S8192x10, .f32⟩
  | 90 => ⟨S8192x4096, .f32⟩
  | 91 => ⟨S8192x4096, .f32⟩
  | 92 => ⟨S8192x4096, .f32⟩
  | 93 => ⟨S8192x4096, .f32⟩
  | 94 => ⟨S1x4096, .f32⟩
  | 95 => ⟨S4096, .f32⟩
  | 96 => ⟨S1x4096, .f32⟩
  | 97 => ⟨S8192x4085, .f32⟩
  | 98 => ⟨S8192x11, .f32⟩
  | 99 => ⟨S8192x4096, .f32⟩
  | 100 => ⟨S8192x4096, .f32⟩
  | 101 => ⟨S8192x4096, .f32⟩
  | 102 => ⟨S8192x4096, .f32⟩
  | 103 => ⟨S1x4096, .f32⟩
  | 104 => ⟨S4096, .f32⟩
  | 105 => ⟨S1x4096, .f32⟩
  | 106 => ⟨S8192x4084, .f32⟩
  | 107 => ⟨S8192x12, .f32⟩
  | 108 => ⟨S8192x4096, .f32⟩
  | 109 => ⟨S8192x4096, .f32⟩
  | 110 => ⟨S8192x4096, .f32⟩
  | 111 => ⟨S8192x4096, .f32⟩
  | 112 => ⟨S1x4096, .f32⟩
  | 113 => ⟨S4096, .f32⟩
  | 114 => ⟨S1x4096, .f32⟩
  | 115 => ⟨S8192x4083, .f32⟩
  | 116 => ⟨S8192x13, .f32⟩
  | 117 => ⟨S8192x4096, .f32⟩
  | 118 => ⟨S8192x4096, .f32⟩
  | 119 => ⟨S8192x4096, .f32⟩
  | 120 => ⟨S8192x4096, .f32⟩
  | 121 => ⟨S1x4096, .f32⟩
  | 122 => ⟨S4096, .f32⟩
  | 123 => ⟨S1x4096, .f32⟩
  | 124 => ⟨S8192x4082, .f32⟩
  | 125 => ⟨S8192x14, .f32⟩
  | 126 => ⟨S8192x4096, .f32⟩
  | 127 => ⟨S8192x4096, .f32⟩
  | _ => ⟨S8192x4096, .f32⟩

abbrev hbmTy0_1 (i : Nat) : BufTy := match i % 128 with
  | 0 => ⟨S8192x4096, .f32⟩
  | 1 => ⟨S8192x4096, .f32⟩
  | 2 => ⟨S1x4096, .f32⟩
  | 3 => ⟨S4096, .f32⟩
  | 4 => ⟨S1x4096, .f32⟩
  | 5 => ⟨S8192x4081, .f32⟩
  | 6 => ⟨S8192x15, .f32⟩
  | 7 => ⟨S8192x4096, .f32⟩
  | 8 => ⟨S8192x4096, .f32⟩
  | 9 => ⟨S8192x4096, .f32⟩
  | 10 => ⟨S8192x4096, .f32⟩
  | 11 => ⟨S1x4096, .f32⟩
  | 12 => ⟨S4096, .f32⟩
  | 13 => ⟨S1x4096, .f32⟩
  | 14 => ⟨S8192x4080, .f32⟩
  | 15 => ⟨S8192x16, .f32⟩
  | 16 => ⟨S8192x4096, .f32⟩
  | 17 => ⟨S8192x4096, .f32⟩
  | 18 => ⟨S8192x4096, .f32⟩
  | 19 => ⟨S8192x4096, .f32⟩
  | 20 => ⟨S8192x4096, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call1_v0 : Ref sig .tc := ⟨.hbm, 16, rfl⟩
abbrev main_call1_v1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call2_v0 : Ref sig .tc := ⟨.hbm, 25, rfl⟩
abbrev main_call2_v1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call3_v0 : Ref sig .tc := ⟨.hbm, 34, rfl⟩
abbrev main_call3_v1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call4_v0 : Ref sig .tc := ⟨.hbm, 43, rfl⟩
abbrev main_call4_v1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call5_v0 : Ref sig .tc := ⟨.hbm, 52, rfl⟩
abbrev main_call5_v1 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call6_v0 : Ref sig .tc := ⟨.hbm, 61, rfl⟩
abbrev main_call6_v1 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call7_v0 : Ref sig .tc := ⟨.hbm, 70, rfl⟩
abbrev main_call7_v1 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call8_v0 : Ref sig .tc := ⟨.hbm, 79, rfl⟩
abbrev main_call8_v1 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_call9_v0 : Ref sig .tc := ⟨.hbm, 88, rfl⟩
abbrev main_call9_v1 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call10_v0 : Ref sig .tc := ⟨.hbm, 97, rfl⟩
abbrev main_call10_v1 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call11_v0 : Ref sig .tc := ⟨.hbm, 106, rfl⟩
abbrev main_call11_v1 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_call12_v0 : Ref sig .tc := ⟨.hbm, 115, rfl⟩
abbrev main_call12_v1 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_call13_v0 : Ref sig .tc := ⟨.hbm, 124, rfl⟩
abbrev main_call13_v1 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_call14_v0 : Ref sig .tc := ⟨.hbm, 133, rfl⟩
abbrev main_call14_v1 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_call15_v0 : Ref sig .tc := ⟨.hbm, 142, rfl⟩
abbrev main_call15_v1 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  slices_S16x4096_S1x4096_0_0 : S16x4096.Slices ![0, 0] S1x4096
  shapeCasts_S1x4096_S4096 : S1x4096.ShapeCasts S4096
  bcast_S4096_S1x4096_1 : S4096.BroadcastsInDim S1x4096 (![1] : Fin 1 → Fin S1x4096.rank)
  slices_S8192x4096_S8192x4095_0_1 : S8192x4096.Slices ![0, 1] S8192x4095
  slices_S8192x4096_S8192x1_0_0 : S8192x4096.Slices ![0, 0] S8192x1
  concatenates_S8192x4095_S8192x1_S8192x4096_d1 : Shape.Concatenates [S8192x4095, S8192x1] S8192x4096 1
  bcast_S1x4096_S8192x4096_0_1 : S1x4096.BroadcastsInDim S8192x4096 (![0, 1] : Fin 2 → Fin S8192x4096.rank)
  slices_S16x4096_S1x4096_1_0 : S16x4096.Slices ![1, 0] S1x4096
  slices_S8192x4096_S8192x4094_0_2 : S8192x4096.Slices ![0, 2] S8192x4094
  slices_S8192x4096_S8192x2_0_0 : S8192x4096.Slices ![0, 0] S8192x2
  concatenates_S8192x4094_S8192x2_S8192x4096_d1 : Shape.Concatenates [S8192x4094, S8192x2] S8192x4096 1
  slices_S16x4096_S1x4096_2_0 : S16x4096.Slices ![2, 0] S1x4096
  slices_S8192x4096_S8192x4093_0_3 : S8192x4096.Slices ![0, 3] S8192x4093
  slices_S8192x4096_S8192x3_0_0 : S8192x4096.Slices ![0, 0] S8192x3
  concatenates_S8192x4093_S8192x3_S8192x4096_d1 : Shape.Concatenates [S8192x4093, S8192x3] S8192x4096 1
  slices_S16x4096_S1x4096_3_0 : S16x4096.Slices ![3, 0] S1x4096
  slices_S8192x4096_S8192x4092_0_4 : S8192x4096.Slices ![0, 4] S8192x4092
  slices_S8192x4096_S8192x4_0_0 : S8192x4096.Slices ![0, 0] S8192x4
  concatenates_S8192x4092_S8192x4_S8192x4096_d1 : Shape.Concatenates [S8192x4092, S8192x4] S8192x4096 1
  slices_S16x4096_S1x4096_4_0 : S16x4096.Slices ![4, 0] S1x4096
  slices_S8192x4096_S8192x4091_0_5 : S8192x4096.Slices ![0, 5] S8192x4091
  slices_S8192x4096_S8192x5_0_0 : S8192x4096.Slices ![0, 0] S8192x5
  concatenates_S8192x4091_S8192x5_S8192x4096_d1 : Shape.Concatenates [S8192x4091, S8192x5] S8192x4096 1
  slices_S16x4096_S1x4096_5_0 : S16x4096.Slices ![5, 0] S1x4096
  slices_S8192x4096_S8192x4090_0_6 : S8192x4096.Slices ![0, 6] S8192x4090
  slices_S8192x4096_S8192x6_0_0 : S8192x4096.Slices ![0, 0] S8192x6
  concatenates_S8192x4090_S8192x6_S8192x4096_d1 : Shape.Concatenates [S8192x4090, S8192x6] S8192x4096 1
  slices_S16x4096_S1x4096_6_0 : S16x4096.Slices ![6, 0] S1x4096
  slices_S8192x4096_S8192x4089_0_7 : S8192x4096.Slices ![0, 7] S8192x4089
  slices_S8192x4096_S8192x7_0_0 : S8192x4096.Slices ![0, 0] S8192x7
  concatenates_S8192x4089_S8192x7_S8192x4096_d1 : Shape.Concatenates [S8192x4089, S8192x7] S8192x4096 1
  slices_S16x4096_S1x4096_7_0 : S16x4096.Slices ![7, 0] S1x4096
  slices_S8192x4096_S8192x4088_0_8 : S8192x4096.Slices ![0, 8] S8192x4088
  slices_S8192x4096_S8192x8_0_0 : S8192x4096.Slices ![0, 0] S8192x8
  concatenates_S8192x4088_S8192x8_S8192x4096_d1 : Shape.Concatenates [S8192x4088, S8192x8] S8192x4096 1
  slices_S16x4096_S1x4096_8_0 : S16x4096.Slices ![8, 0] S1x4096
  slices_S8192x4096_S8192x4087_0_9 : S8192x4096.Slices ![0, 9] S8192x4087
  slices_S8192x4096_S8192x9_0_0 : S8192x4096.Slices ![0, 0] S8192x9
  concatenates_S8192x4087_S8192x9_S8192x4096_d1 : Shape.Concatenates [S8192x4087, S8192x9] S8192x4096 1
  slices_S16x4096_S1x4096_9_0 : S16x4096.Slices ![9, 0] S1x4096
  slices_S8192x4096_S8192x4086_0_10 : S8192x4096.Slices ![0, 10] S8192x4086
  slices_S8192x4096_S8192x10_0_0 : S8192x4096.Slices ![0, 0] S8192x10
  concatenates_S8192x4086_S8192x10_S8192x4096_d1 : Shape.Concatenates [S8192x4086, S8192x10] S8192x4096 1
  slices_S16x4096_S1x4096_10_0 : S16x4096.Slices ![10, 0] S1x4096
  slices_S8192x4096_S8192x4085_0_11 : S8192x4096.Slices ![0, 11] S8192x4085
  slices_S8192x4096_S8192x11_0_0 : S8192x4096.Slices ![0, 0] S8192x11
  concatenates_S8192x4085_S8192x11_S8192x4096_d1 : Shape.Concatenates [S8192x4085, S8192x11] S8192x4096 1
  slices_S16x4096_S1x4096_11_0 : S16x4096.Slices ![11, 0] S1x4096
  slices_S8192x4096_S8192x4084_0_12 : S8192x4096.Slices ![0, 12] S8192x4084
  slices_S8192x4096_S8192x12_0_0 : S8192x4096.Slices ![0, 0] S8192x12
  concatenates_S8192x4084_S8192x12_S8192x4096_d1 : Shape.Concatenates [S8192x4084, S8192x12] S8192x4096 1
  slices_S16x4096_S1x4096_12_0 : S16x4096.Slices ![12, 0] S1x4096
  slices_S8192x4096_S8192x4083_0_13 : S8192x4096.Slices ![0, 13] S8192x4083
  slices_S8192x4096_S8192x13_0_0 : S8192x4096.Slices ![0, 0] S8192x13
  concatenates_S8192x4083_S8192x13_S8192x4096_d1 : Shape.Concatenates [S8192x4083, S8192x13] S8192x4096 1
  slices_S16x4096_S1x4096_13_0 : S16x4096.Slices ![13, 0] S1x4096
  slices_S8192x4096_S8192x4082_0_14 : S8192x4096.Slices ![0, 14] S8192x4082
  slices_S8192x4096_S8192x14_0_0 : S8192x4096.Slices ![0, 0] S8192x14
  concatenates_S8192x4082_S8192x14_S8192x4096_d1 : Shape.Concatenates [S8192x4082, S8192x14] S8192x4096 1
  slices_S16x4096_S1x4096_14_0 : S16x4096.Slices ![14, 0] S1x4096
  slices_S8192x4096_S8192x4081_0_15 : S8192x4096.Slices ![0, 15] S8192x4081
  slices_S8192x4096_S8192x15_0_0 : S8192x4096.Slices ![0, 0] S8192x15
  concatenates_S8192x4081_S8192x15_S8192x4096_d1 : Shape.Concatenates [S8192x4081, S8192x15] S8192x4096 1
  slices_S16x4096_S1x4096_15_0 : S16x4096.Slices ![15, 0] S1x4096
  slices_S8192x4096_S8192x4080_0_16 : S8192x4096.Slices ![0, 16] S8192x4080
  slices_S8192x4096_S8192x16_0_0 : S8192x4096.Slices ![0, 0] S8192x16
  concatenates_S8192x4080_S8192x16_S8192x4096_d1 : Shape.Concatenates [S8192x4080, S8192x16] S8192x4096 1

variable [Facts₀]

class Facts : Prop extends Facts₀ where

variable [Facts]
-- ==== Proof.LibRoll.lean ====
/-
  A cyclic shift of the columns of a matrix, and one row of a matrix laid over every row of another, each in the two
  spellings a kernel and a host program give them, read at an index.

  Shifting the columns of an `R × D` matrix `x` by `i` places sends column `(d + i) mod D` to column `d`: the result at
  `(r, d)` is `x (r, (d + i) mod D)` (`adv d i` below). A kernel spells it as ONE lane rotation by `D - i` (a rotation by
  `s` moves column `c` to column `(c + s) mod D`, so the result's column `d` is the operand's column
  `(d + D - s) mod D = (d + i) mod D`). A host program spells it as TWO slices joined along the columns: columns
  `i … D - 1` first, columns `0 … i - 1` after them; column `d` of the join is column `d + i` of `x` while `d + i < D`
  and column `d + i - D` from there on — again `(d + i) mod D`.

  Row `k` of a `K × D` matrix `w` laid over `R` rows is the `R × D` matrix whose entry `(r, d)` is `w (k, d)`. A kernel
  spells it as a load of the one-row block at row `k` broadcast to `R` rows; a host program as a one-row slice, flattened
  to a vector, made a row again and broadcast.

  Everything here is about index arithmetic only, for any element type and any extents.
-/
import Idealize.ShloMosaic.Lib.Pipeline.Value
import Idealize.ShloMosaic.Lib.Pipeline.FrameBody
import Idealize.ShloMosaic.Lib.ValueIdx
import Idealize.ShloMosaic.Lib.ValueLayout
import Idealize.ShloMosaic.Lib.KernelVsHost

namespace Cert.LibRoll

open Idealize.ShloMosaic Idealize.ShloMosaic.ValueIdx

variable {α : Type}

/-! ## The shifted column -/

/-- Column `d` of `D` advanced by `i` places, around the end. -/
def adv {D : ℕ} (d : Fin D) (i : ℕ) : Fin D := ⟨(d.val + i) % D, Nat.mod_lt _ (Fin.pos d)⟩

theorem adv_val {D : ℕ} (d : Fin D) (i : ℕ) : (adv d i).val = (d.val + i) % D := rfl

/-! ## The kernel's spelling: one lane rotation by `D - i` -/

/-- A rotation of the columns by `D - i` (with `i ≤ D`) read at `(r, d)` is the operand at `(r, (d + i) mod D)`. -/
theorem dynamicRotate_cols_apply {R D : ℕ} (sb : BitVec 32) (i : ℕ) (hi : i ≤ D) (hsb : sb.toNat = D - i)
    (x : (⟨2, ![R, D]⟩ : Shape).Idx → α) (h : (⟨2, ![R, D]⟩ : Shape).Rotates 1 none) (r : Fin R) (d : Fin D) :
    dynamicRotate 1 sb none x h (ix2 r d) = x (ix2 r (adv d i)) := by
  have hd : d.val < D := d.isLt
  refine dynamicRotate_apply (1 : Fin 2) sb x h (ix2 r d) (ix2 r (adv d i)) fun b => ?_
  match b with
  | ⟨0, _⟩ => rfl
  | ⟨1, _⟩ =>
    show (d.val + i) % D = (d.val + D - sb.toNat % D) % D
    rw [hsb]
    by_cases h0 : i = 0
    · subst h0
      rw [Nat.sub_zero, Nat.mod_self, Nat.sub_zero, Nat.add_zero, Nat.add_mod_right]
    · rw [Nat.mod_eq_of_lt (by omega : D - i < D)]
      exact congrArg (· % D) (by omega)

/-! ## The host's spelling: columns `b … D - 1`, then columns `0 … b - 1` -/

/-- The last `a` columns of an `R × D` matrix followed by its first `b` columns (`a + b = D`), read at `(r, d)`, is
    the matrix at `(r, (d + b) mod D)`: in the first piece while `d < a`, where `d + b < D`; in the second from `a` on,
    where `d + b` has passed `D` once. -/
theorem concatenate_slices_cols_apply {R a b D : ℕ} (hab : a + b = D) (x : (⟨2, ![R, D]⟩ : Shape).Idx → α)
    (hs₁ : (⟨2, ![R, D]⟩ : Shape).Slices ![0, b] ⟨2, ![R, a]⟩)
    (hs₂ : (⟨2, ![R, D]⟩ : Shape).Slices ![0, 0] ⟨2, ![R, b]⟩)
    (hc : Shape.Concatenates [(⟨2, ![R, a]⟩ : Shape), ⟨2, ![R, b]⟩] ⟨2, ![R, D]⟩ 1)
    (r : Fin R) (d : Fin D) :
    concatenate ⟨2, ![R, D]⟩ 1
        [⟨⟨2, ![R, a]⟩, extractStridedSlice ⟨2, ![R, a]⟩ ![0, b] x hs₁⟩,
         ⟨⟨2, ![R, b]⟩, extractStridedSlice ⟨2, ![R, b]⟩ ![0, 0] x hs₂⟩] hc (ix2 r d)
      = x (ix2 r (adv d b)) := by
  have hd : d.val < D := d.isLt
  by_cases hlt : d.val < a
  · refine (concatenate_pair_apply_left (t := ⟨2, ![R, D]⟩) (s₁ := ⟨2, ![R, a]⟩) (s₂ := ⟨2, ![R, b]⟩) (1 : Fin 2) _ _ hc (ix2 r d) rfl (ix2 r (⟨d.val, hlt⟩ : Fin a))
      (fun bb => ?_)).trans ?_
    · match bb with
      | ⟨0, _⟩ => rfl
      | ⟨1, _⟩ => rfl
    refine extractStridedSlice_apply ![0, b] x hs₁ (ix2 r (⟨d.val, hlt⟩ : Fin a)) (ix2 r (adv d b)) fun ax => ?_
    match ax with
    | ⟨0, _⟩ => show r.val = 0 + r.val; omega
    | ⟨1, _⟩ =>
      show (d.val + b) % D = b + d.val
      rw [Nat.mod_eq_of_lt (by omega)]; omega
  · have hge : a ≤ d.val := Nat.le_of_not_lt hlt
    refine (concatenate_pair_apply_right (t := ⟨2, ![R, D]⟩) (s₁ := ⟨2, ![R, a]⟩) (s₂ := ⟨2, ![R, b]⟩) (1 : Fin 2) _ _ hc (ix2 r d) rfl rfl
      (ix2 r (⟨d.val - a, by omega⟩ : Fin b)) (fun bb hbb => ?_) ?_).trans ?_
    · match bb, hbb with
      | ⟨0, _⟩, _ => rfl
      | ⟨1, _⟩, hne => exact (hne (Fin.ext rfl)).elim
    · show d.val - a + a = d.val
      omega
    refine extractStridedSlice_apply ![0, 0] x hs₂ (ix2 r (⟨d.val - a, by omega⟩ : Fin b)) (ix2 r (adv d b)) fun ax => ?_
    match ax with
    | ⟨0, _⟩ => show r.val = 0 + r.val; omega
    | ⟨1, _⟩ =>
      show (d.val + b) % D = 0 + (d.val - a)
      rw [show d.val + b = (d.val - a) + D by omega, Nat.add_mod_right, Nat.mod_eq_of_lt (by omega)]; omega

/-! ## One row over every row -/

/-- The kernel's spelling: the one-row block at row `k` of a `K × D` buffer, loaded and broadcast to `R` rows, read at
    `(r, d)` is the buffer at `(k, d)`. -/
theorem broadcastTo_ld_row_apply {Val : EltTy → Type} {e' : EltTy} {K R D : ℕ} (k : ℕ) (hk : k < K)
    (w : (⟨2, ![K, D]⟩ : Shape).Idx → Val e')
    (inb : ∀ ax, (![k, 0] : Fin 2 → ℕ) ax + (⟨2, ![1, D]⟩ : Shape).size ax ≤ (⟨2, ![K, D]⟩ : Shape).size ax)
    (hb : (⟨2, ![1, D]⟩ : Shape).Broadcasts ⟨2, ![R, D]⟩) (r : Fin R) (d : Fin D) :
    broadcastTo ⟨2, ![R, D]⟩
        (View.ld w (Rect.unit (s := ⟨2, ![K, D]⟩) ![k, 0] (⟨2, ![1, D]⟩ : Shape).size inb)) hb (ix2 r d)
      = w (ix2 (⟨k, hk⟩ : Fin K) d) := by
  refine (broadcastTo_1b_ab_apply _ hb r d).trans ?_
  show w _ = w _
  refine congrArg w (funext fun ax => Fin.ext ?_)
  match ax with
  | ⟨0, _⟩ => show k + 1 * 0 = k; omega
  | ⟨1, _⟩ => show 0 + 1 * d.val = d.val; omega

/-- The host's spelling: the one-row slice at row `k` of a `K × D` array, flattened to a vector of `D` entries, made a
    `1 × D` row again and broadcast to `R` rows, read at `(r, d)` is the array at `(k, d)`. -/
theorem broadcastInDim_slice_row_apply {K R D : ℕ} (k : ℕ) (hk : k < K) (w : (⟨2, ![K, D]⟩ : Shape).Idx → α)
    (hs : (⟨2, ![K, D]⟩ : Shape).Slices ![k, 0] ⟨2, ![1, D]⟩)
    (hc : (⟨2, ![1, D]⟩ : Shape).ShapeCasts ⟨1, ![D]⟩)
    (hb₁ : (⟨1, ![D]⟩ : Shape).BroadcastsInDim ⟨2, ![1, D]⟩ ![1])
    (hb₂ : (⟨2, ![1, D]⟩ : Shape).BroadcastsInDim ⟨2, ![R, D]⟩ ![0, 1]) (r : Fin R) (d : Fin D) :
    broadcastInDim ⟨2, ![R, D]⟩ ![0, 1] hb₂
        (broadcastInDim ⟨2, ![1, D]⟩ ![1] hb₁
          (shapeCast ⟨1, ![D]⟩ (extractStridedSlice ⟨2, ![1, D]⟩ ![k, 0] w hs) hc)) (ix2 r d)
      = w (ix2 (⟨k, hk⟩ : Fin K) d) := by
  have hd : d.val < D := d.isLt
  refine (broadcastInDim_apply ![0, 1] hb₂ _ (ix2 r d) (ix2 (0 : Fin 1) d) fun ax => ?_).trans ?_
  · match ax with
    | ⟨0, _⟩ => rfl
    | ⟨1, _⟩ =>
      show d.val = if D = 1 then 0 else d.val
      split
      · omega
      · rfl
  refine (broadcastInDim_apply ![1] hb₁ _ (ix2 (0 : Fin 1) d) (ix1 d) fun ax => ?_).trans ?_
  · match ax with
    | ⟨0, _⟩ =>
      show d.val = if D = 1 then 0 else d.val
      split
      · omega
      · rfl
  refine (shapeCast_apply _ hc (ix1 d) (ix2 (0 : Fin 1) d) (by
    rw [Shape.rowMajor_val_two, Shape.rowMajor_val_one]; show 0 * D + d.val = d.val; omega)).trans ?_
  refine extractStridedSlice_apply ![k, 0] w hs (ix2 (0 : Fin 1) d) (ix2 (⟨k, hk⟩ : Fin K) d) fun ax => ?_
  match ax with
  | ⟨0, _⟩ => show k = k + 0; omega
  | ⟨1, _⟩ => show d.val = 0 + d.val; omega

end Cert.LibRoll
-- ==== Proof.QuadSpec.lean ====
/-
  The function both programs compute, index by index, over the extended reals.

  For a matrix `x` of `R` rows and 4096 columns and a weight matrix `w` of 16 rows and 4096 columns,

      z (r, d) = x (r, d) · (1 + Σ_{k < 16} w (k, d) · x (r, (d + k + 1) mod 4096)),

  the sum taken left to right starting from the constant: `((1 + t₀) + t₁) + … + t₁₅`, where tap `t_k` is
  `w (k, d) · x (r, (d + k + 1) mod 4096)` — the weight first, as both programs multiply. The order is part of the
  definition: addition of extended reals is not cancellative at the infinities, and neither program regroups the sum, so
  none of its algebra is needed. `1` is the extended real the word 0x3F800000 denotes; it is the same word in both
  programs and is never evaluated.

  The row count is a parameter: the kernel computes the function on one block of 128 rows at a time, the reference on
  all 8192 rows at once, and a row of the result reads `x` in that row only (`enhance_rows`), so a block of the result is
  the function of the block.

  `acc_step` is the one step both programs repeat sixteen times: the sum so far, plus the product of an array that
  reads as weight row `k` and an array that reads as `x` shifted `k + 1` columns, is the sum one tap further — however
  the two factors were produced.
-/
import Idealize.ShloMosaic.PureOps.Ideal
import Idealize.ShloMosaic.Lib.ValueIdx
import proofs.«150799_j47957604827151_2_alg».proof.Proof.LibRoll

noncomputable section

namespace Cert.Quad

open Idealize.ShloMosaic Idealize.ShloMosaic.ValueIdx Cert.LibRoll

/-- The constant the sum starts from: what the word of `1.0` denotes. -/
def one : EReal := Ideal.ofBits .f32 0x3F800000#32

/-- Tap `k` at `(r, d)`: weight `(k, d)` times `x` in the same row, `k + 1` columns on, around the end. -/
def tap {R : ℕ} (x : (⟨2, ![R, 4096]⟩ : Shape).Idx → EReal) (w : (⟨2, ![16, 4096]⟩ : Shape).Idx → EReal)
    (r : Fin R) (d : Fin 4096) (k : ℕ) (hk : k < 16) : EReal :=
  w (ix2 (⟨k, hk⟩ : Fin 16) d) * x (ix2 r (adv d (k + 1)))

/-- The constant plus the sixteen taps, left to right. -/
def acc {R : ℕ} (x : (⟨2, ![R, 4096]⟩ : Shape).Idx → EReal) (w : (⟨2, ![16, 4096]⟩ : Shape).Idx → EReal)
    (r : Fin R) (d : Fin 4096) : EReal :=
  one + tap x w r d 0 (by decide) + tap x w r d 1 (by decide) + tap x w r d 2 (by decide) + tap x w r d 3 (by decide) + tap x w r d 4 (by decide) + tap x w r d 5 (by decide) + tap x w r d 6 (by decide) + tap x w r d 7 (by decide) + tap x w r d 8 (by decide) + tap x w r d 9 (by decide) + tap x w r d 10 (by decide) + tap x w r d 11 (by decide) + tap x w r d 12 (by decide) + tap x w r d 13 (by decide) + tap x w r d 14 (by decide) + tap x w r d 15 (by decide)

/-- The whole function: each entry times its accumulated sum. -/
def enhance {R : ℕ} (x : (⟨2, ![R, 4096]⟩ : Shape).Idx → EReal) (w : (⟨2, ![16, 4096]⟩ : Shape).Idx → EReal) :
    (⟨2, ![R, 4096]⟩ : Shape).Idx → EReal :=
  fun j => x (ix2 (j 0) (j 1)) * acc x w (j 0) (j 1)

theorem enhance_apply {R : ℕ} (x : (⟨2, ![R, 4096]⟩ : Shape).Idx → EReal) (w : (⟨2, ![16, 4096]⟩ : Shape).Idx → EReal)
    (r : Fin R) (d : Fin 4096) : enhance x w (ix2 r d) = x (ix2 r d) * acc x w r d := rfl

/-- Row `r` of the result reads `x` in row `r` only: two matrices that agree on a row (of either's numbering), with
    weights that agree everywhere, give the same result there. -/
theorem enhance_rows {R R' : ℕ} (x : (⟨2, ![R, 4096]⟩ : Shape).Idx → EReal) (x' : (⟨2, ![R', 4096]⟩ : Shape).Idx → EReal)
    (w w' : (⟨2, ![16, 4096]⟩ : Shape).Idx → EReal) (r : Fin R) (r' : Fin R')
    (h : ∀ d : Fin 4096, x (ix2 r d) = x' (ix2 r' d))
    (hw : ∀ (k : Fin 16) (d : Fin 4096), w (ix2 k d) = w' (ix2 k d)) (d : Fin 4096) :
    enhance x w (ix2 r d) = enhance x' w' (ix2 r' d) := by
  simp only [enhance_apply, acc, tap, h, hw]

/-- One step of the sum: if `prev` reads at `(r, d)` as the sum so far, `wk` as weight `(k, d)` and `rk` as `x` at
    `(r, (d + k + 1) mod 4096)`, then `prev + wk · rk` (the arrays' pointwise operations) reads as the sum with tap `k`
    added. -/
theorem acc_step {R : ℕ} (x : (⟨2, ![R, 4096]⟩ : Shape).Idx → EReal) (w : (⟨2, ![16, 4096]⟩ : Shape).Idx → EReal)
    (r : Fin R) (d : Fin 4096) (k : ℕ) (hk : k < 16)
    (prev wk rk : FVec Ideal (⟨2, ![R, 4096]⟩ : Shape) .f32) (A : EReal)
    (hA : prev (ix2 r d) = A) (hw : wk (ix2 r d) = w (ix2 (⟨k, hk⟩ : Fin 16) d))
    (hr : rk (ix2 r d) = x (ix2 r (adv d (k + 1)))) :
    addf prev (mulf wk rk) (ix2 r d) = A + tap x w r d k hk := by
  show prev (ix2 r d) + wk (ix2 r d) * rk (ix2 r d) = _
  rw [hA, hw, hr]
  rfl

end Cert.Quad

end
-- ==== Proof.KernelTile.lean ====
/-
  What the kernel body leaves in its output block, as a function of the two input blocks.

  The body loads its whole 128 × 4096 block `x0` of `x` and, one at a time, the sixteen one-row blocks of the 16 × 4096
  weight buffer `x1`; it starts an accumulator at the constant, and for `k = 0 … 15` adds to it the product of weight row
  `k` (broadcast over the 128 rows) with `x0` rotated along its columns by `4095 - k` = `4096 - (k + 1)`, which reads
  `x0` at column `(d + k + 1) mod 4096`; it stores `x0` times the accumulator. That is `enhance x0 x1` (QuadSpec.lean)
  at 128 rows, tap for tap and in the same order: sixteen uses of the one step `acc_step`, from the last tap down to the
  constant.
-/
import proofs.«150799_j47957604827151_2_alg».proof.Proof.Gen.KernelIdeal.Frame
import proofs.«150799_j47957604827151_2_alg».proof.Proof.QuadSpec
import proofs.«150799_j47957604827151_2_alg».proof.Proof.LibRoll
import Idealize.ShloMosaic.Lib.Pipeline.Value
import Idealize.ShloMosaic.Lib.ValueIdx

noncomputable section

namespace Cert.Quad.KernelTile

open Cert.KernelIdeal Cert.KernelIdeal.Gen Idealize.ShloMosaic Idealize.ShloMosaic.ValueIdx Cert.LibRoll Cert.Quad

/-- The offsets of the whole-block rectangle are zero on both axes. -/
theorem zero_offsets : (![0, 0] : Fin 2 → Nat) = fun _ => 0 := funext fun a => by fin_cases a <;> rfl

/-- The body's one store, read at `(p, q)` of the block, is the function of the two input blocks there. -/
theorem out_apply (x0 : Vec Ideal S128x4096 .f32) (x1 : Vec Ideal S16x4096 .f32) (p : Fin 128) (q : Fin 4096) :
    out0_2 x0 x1 (ix2 p q) = enhance x0 x1 (ix2 p q) := by
  unfold out0_2
  rw [View.canon_unit_zero zero_offsets]
  simp only [View.ld_unit_zero (S := S128x4096) zero_offsets]
  unfold k0_pay1 k0_pay5 k0_pay2 k0_pay3 k0_pay4 k0_pay6
  refine congrArg (x0 (ix2 p q) * ·) ?_
  refine acc_step x0 x1 p q 15 (by decide) _ _ _ _ ?_ (broadcastTo_ld_row_apply 15 (by decide) x1 _ _ p q)
    (dynamicRotate_cols_apply _ 16 (by decide) rfl x0 _ p q)
  refine acc_step x0 x1 p q 14 (by decide) _ _ _ _ ?_ (broadcastTo_ld_row_apply 14 (by decide) x1 _ _ p q)
    (dynamicRotate_cols_apply _ 15 (by decide) rfl x0 _ p q)
  refine acc_step x0 x1 p q 13 (by decide) _ _ _ _ ?_ (broadcastTo_ld_row_apply 13 (by decide) x1 _ _ p q)
    (dynamicRotate_cols_apply _ 14 (by decide) rfl x0 _ p q)
  refine acc_step x0 x1 p q 12 (by decide) _ _ _ _ ?_ (broadcastTo_ld_row_apply 12 (by decide) x1 _ _ p q)
    (dynamicRotate_cols_apply _ 13 (by decide) rfl x0 _ p q)
  refine acc_step x0 x1 p q 11 (by decide) _ _ _ _ ?_ (broadcastTo_ld_row_apply 11 (by decide) x1 _ _ p q)
    (dynamicRotate_cols_apply _ 12 (by decide) rfl x0 _ p q)
  refine acc_step x0 x1 p q 10 (by decide) _ _ _ _ ?_ (broadcastTo_ld_row_apply 10 (by decide) x1 _ _ p q)
    (dynamicRotate_cols_apply _ 11 (by decide) rfl x0 _ p q)
  refine acc_step x0 x1 p q 9 (by decide) _ _ _ _ ?_ (broadcastTo_ld_row_apply 9 (by decide) x1 _ _ p q)
    (dynamicRotate_cols_apply _ 10 (by decide) rfl x0 _ p q)
  refine acc_step x0 x1 p q 8 (by decide) _ _ _ _ ?_ (broadcastTo_ld_row_apply 8 (by decide) x1 _ _ p q)
    (dynamicRotate_cols_apply _ 9 (by decide) rfl x0 _ p q)
  refine acc_step x0 x1 p q 7 (by decide) _ _ _ _ ?_ (broadcastTo_ld_row_apply 7 (by decide) x1 _ _ p q)
    (dynamicRotate_cols_apply _ 8 (by decide) rfl x0 _ p q)
  refine acc_step x0 x1 p q 6 (by decide) _ _ _ _ ?_ (broadcastTo_ld_row_apply 6 (by decide) x1 _ _ p q)
    (dynamicRotate_cols_apply _ 7 (by decide) rfl x0 _ p q)
  refine acc_step x0 x1 p q 5 (by decide) _ _ _ _ ?_ (broadcastTo_ld_row_apply 5 (by decide) x1 _ _ p q)
    (dynamicRotate_cols_apply _ 6 (by decide) rfl x0 _ p q)
  refine acc_step x0 x1 p q 4 (by decide) _ _ _ _ ?_ (broadcastTo_ld_row_apply 4 (by decide) x1 _ _ p q)
    (dynamicRotate_cols_apply _ 5 (by decide) rfl x0 _ p q)
  refine acc_step x0 x1 p q 3 (by decide) _ _ _ _ ?_ (broadcastTo_ld_row_apply 3 (by decide) x1 _ _ p q)
    (dynamicRotate_cols_apply _ 4 (by decide) rfl x0 _ p q)
  refine acc_step x0 x1 p q 2 (by decide) _ _ _ _ ?_ (broadcastTo_ld_row_apply 2 (by decide) x1 _ _ p q)
    (dynamicRotate_cols_apply _ 3 (by decide) rfl x0 _ p q)
  refine acc_step x0 x1 p q 1 (by decide) _ _ _ _ ?_ (broadcastTo_ld_row_apply 1 (by decide) x1 _ _ p q)
    (dynamicRotate_cols_apply _ 2 (by decide) rfl x0 _ p q)
  refine acc_step x0 x1 p q 0 (by decide) _ _ _ _ ?_ (broadcastTo_ld_row_apply 0 (by decide) x1 _ _ p q)
    (dynamicRotate_cols_apply _ 1 (by decide) rfl x0 _ p q)
  rfl

/-- The same, as an equation of blocks. -/
theorem out_eq (x0 : Vec Ideal S128x4096 .f32) (x1 : Vec Ideal S16x4096 .f32) :
    out0_2 x0 x1 = enhance x0 x1 := by
  funext j
  obtain ⟨p, q, rfl⟩ : ∃ (p : Fin 128) (q : Fin 4096), j = ix2 p q := ⟨j 0, j 1, eq_ix2 j⟩
  exact out_apply x0 x1 p q

end Cert.Quad.KernelTile

end
-- ==== Proof.KernelArray.lean ====
/-
  The kernel's result array after the run, as ONE function of the two argument arrays.

  The grid has 64 points. At point `t` the `x` window holds rows `128·t … 128·t + 127` of `x` (all 4096 columns), the weight
  window holds the whole 16 × 4096 weight array at every point, and the output window writes back rows
  `128·t … 128·t + 127` of the result (the three index maps, decided over the grid). The body leaves in the output block
  the function `enhance` of the two input blocks (KernelTile.lean), and a row of `enhance` reads `x` in that row only
  (`enhance_rows`), so what point `t` writes back is rows `128·t … 128·t + 127` of `enhance x w` of the WHOLE arrays. Row
  `r` of the result lies in the block of point `r / 128`, so the 64 blocks cover the array, and it ends holding
  `enhance x w`.
-/
import proofs.«150799_j47957604827151_2_alg».proof.Proof.Gen.KernelIdeal.Value
import proofs.«150799_j47957604827151_2_alg».proof.Proof.QuadSpec
import proofs.«150799_j47957604827151_2_alg».proof.Proof.KernelTile
import Idealize.ShloMosaic.Lib.Pipeline.Value
import Idealize.ShloMosaic.Lib.ValueIdx

noncomputable section

namespace Cert.Quad.KernelArray

open Cert.KernelIdeal Cert.KernelIdeal.Gen Idealize.ShloMosaic Idealize.ShloMosaic.TcCoe Idealize.SL.Sem
open Idealize.ShloMosaic.ValueIdx Cert.Quad
open Idealize.ShloMosaic.Pipeline (Dat)

variable (m : (ℓ : Loc nD τ sig) → Buf (Elt Ideal) ℓ) (ρ : Dev nD → PrngReg)

/-! ## The grid -/

/-- The three index maps over the 64 grid points: the `x` window and the output window are at row block `t`, column
    block 0; the weight window is at block (0, 0) throughout. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A grid point's number is below 64. -/
theorem point_lt (t : Fin cfg0.N) : t.val < 64 := Nat.lt_of_lt_of_eq t.isLt N_0

/-- Row `p` of point `t`'s block is row `128·t + p` of the array. -/
def rowAt (t : Fin cfg0.N) (p : Fin 128) : Fin 8192 :=
  ⟨t.val * 128 + p.val, by have := point_lt t; have := p.isLt; omega⟩

/-! ## The blocks, read -/

/-- The `x` window's block at point `t` is rows `128·t …` of the `x` array as the region finds it. -/
theorem x_block_apply (c : Dev nD) (t : Fin cfg0.N) (p : Fin 128) (q : Fin 4096) :
    (iblk m c 0 t : Vec Ideal S128x4096 .f32) (ix2 p q) = (V m c main_arg0 : S8192x4096.Idx → EReal) (ix2 (rowAt t p) q) := by
  obtain ⟨e0, e1, -, -, -, -⟩ := index_maps t
  show V m c main_arg0 (((cfg0.win 0).blk t).view.emb (ix2 p q)) = _
  refine congrArg (V m c main_arg0) (funext fun a => Fin.ext ?_)
  match a with
  | ⟨0, _⟩ => show win0_0.index t (0 : Fin 2) * 128 + 1 * p.val = t.val * 128 + p.val; omega
  | ⟨1, _⟩ => show win0_0.index t (1 : Fin 2) * 4096 + 1 * q.val = q.val; omega

/-- The weight window's block at any point is the whole weight array as the region finds it. -/
theorem w_block_apply (c : Dev nD) (t : Fin cfg0.N) (k : Fin 16) (q : Fin 4096) :
    (iblk m c 1 t : Vec Ideal S16x4096 .f32) (ix2 k q) = (V m c main_arg1 : S16x4096.Idx → EReal) (ix2 k q) := by
  obtain ⟨-, -, e2, e3, -, -⟩ := index_maps t
  show V m c main_arg1 (((cfg0.win 1).blk t).view.emb (ix2 k q)) = _
  refine congrArg (V m c main_arg1) (funext fun a => Fin.ext ?_)
  match a with
  | ⟨0, _⟩ => show win0_1.index t (0 : Fin 2) * 16 + 1 * k.val = k.val; omega
  | ⟨1, _⟩ => show win0_1.index t (1 : Fin 2) * 4096 + 1 * q.val = q.val; omega

/-- Entry `(p, q)` of the output window's block at point `t` sits at `(128·t + p, q)` of the result array. -/
theorem out_block_emb (t : Fin cfg0.N) (p : Fin 128) (q : Fin 4096) :
    (((cfg0.win 2).blk t).view.emb (ix2 p q) : S8192x4096.Idx) = ix2 (rowAt t p) q := by
  obtain ⟨-, -, -, -, e4, e5⟩ := index_maps t
  funext a
  apply Fin.ext
  match a with
  | ⟨0, _⟩ => show win0_2.index t (0 : Fin 2) * 128 + 1 * p.val = t.val * 128 + p.val; omega
  | ⟨1, _⟩ => show win0_2.index t (1 : Fin 2) * 4096 + 1 * q.val = q.val; omega

/-! ## What each point writes back -/

/-- Point `t` writes back block `t` of `enhance` of the whole arrays. -/
theorem flushed_eq (c : Dev nD) (t : Fin cfg0.N) :
    (dats m 0 c).flushed 2 t
      = ((cfg0.win 2).blk t).view.read (Elt Ideal)
          (enhance (V m c main_arg0 : S8192x4096.Idx → EReal) (V m c main_arg1 : S16x4096.Idx → EReal)) := by
  show (cfg0.win 2).cut (grid0.coords t) ((dats m 0 c).after 2 t) = _
  rw [after0_2]
  funext j
  obtain ⟨p, q, rfl⟩ : ∃ (p : Fin 128) (q : Fin 4096), j = ix2 p q := ⟨j 0, j 1, eq_ix2 j⟩
  show out0_2 (iblk m c 0 t) (iblk m c 1 t) (ix2 p q)
    = enhance (V m c main_arg0 : S8192x4096.Idx → EReal) (V m c main_arg1 : S16x4096.Idx → EReal)
        (((cfg0.win 2).blk t).view.emb (ix2 p q))
  refine (KernelTile.out_apply (iblk m c 0 t) (iblk m c 1 t) p q).trans ?_
  refine (enhance_rows (iblk m c 0 t : Vec Ideal S128x4096 .f32) (V m c main_arg0 : S8192x4096.Idx → EReal)
    (iblk m c 1 t : Vec Ideal S16x4096 .f32) (V m c main_arg1 : S16x4096.Idx → EReal) p (rowAt t p)
    (fun d => x_block_apply m c t p d) (fun k d => w_block_apply m c t k d) q).trans ?_
  exact congrArg (enhance (V m c main_arg0 : S8192x4096.Idx → EReal) (V m c main_arg1 : S16x4096.Idx → EReal))
    (out_block_emb t p q).symm

/-! ## The cover -/

/-- An index of the result array is in point `t`'s block iff each coordinate is in the block's range on its axis. -/
theorem mem_block (t : Fin cfg0.N) (i : S8192x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v0).slice (win0_2.rect t)).set ↔ _
  rw [View.set_slice_whole, Rect.mem_set_unit]
  exact Iff.rfl

/-- Every index of the result array is in the block of the point its row falls in, `r / 128`, and every point writes
    back. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 64 := N_0
  obtain ⟨t, ht⟩ : ∃ t : Fin cfg0.N, t.val = (i 0).val / 128 := ⟨⟨(i 0).val / 128, by omega⟩, rfl⟩
  obtain ⟨-, -, -, -, e4, e5⟩ := index_maps t
  refine ⟨t, flush0_2 t, ?_⟩
  rw [mem_block]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 4096 ≤ (i 1).val ∧ (i 1).val < win0_2.index t (1 : Fin 2) * 4096 + 4096
    omega

/-! ## The array, and the run -/

/-- The result array after the run is `enhance` of the argument arrays. -/
theorem final (c : Dev nD) :
    (dats m 0 c).arrAt 2 cfg0.N
      = enhance (m ((c : Thread nD τ).loc main_arg0) : S8192x4096.Idx → EReal)
          (m ((c : Thread nD τ).loc main_arg1) : S16x4096.Idx → EReal) :=
  (dats m 0 c).arrAt_eq_of_cover 2 _ (fun t _ => flushed_eq m c t) (covered)

/-- The frame run re-posted: the result array at `enhance` of the arguments, the arguments unchanged. -/
theorem run : θ_run defs (onTc (τ := τ) (main (F := Ideal))) ⟨m, fun _ => 0, ρ⟩ fun r => ∀ c : Dev nD,
      r.2.mem ((c : Thread nD τ).loc main_v0)
        = enhance (m ((c : Thread nD τ).loc main_arg0) : S8192x4096.Idx → EReal)
            (m ((c : Thread nD τ).loc main_arg1) : S16x4096.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Quad.KernelArray

end
-- ==== Proof.RefOps.lean ====
/-
  The reference program's operations, one definition each, and their list.

  The host program is a straight line of 147 operations, each writing one buffer: the constant and its broadcast, then
  for each of the sixteen taps nine operations — the weight row sliced, flattened, made a row and (later) broadcast over
  all rows; the two column slices of `x` and their join; the product and the sum — and the final product with `x`. The
  operation writing buffer `b` is named `w_b`. The program prints its statements in two parts; `ops0` lists the first
  part's operations (through the flattening of weight row 8) and `ops1` the second's, each as two shorter stretches.
-/
import proofs.«150799_j47957604827151_2_alg».proof.Proof.Gen.ReferenceIdeal
import Idealize.ShloMosaic.Lib.StableHlo.Run

noncomputable section

namespace Cert.Quad.RefOps

open Cert.ReferenceIdeal Cert.ReferenceIdeal.Gen Idealize.ShloMosaic Idealize.ShloMosaic.TcCoe Idealize.SL.Sem Idealize.ShloMosaic.StableHlo

variable {F : FTy → Type} [FloatOps F]

/-! ## The operations -/

abbrev w_cst : HloOp τ sig (Elt F) :=
  nullary main_cst (constant S_ .f32 0x3F800000#32)
abbrev w_v0 : HloOp τ sig (Elt F) :=
  unary main_cst main_v0 (broadcastInDim S8192x4096 ![] bcast_S_S8192x4096 : (⟨S_, .f32⟩ : BufTy).Contents (Elt F) → (⟨S8192x4096, .f32⟩ : BufTy).Contents (Elt F))
abbrev w_v1 : HloOp τ sig (Elt F) :=
  unary main_arg1 main_v1 ((extractStridedSlice S1x4096 ![0, 0] · slices_S16x4096_S1x4096_0_0) : (⟨S16x4096, .f32⟩ : BufTy).Contents (Elt F) → (⟨S1x4096, .f32⟩ : BufTy).Contents (Elt F))
abbrev w_v2 : HloOp τ sig (Elt F) :=
  reshape main_v1 main_v2 rfl shapeCasts_S1x4096_S4096
abbrev w_v3 : HloOp τ sig (Elt F) :=
  unary main_v2 main_v3 (broadcastInDim S1x4096 ![1] bcast_S4096_S1x4096_1 : (⟨S4096, .f32⟩ : BufTy).Contents (Elt F) → (⟨S1x4096, .f32⟩ : BufTy).Contents (Elt F))
abbrev w_call0_v0 : HloOp τ sig (Elt F) :=
  TRef.unary (TRef.of (T := ⟨S8192x4096, .f32⟩) main_arg0) (TRef.of (T := ⟨S8192x4095, .f32⟩) main_call0_v0) (extractStridedSlice S8192x4095 ![0, 1] · slices_S8192x4096_S8192x4095_0_1)
abbrev w_call0_v1 : HloOp τ sig (Elt F) :=
  TRef.unary (TRef.of (T := ⟨S8192x4096, .f32⟩) main_arg0) (TRef.of (T := ⟨S8192x1, .f32⟩) main_call0_v1) (extractStridedSlice S8192x1 ![0, 0] · slices_S8192x4096_S8192x1_0_0)
abbrev w_v4 : HloOp τ sig (Elt F) :=
  TRef.binary (TRef.of (T := ⟨S8192x4095, .f32⟩) main_call0_v0) (TRef.of (T := ⟨S8192x1, .f32⟩) main_call0_v1) (TRef.of (T := ⟨S8192x4096, .f32⟩) main_v4) (fun a b => concatenate S8192x4096 1 [⟨S8192x4095, a⟩, ⟨S8192x1, b⟩] concatenates_S8192x4095_S8192x1_S8192x4096_d1)
abbrev w_v5 : HloOp τ sig (Elt F) :=
  unary main_v3 main_v5 (broadcastInDim S8192x4096 ![0, 1] bcast_S1x4096_S8192x4096_0_1 : (⟨S1x4096, .f32⟩ : BufTy).Contents (Elt F) → (⟨S8192x4096, .f32⟩ : BufTy).Contents (Elt F))
abbrev w_v6 : HloOp τ sig (Elt F) :=
  binary main_v5 main_v4 main_v6 (mulf : (⟨S8192x4096, .f32⟩ : BufTy).Contents (Elt F) → (⟨S8192x4096, .f32⟩ : BufTy).Contents (Elt F) → (⟨S8192x4096, .f32⟩ : BufTy).Contents (Elt F))
abbrev w_v7 : HloOp τ sig (Elt F) :=
  binary main_v0 main_v6 main_v7 (addf : (⟨S8192x4096, .f32⟩ : BufTy).Contents (Elt F) → (⟨S8192x4096, .f32⟩ : BufTy).Contents (Elt F) → (⟨S8192x4096, .f32⟩ : BufTy).Contents (Elt F))
abbrev w_v8 : HloOp τ sig (Elt F) :=
  unary main_arg1 main_v8 ((extractStridedSlice S1x4096 ![1, 0] · slices_S16x4096_S1x4096_1_0) : (⟨S16x4096, .f32⟩ : BufTy).Contents (Elt F) → (⟨S1x4096, .f32⟩ : BufTy).Contents (Elt F))
abbrev w_v9 : HloOp τ sig (Elt F) :=
  reshape main_v8 main_v9 rfl shapeCasts_S1x4096_S4096
abbrev w_v10 : HloOp τ sig (Elt F) :=
  unary main_v9 main_v10 (broadcastInDim S1x4096 ![1] bcast_S4096_S1x4096_1 : (⟨S4096, .f32⟩ : BufTy).Contents (Elt F) → (⟨S1x4096, .f32⟩ : BufTy).Contents (Elt F))
abbrev w_call1_v0 : HloOp τ sig (Elt F) :=
  TRef.unary (TRef.of (T := ⟨S8192x4096, .f32⟩) main_arg0) (TRef.of (T := ⟨S8192x4094, .f32⟩) main_call1_v0) (extractStridedSlice S8192x4094 ![0, 2] · slices_S8192x4096_S8192x4094_0_2)
abbrev w_call1_v1 : HloOp τ sig (Elt F) :=
  TRef.unary (TRef.of (T := ⟨S8192x4096, .f32⟩) main_arg0) (TRef.of (T := ⟨S8192x2, .f32⟩) main_call1_v1) (extractStridedSlice S8192x2 ![0, 0] · slices_S8192x4096_S8192x2_0_0)
abbrev w_v11 : HloOp τ sig (Elt F) :=
  TRef.binary (TRef.of (T := ⟨S8192x4094, .f32⟩) main_call1_v0) (TRef.of (T := ⟨S8192x2, .f32⟩) main_call1_v1) (TRef.of (T := ⟨S8192x4096, .f32⟩) main_v11) (fun a b => concatenate S8192x4096 1 [⟨S8192x4094, a⟩, ⟨S8192x2, b⟩] concatenates_S8192x4094_S8192x2_S8192x4096_d1)
abbrev w_v12 : HloOp τ sig (Elt F) :=
  unary main_v10 main_v12 (broadcastInDim S8192x4096 ![0, 1] bcast_S1x4096_S8192x4096_0_1 : (⟨S1x4096, .f32⟩ : BufTy).Contents (Elt F) → (⟨S8192x4096, .f32⟩ : BufTy).Contents (Elt F))
abbrev w_v13 : HloOp τ sig (Elt F) :=
  binary main_v12 main_v11 main_v13 (mulf : (⟨S8192x4096, .f32⟩ : BufTy).Contents (Elt F) → (⟨S8192x4096, .f32⟩ : BufTy).Contents (Elt F) → (⟨S8192x4096, .f32⟩ : BufTy).Contents (Elt F))
abbrev w_v14 : HloOp τ sig (Elt F) :=
  binary main_v7 main_v13 main_v14 (addf : (⟨S8192x4096, .f32⟩ : BufTy).Contents (Elt F) → (⟨S8192x4096, .f32⟩ : BufTy).Contents (Elt F) → (⟨S8192x4096, .f32⟩ : BufTy).Contents (Elt F))
abbrev w_v15 : HloOp τ sig (Elt F) :=
  unary main_arg1 main_v15 ((extractStridedSlice S1x4096 ![2, 0] · slices_S16x4096_S1x4096_2_0) : (⟨S16x4096, .f32⟩ : BufTy).Contents (Elt F) → (⟨S1x4096, .f32⟩ : BufTy).Contents (Elt F))
abbrev w_v16 : HloOp τ sig (Elt F) :=
  reshape main_v15 main_v16 rfl shapeCasts_S1x4096_S4096
abbrev w_v17 : HloOp τ sig (Elt F) :=
  unary main_v16 main_v17 (broadcastInDim S1x4096 ![1] bcast_S4096_S1x4096_1 : (⟨S4096, .f32⟩ : BufTy).Contents (Elt F) → (⟨S1x4096, .f32⟩ : BufTy).Contents (Elt F))
abbrev w_call2_v0 : HloOp τ sig (Elt F) :=
  TRef.unary (TRef.of (T := ⟨S8192x4096, .f32⟩) main_arg0) (TRef.of (T := ⟨S8192x4093, .f32⟩) main_call2_v0) (extractStridedSlice S8192x4093 ![0, 3] · slices_S8192x4096_S8192x4093_0_3)
abbrev w_call2_v1 : HloOp τ sig (Elt F) :=
  TRef.unary (TRef.of (T := ⟨S8192x4096, .f32⟩) main_arg0) (TRef.of (T := ⟨S8192x3, .f32⟩) main_call2_v1) (extractStridedSlice S8192x3 ![0, 0] · slices_S8192x4096_S8192x3_0_0)
abbrev w_v18 : HloOp τ sig (Elt F) :=
  TRef.binary (TRef.of (T := ⟨S8192x4093, .f32⟩) main_call2_v0) (TRef.of (T := ⟨S8192x3, .f32⟩) main_call2_v1) (TRef.of (T := ⟨S8192x4096, .f32⟩) main_v18) (fun a b => concatenate S8192x4096 1 [⟨S8192x4093, a⟩, ⟨S8192x3, b⟩] concatenates_S8192x4093_S8192x3_S8192x4096_d1)
abbrev w_v19 : HloOp τ sig (Elt F) :=
  unary main_v17 main_v19 (broadcastInDim S8192x4096 ![0, 1] bcast_S1x4096_S8192x4096_0_1 : (⟨S1x4096, .f32⟩ : BufTy).Contents (Elt F) → (⟨S8192x4096, .f32⟩ : BufTy).Contents (Elt F))
abbrev w_v20 : HloOp τ sig (Elt F) :=
  binary main_v19 main_v18 main_v20 (mulf : (⟨S8192x4096, .f32⟩ : BufTy).Contents (Elt F) → (⟨S8192x4096, .f32⟩ : BufTy).Contents (Elt F) → (⟨S8192x4096, .f32⟩ : BufTy).Contents (Elt F))
abbrev w_v21 : HloOp τ sig (Elt F) :=
  binary main_v14 main_v20 main_v21 (addf : (⟨S8192x4096, .f32⟩ : BufTy).Contents (Elt F) → (⟨S8192x4096, .f32⟩ : BufTy).Contents (Elt F) → (⟨S8192x4096, .f32⟩ : BufTy).Contents (Elt F))
abbrev w_v22 : HloOp τ sig (Elt F) :=
  unary main_arg1 main_v22 ((extractStridedSlice S1x4096 ![3, 0] · slices_S16x4096_S1x4096_3_0) : (⟨S16x4096, .f32⟩ : BufTy).Contents (Elt F) → (⟨S1x4096, .f32⟩ : BufTy).Contents (Elt F))
abbrev w_v23 : HloOp τ sig (Elt F) :=
  reshape main_v22 main_v23 rfl shapeCasts_S1x4096_S4096
abbrev w_v24 : HloOp τ sig (Elt F) :=
  unary main_v23 main_v24 (broadcastInDim S1x4096 ![1] bcast_S4096_S1x4096_1 : (⟨S4096, .f32⟩ : BufTy).Contents (Elt F) → (⟨S1x4096, .f32⟩ : BufTy).Contents (Elt F))
abbrev w_call3_v0 : HloOp τ sig (Elt F) :=
  TRef.unary (TRef.of (T := ⟨S8192x4096, .f32⟩) main_arg0) (TRef.of (T := ⟨S8192x4092, .f32⟩) main_call3_v0) (extractStridedSlice S8192x4092 ![0, 4] · slices_S8192x4096_S8192x4092_0_4)
abbrev w_call3_v1 : HloOp τ sig (Elt F) :=
  TRef.unary (TRef.of (T := ⟨S8192x4096, .f32⟩) main_arg0) (TRef.of (T := ⟨S8192x4, .f32⟩) main_call3_v1) (extractStridedSlice S8192x4 ![0, 0] · slices_S8192x4096_S8192x4_0_0)
abbrev w_v25 : HloOp τ sig (Elt F) :=
  TRef.binary (TRef.of (T := ⟨S8192x4092, .f32⟩) main_call3_v0) (TRef.of (T := ⟨S8192x4, .f32⟩) main_call3_v1) (TRef.of (T := ⟨S8192x4096, .f32⟩) main_v25) (fun a b => concatenate S8192x4096 1 [⟨S8192x4092, a⟩, ⟨S8192x4, b⟩] concatenates_S8192x4092_S8192x4_S8192x4096_d1)
abbrev w_v26 : HloOp τ sig (Elt F) :=
  unary main_v24 main_v26 (broadcastInDim S8192x4096 ![0, 1] bcast_S1x4096_S8192x4096_0_1 : (⟨S1x4096, .f32⟩ : BufTy).Contents (Elt F) → (⟨S8192x4096, .f32⟩ : BufTy).Contents (Elt F))
abbrev w_v27 : HloOp τ sig (Elt F) :=
  binary main_v26 main_v25 main_v27 (mulf : (⟨S8192x4096, .f32⟩ : BufTy).Contents (Elt F) → (⟨S8192x4096, .f32⟩ : BufTy).Contents (Elt F) → (⟨S8192x4096, .f32⟩ : BufTy).Contents (Elt F))
abbrev w_v28 : HloOp τ sig (Elt F) :=
  binary main_v21 main_v27 main_v28 (addf : (⟨S8192x4096, .f32⟩ : BufTy).Contents (Elt F) → (⟨S8192x4096, .f32⟩ : BufTy).Contents (Elt F) → (⟨S8192x4096, .f32⟩ : BufTy).Contents (Elt F))
abbrev w_v29 : HloOp τ sig (Elt F) :=
  unary main_arg1 main_v29 ((extractStridedSlice S1x4096 ![4, 0] · slices_S16x4096_S1x4096_4_0) : (⟨S16x4096, .f32⟩ : BufTy).Contents (Elt F) → (⟨S1x4096, .f32⟩ : BufTy).Contents (Elt F))
abbrev w_v30 : HloOp τ sig (Elt F) :=
  reshape main_v29 main_v30 rfl shapeCasts_S1x4096_S4096
abbrev w_v31 : HloOp τ sig (Elt F) :=
  unary main_v30 main_v31 (broadcastInDim S1x4096 ![1] bcast_S4096_S1x4096_1 : (⟨S4096, .f32⟩ : BufTy).Contents (Elt F) → (⟨S1x4096, .f32⟩ : BufTy).Contents (Elt F))
abbrev w_call4_v0 : HloOp τ sig (Elt F) :=
  TRef.unary (TRef.of (T := ⟨S8192x4096, .f32⟩) main_arg0) (TRef.of (T := ⟨S8192x4091, .f32⟩) main_call4_v0) (extractStridedSlice S8192x4091 ![0, 5] · slices_S8192x4096_S8192x4091_0_5)
abbrev w_call4_v1 : HloOp τ sig (Elt F) :=
  TRef.unary (TRef.of (T := ⟨S8192x4096, .f32⟩) main_arg0) (TRef.of (T := ⟨S8192x5, .f32⟩) main_call4_v1) (extractStridedSlice S8192x5 ![0, 0] · slices_S8192x4096_S8192x5_0_0)
abbrev w_v32 : HloOp τ sig (Elt F) :=
  TRef.binary (TRef.of (T := ⟨S8192x4091, .f32⟩) main_call4_v0) (TRef.of (T := ⟨S8192x5, .f32⟩) main_call4_v1) (TRef.of (T := ⟨S8192x4096, .f32⟩) main_v32) (fun a b => concatenate S8192x4096 1 [⟨S8192x4091, a⟩, ⟨S8192x5, b⟩] concatenates_S8192x4091_S8192x5_S8192x4096_d1)
abbrev w_v33 : HloOp τ sig (Elt F) :=
  unary main_v31 main_v33 (broadcastInDim S8192x4096 ![0, 1] bcast_S1x4096_S8192x4096_0_1 : (⟨S1x4096, .f32⟩ : BufTy).Contents (Elt F) → (⟨S8192x4096, .f32⟩ : BufTy).Contents (Elt F))
abbrev w_v34 : HloOp τ sig (Elt F) :=
  binary main_v33 main_v32 main_v34 (mulf : (⟨S8192x4096, .f32⟩ : BufTy).Contents (Elt F) → (⟨S8192x4096, .f32⟩ : BufTy).Contents (Elt F) → (⟨S8192x4096, .f32⟩ : BufTy).Contents (Elt F))
abbrev w_v35 : HloOp τ sig (Elt F) :=
  binary main_v28 main_v34 main_v35 (addf : (⟨S8192x4096, .f32⟩ : BufTy).Contents (Elt F) → (⟨S8192x4096, .f32⟩ : BufTy).Contents (Elt F) → (⟨S8192x4096, .f32⟩ : BufTy).Contents (Elt F))
abbrev w_v36 : HloOp τ sig (Elt F) :=
  unary main_arg1 main_v36 ((extractStridedSlice S1x4096 ![5, 0] · slices_S16x4096_S1x4096_5_0) : (⟨S16x4096, .f32⟩ : BufTy).Contents (Elt F) → (⟨S1x4096, .f32⟩ : BufTy).Contents (Elt F))
abbrev w_v37 : HloOp τ sig (Elt F) :=
  reshape main_v36 main_v37 rfl shapeCasts_S1x4096_S4096
abbrev w_v38 : HloOp τ sig (Elt F) :=
  unary main_v37 main_v38 (broadcastInDim S1x4096 ![1] bcast_S4096_S1x4096_1 : (⟨S4096, .f32⟩ : BufTy).Contents (Elt F) → (⟨S1x4096, .f32⟩ : BufTy).Contents (Elt F))
abbrev w_call5_v0 : HloOp τ sig (Elt F) :=
  TRef.unary (TRef.of (T := ⟨S8192x4096, .f32⟩) main_arg0) (TRef.of (T := ⟨S8192x4090, .f32⟩) main_call5_v0) (extractStridedSlice S8192x4090 ![0, 6] · slices_S8192x4096_S8192x4090_0_6)
abbrev w_call5_v1 : HloOp τ sig (Elt F) :=
  TRef.unary (TRef.of (T := ⟨S8192x4096, .f32⟩) main_arg0) (TRef.of (T := ⟨S8192x6, .f32⟩) main_call5_v1) (extractStridedSlice S8192x6 ![0, 0] · slices_S8192x4096_S8192x6_0_0)
abbrev w_v39 : HloOp τ sig (Elt F) :=
  TRef.binary (TRef.of (T := ⟨S8192x4090, .f32⟩) main_call5_v0) (TRef.of (T := ⟨S8192x6, .f32⟩) main_call5_v1) (TRef.of (T := ⟨S8192x4096, .f32⟩) main_v39) (fun a b => concatenate S8192x4096 1 [⟨S8192x4090, a⟩, ⟨S8192x6, b⟩] concatenates_S8192x4090_S8192x6_S8192x4096_d1)
abbrev w_v40 : HloOp τ sig (Elt F) :=
  unary main_v38 main_v40 (broadcastInDim S8192x4096 ![0, 1] bcast_S1x4096_S8192x4096_0_1 : (⟨S1x4096, .f32⟩ : BufTy).Contents (Elt F) → (⟨S8192x4096, .f32⟩ : BufTy).Contents (Elt F))
abbrev w_v41 : HloOp τ sig (Elt F) :=
  binary main_v40 main_v39 main_v41 (mulf : (⟨S8192x4096, .f32⟩ : BufTy).Contents (Elt F) → (⟨S8192x4096, .f32⟩ : BufTy).Contents (Elt F) → (⟨S8192x4096, .f32⟩ : BufTy).Contents (Elt F))
abbrev w_v42 : HloOp τ sig (Elt F) :=
  binary main_v35 main_v41 main_v42 (addf : (⟨S8192x4096, .f32⟩ : BufTy).Contents (Elt F) → (⟨S8192x4096, .f32⟩ : BufTy).Contents (Elt F) → (⟨S8192x4096, .f32⟩ : BufTy).Contents (Elt F))
abbrev w_v43 : HloOp τ sig (Elt F) :=
  unary main_arg1 main_v43 ((extractStridedSlice S1x4096 ![6, 0] · slices_S16x4096_S1x4096_6_0) : (⟨S16x4096, .f32⟩ : BufTy).Contents (Elt F) → (⟨S1x4096, .f32⟩ : BufTy).Contents (Elt F))
abbrev w_v44 : HloOp τ sig (Elt F) :=
  reshape main_v43 main_v44 rfl shapeCasts_S1x4096_S4096
abbrev w_v45 : HloOp τ sig (Elt F) :=
  unary main_v44 main_v45 (broadcastInDim S1x4096 ![1] bcast_S4096_S1x4096_1 : (⟨S4096, .f32⟩ : BufTy).Contents (Elt F) → (⟨S1x4096, .f32⟩ : BufTy).Contents (Elt F))
abbrev w_call6_v0 : HloOp τ sig (Elt F) :=
  TRef.unary (TRef.of (T := ⟨S8192x4096, .f32⟩) main_arg0) (TRef.of (T := ⟨S8192x4089, .f32⟩) main_call6_v0) (extractStridedSlice S8192x4089 ![0, 7] · slices_S8192x4096_S8192x4089_0_7)
abbrev w_call6_v1 : HloOp τ sig (Elt F) :=
  TRef.unary (TRef.of (T := ⟨S8192x4096, .f32⟩) main_arg0) (TRef.of (T := ⟨S8192x7, .f32⟩) main_call6_v1) (extractStridedSlice S8192x7 ![0, 0] · slices_S8192x4096_S8192x7_0_0)
abbrev w_v46 : HloOp τ sig (Elt F) :=
  TRef.binary (TRef.of (T := ⟨S8192x4089, .f32⟩) main_call6_v0) (TRef.of (T := ⟨S8192x7, .f32⟩) main_call6_v1) (TRef.of (T := ⟨S8192x4096, .f32⟩) main_v46) (fun a b => concatenate S8192x4096 1 [⟨S8192x4089, a⟩, ⟨S8192x7, b⟩] concatenates_S8192x4089_S8192x7_S8192x4096_d1)
abbrev w_v47 : HloOp τ sig (Elt F) :=
  unary main_v45 main_v47 (broadcastInDim S8192x4096 ![0, 1] bcast_S1x4096_S8192x4096_0_1 : (⟨S1x4096, .f32⟩ : BufTy).Contents (Elt F) → (⟨S8192x4096, .f32⟩ : BufTy).Contents (Elt F))
abbrev w_v48 : HloOp τ sig (Elt F) :=
  binary main_v47 main_v46 main_v48 (mulf : (⟨S8192x4096, .f32⟩ : BufTy).Contents (Elt F) → (⟨S8192x4096, .f32⟩ : BufTy).Contents (Elt F) → (⟨S8192x4096, .f32⟩ : BufTy).Contents (Elt F))
abbrev w_v49 : HloOp τ sig (Elt F) :=
  binary main_v42 main_v48 main_v49 (addf : (⟨S8192x4096, .f32⟩ : BufTy).Contents (Elt F) → (⟨S8192x4096, .f32⟩ : BufTy).Contents (Elt F) → (⟨S8192x4096, .f32⟩ : BufTy).Contents (Elt F))
abbrev w_v50 : HloOp τ sig (Elt F) :=
  unary main_arg1 main_v50 ((extractStridedSlice S1x4096 ![7, 0] · slices_S16x4096_S1x4096_7_0) : (⟨S16x4096, .f32⟩ : BufTy).Contents (Elt F) → (⟨S1x4096, .f32⟩ : BufTy).Contents (Elt F))
abbrev w_v51 : HloOp τ sig (Elt F) :=
  reshape main_v50 main_v51 rfl shapeCasts_S1x4096_S4096
abbrev w_v52 : HloOp τ sig (Elt F) :=
  unary main_v51 main_v52 (broadcastInDim S1x4096 ![1] bcast_S4096_S1x4096_1 : (⟨S4096, .f32⟩ : BufTy).Contents (Elt F) → (⟨S1x4096, .f32⟩ : BufTy).Contents (Elt F))
abbrev w_call7_v0 : HloOp τ sig (Elt F) :=
  TRef.unary (TRef.of (T := ⟨S8192x4096, .f32⟩) main_arg0) (TRef.of (T := ⟨S8192x4088, .f32⟩) main_call7_v0) (extractStridedSlice S8192x4088 ![0, 8] · slices_S8192x4096_S8192x4088_0_8)
abbrev w_call7_v1 : HloOp τ sig (Elt F) :=
  TRef.unary (TRef.of (T := ⟨S8192x4096, .f32⟩) main_arg0) (TRef.of (T := ⟨S8192x8, .f32⟩) main_call7_v1) (extractStridedSlice S8192x8 ![0, 0] · slices_S8192x4096_S8192x8_0_0)
abbrev w_v53 : HloOp τ sig (Elt F) :=
  TRef.binary (TRef.of (T := ⟨S8192x4088, .f32⟩) main_call7_v0) (TRef.of (T := ⟨S8192x8, .f32⟩) main_call7_v1) (TRef.of (T := ⟨S8192x4096, .f32⟩) main_v53) (fun a b => concatenate S8192x4096 1 [⟨S8192x4088, a⟩, ⟨S8192x8, b⟩] concatenates_S8192x4088_S8192x8_S8192x4096_d1)
abbrev w_v54 : HloOp τ sig (Elt F) :=
  unary main_v52 main_v54 (broadcastInDim S8192x4096 ![0, 1] bcast_S1x4096_S8192x4096_0_1 : (⟨S1x4096, .f32⟩ : BufTy).Contents (Elt F) → (⟨S8192x4096, .f32⟩ : BufTy).Contents (Elt F))
abbrev w_v55 : HloOp τ sig (Elt F) :=
  binary main_v54 main_v53 main_v55 (mulf : (⟨S8192x4096, .f32⟩ : BufTy).Contents (Elt F) → (⟨S8192x4096, .f32⟩ : BufTy).Contents (Elt F) → (⟨S8192x4096, .f32⟩ : BufTy).Contents (Elt F))
abbrev w_v56 : HloOp τ sig (Elt F) :=
  binary main_v49 main_v55 main_v56 (addf : (⟨S8192x4096, .f32⟩ : BufTy).Contents (Elt F) → (⟨S8192x4096, .f32⟩ : BufTy).Contents (Elt F) → (⟨S8192x4096, .f32⟩ : BufTy).Contents (Elt F))
abbrev w_v57 : HloOp τ sig (Elt F) :=
  unary main_arg1 main_v57 ((extractStridedSlice S1x4096 ![8, 0] · slices_S16x4096_S1x4096_8_0) : (⟨S16x4096, .f32⟩ : BufTy).Contents (Elt F) → (⟨S1x4096, .f32⟩ : BufTy).Contents (Elt F))
abbrev w_v58 : HloOp τ sig (Elt F) :=
  reshape main_v57 main_v58 rfl shapeCasts_S1x4096_S4096
abbrev w_v59 : HloOp τ sig (Elt F) :=
  unary main_v58 main_v59 (broadcastInDim S1x4096 ![1] bcast_S4096_S1x4096_1 : (⟨S4096, .f32⟩ : BufTy).Contents (Elt F) → (⟨S1x4096, .f32⟩ : BufTy).Contents (Elt F))
abbrev w_call8_v0 : HloOp τ sig (Elt F) :=
  TRef.unary (TRef.of (T := ⟨S8192x4096, .f32⟩) main_arg0) (TRef.of (T := ⟨S8192x4087, .f32⟩) main_call8_v0) (extractStridedSlice S8192x4087 ![0, 9] · slices_S8192x4096_S8192x4087_0_9)
abbrev w_call8_v1 : HloOp τ sig (Elt F) :=
  TRef.unary (TRef.of (T := ⟨S8192x4096, .f32⟩) main_arg0) (TRef.of (T := ⟨S8192x9, .f32⟩) main_call8_v1) (extractStridedSlice S8192x9 ![0, 0] · slices_S8192x4096_S8192x9_0_0)
abbrev w_v60 : HloOp τ sig (Elt F) :=
  TRef.binary (TRef.of (T := ⟨S8192x4087, .f32⟩) main_call8_v0) (TRef.of (T := ⟨S8192x9, .f32⟩) main_call8_v1) (TRef.of (T := ⟨S8192x4096, .f32⟩) main_v60) (fun a b => concatenate S8192x4096 1 [⟨S8192x4087, a⟩, ⟨S8192x9, b⟩] concatenates_S8192x4087_S8192x9_S8192x4096_d1)
abbrev w_v61 : HloOp τ sig (Elt F) :=
  unary main_v59 main_v61 (broadcastInDim S8192x4096 ![0, 1] bcast_S1x4096_S8192x4096_0_1 : (⟨S1x4096, .f32⟩ : BufTy).Contents (Elt F) → (⟨S8192x4096, .f32⟩ : BufTy).Contents (Elt F))
abbrev w_v62 : HloOp τ sig (Elt F) :=
  binary main_v61 main_v60 main_v62 (mulf : (⟨S8192x4096, .f32⟩ : BufTy).Contents (Elt F) → (⟨S8192x4096, .f32⟩ : BufTy).Contents (Elt F) → (⟨S8192x4096, .f32⟩ : BufTy).Contents (Elt F))
abbrev w_v63 : HloOp τ sig (Elt F) :=
  binary main_v56 main_v62 main_v63 (addf : (⟨S8192x4096, .f32⟩ : BufTy).Contents (Elt F) → (⟨S8192x4096, .f32⟩ : BufTy).Contents (Elt F) → (⟨S8192x4096, .f32⟩ : BufTy).Contents (Elt F))
abbrev w_v64 : HloOp τ sig (Elt F) :=
  unary main_arg1 main_v64 ((extractStridedSlice S1x4096 ![9, 0] · slices_S16x4096_S1x4096_9_0) : (⟨S16x4096, .f32⟩ : BufTy).Contents (Elt F) → (⟨S1x4096, .f32⟩ : BufTy).Contents (Elt F))
abbrev w_v65 : HloOp τ sig (Elt F) :=
  reshape main_v64 main_v65 rfl shapeCasts_S1x4096_S4096
abbrev w_v66 : HloOp τ sig (Elt F) :=
  unary main_v65 main_v66 (broadcastInDim S1x4096 ![1] bcast_S4096_S1x4096_1 : (⟨S4096, .f32⟩ : BufTy).Contents (Elt F) → (⟨S1x4096, .f32⟩ : BufTy).Contents (Elt F))
abbrev w_call9_v0 : HloOp τ sig (Elt F) :=
  TRef.unary (TRef.of (T := ⟨S8192x4096, .f32⟩) main_arg0) (TRef.of (T := ⟨S8192x4086, .f32⟩) main_call9_v0) (extractStridedSlice S8192x4086 ![0, 10] · slices_S8192x4096_S8192x4086_0_10)
abbrev w_call9_v1 : HloOp τ sig (Elt F) :=
  TRef.unary (TRef.of (T := ⟨S8192x4096, .f32⟩) main_arg0) (TRef.of (T := ⟨S8192x10, .f32⟩) main_call9_v1) (extractStridedSlice S8192x10 ![0, 0] · slices_S8192x4096_S8192x10_0_0)
abbrev w_v67 : HloOp τ sig (Elt F) :=
  TRef.binary (TRef.of (T := ⟨S8192x4086, .f32⟩) main_call9_v0) (TRef.of (T := ⟨S8192x10, .f32⟩) main_call9_v1) (TRef.of (T := ⟨S8192x4096, .f32⟩) main_v67) (fun a b => concatenate S8192x4096 1 [⟨S8192x4086, a⟩, ⟨S8192x10, b⟩] concatenates_S8192x4086_S8192x10_S8192x4096_d1)
abbrev w_v68 : HloOp τ sig (Elt F) :=
  unary main_v66 main_v68 (broadcastInDim S8192x4096 ![0, 1] bcast_S1x4096_S8192x4096_0_1 : (⟨S1x4096, .f32⟩ : BufTy).Contents (Elt F) → (⟨S8192x4096, .f32⟩ : BufTy).Contents (Elt F))
abbrev w_v69 : HloOp τ sig (Elt F) :=
  binary main_v68 main_v67 main_v69 (mulf : (⟨S8192x4096, .f32⟩ : BufTy).Contents (Elt F) → (⟨S8192x4096, .f32⟩ : BufTy).Contents (Elt F) → (⟨S8192x4096, .f32⟩ : BufTy).Contents (Elt F))
abbrev w_v70 : HloOp τ sig (Elt F) :=
  binary main_v63 main_v69 main_v70 (addf : (⟨S8192x4096, .f32⟩ : BufTy).Contents (Elt F) → (⟨S8192x4096, .f32⟩ : BufTy).Contents (Elt F) → (⟨S8192x4096, .f32⟩ : BufTy).Contents (Elt F))
abbrev w_v71 : HloOp τ sig (Elt F) :=
  unary main_arg1 main_v71 ((extractStridedSlice S1x4096 ![10, 0] · slices_S16x4096_S1x4096_10_0) : (⟨S16x4096, .f32⟩ : BufTy).Contents (Elt F) → (⟨S1x4096, .f32⟩ : BufTy).Contents (Elt F))
abbrev w_v72 : HloOp τ sig (Elt F) :=
  reshape main_v71 main_v72 rfl shapeCasts_S1x4096_S4096
abbrev w_v73 : HloOp τ sig (Elt F) :=
  unary main_v72 main_v73 (broadcastInDim S1x4096 ![1] bcast_S4096_S1x4096_1 : (⟨S4096, .f32⟩ : BufTy).Contents (Elt F) → (⟨S1x4096, .f32⟩ : BufTy).Contents (Elt F))
abbrev w_call10_v0 : HloOp τ sig (Elt F) :=
  TRef.unary (TRef.of (T := ⟨S8192x4096, .f32⟩) main_arg0) (TRef.of (T := ⟨S8192x4085, .f32⟩) main_call10_v0) (extractStridedSlice S8192x4085 ![0, 11] · slices_S8192x4096_S8192x4085_0_11)
abbrev w_call10_v1 : HloOp τ sig (Elt F) :=
  TRef.unary (TRef.of (T := ⟨S8192x4096, .f32⟩) main_arg0) (TRef.of (T := ⟨S8192x11, .f32⟩) main_call10_v1) (extractStridedSlice S8192x11 ![0, 0] · slices_S8192x4096_S8192x11_0_0)
abbrev w_v74 : HloOp τ sig (Elt F) :=
  TRef.binary (TRef.of (T := ⟨S8192x4085, .f32⟩) main_call10_v0) (TRef.of (T := ⟨S8192x11, .f32⟩) main_call10_v1) (TRef.of (T := ⟨S8192x4096, .f32⟩) main_v74) (fun a b => concatenate S8192x4096 1 [⟨S8192x4085, a⟩, ⟨S8192x11, b⟩] concatenates_S8192x4085_S8192x11_S8192x4096_d1)
abbrev w_v75 : HloOp τ sig (Elt F) :=
  unary main_v73 main_v75 (broadcastInDim S8192x4096 ![0, 1] bcast_S1x4096_S8192x4096_0_1 : (⟨S1x4096, .f32⟩ : BufTy).Contents (Elt F) → (⟨S8192x4096, .f32⟩ : BufTy).Contents (Elt F))
abbrev w_v76 : HloOp τ sig (Elt F) :=
  binary main_v75 main_v74 main_v76 (mulf : (⟨S8192x4096, .f32⟩ : BufTy).Contents (Elt F) → (⟨S8192x4096, .f32⟩ : BufTy).Contents (Elt F) → (⟨S8192x4096, .f32⟩ : BufTy).Contents (Elt F))
abbrev w_v77 : HloOp τ sig (Elt F) :=
  binary main_v70 main_v76 main_v77 (addf : (⟨S8192x4096, .f32⟩ : BufTy).Contents (Elt F) → (⟨S8192x4096, .f32⟩ : BufTy).Contents (Elt F) → (⟨S8192x4096, .f32⟩ : BufTy).Contents (Elt F))
abbrev w_v78 : HloOp τ sig (Elt F) :=
  unary main_arg1 main_v78 ((extractStridedSlice S1x4096 ![11, 0] · slices_S16x4096_S1x4096_11_0) : (⟨S16x4096, .f32⟩ : BufTy).Contents (Elt F) → (⟨S1x4096, .f32⟩ : BufTy).Contents (Elt F))
abbrev w_v79 : HloOp τ sig (Elt F) :=
  reshape main_v78 main_v79 rfl shapeCasts_S1x4096_S4096
abbrev w_v80 : HloOp τ sig (Elt F) :=
  unary main_v79 main_v80 (broadcastInDim S1x4096 ![1] bcast_S4096_S1x4096_1 : (⟨S4096, .f32⟩ : BufTy).Contents (Elt F) → (⟨S1x4096, .f32⟩ : BufTy).Contents (Elt F))
abbrev w_call11_v0 : HloOp τ sig (Elt F) :=
  TRef.unary (TRef.of (T := ⟨S8192x4096, .f32⟩) main_arg0) (TRef.of (T := ⟨S8192x4084, .f32⟩) main_call11_v0) (extractStridedSlice S8192x4084 ![0, 12] · slices_S8192x4096_S8192x4084_0_12)
abbrev w_call11_v1 : HloOp τ sig (Elt F) :=
  TRef.unary (TRef.of (T := ⟨S8192x4096, .f32⟩) main_arg0) (TRef.of (T := ⟨S8192x12, .f32⟩) main_call11_v1) (extractStridedSlice S8192x12 ![0, 0] · slices_S8192x4096_S8192x12_0_0)
abbrev w_v81 : HloOp τ sig (Elt F) :=
  TRef.binary (TRef.of (T := ⟨S8192x4084, .f32⟩) main_call11_v0) (TRef.of (T := ⟨S8192x12, .f32⟩) main_call11_v1) (TRef.of (T := ⟨S8192x4096, .f32⟩) main_v81) (fun a b => concatenate S8192x4096 1 [⟨S8192x4084, a⟩, ⟨S8192x12, b⟩] concatenates_S8192x4084_S8192x12_S8192x4096_d1)
abbrev w_v82 : HloOp τ sig (Elt F) :=
  unary main_v80 main_v82 (broadcastInDim S8192x4096 ![0, 1] bcast_S1x4096_S8192x4096_0_1 : (⟨S1x4096, .f32⟩ : BufTy).Contents (Elt F) → (⟨S8192x4096, .f32⟩ : BufTy).Contents (Elt F))
abbrev w_v83 : HloOp τ sig (Elt F) :=
  binary main_v82 main_v81 main_v83 (mulf : (⟨S8192x4096, .f32⟩ : BufTy).Contents (Elt F) → (⟨S8192x4096, .f32⟩ : BufTy).Contents (Elt F) → (⟨S8192x4096, .f32⟩ : BufTy).Contents (Elt F))
abbrev w_v84 : HloOp τ sig (Elt F) :=
  binary main_v77 main_v83 main_v84 (addf : (⟨S8192x4096, .f32⟩ : BufTy).Contents (Elt F) → (⟨S8192x4096, .f32⟩ : BufTy).Contents (Elt F) → (⟨S8192x4096, .f32⟩ : BufTy).Contents (Elt F))
abbrev w_v85 : HloOp τ sig (Elt F) :=
  unary main_arg1 main_v85 ((extractStridedSlice S1x4096 ![12, 0] · slices_S16x4096_S1x4096_12_0) : (⟨S16x4096, .f32⟩ : BufTy).Contents (Elt F) → (⟨S1x4096, .f32⟩ : BufTy).Contents (Elt F))
abbrev w_v86 : HloOp τ sig (Elt F) :=
  reshape main_v85 main_v86 rfl shapeCasts_S1x4096_S4096
abbrev w_v87 : HloOp τ sig (Elt F) :=
  unary main_v86 main_v87 (broadcastInDim S1x4096 ![1] bcast_S4096_S1x4096_1 : (⟨S4096, .f32⟩ : BufTy).Contents (Elt F) → (⟨S1x4096, .f32⟩ : BufTy).Contents (Elt F))
abbrev w_call12_v0 : HloOp τ sig (Elt F) :=
  TRef.unary (TRef.of (T := ⟨S8192x4096, .f32⟩) main_arg0) (TRef.of (T := ⟨S8192x4083, .f32⟩) main_call12_v0) (extractStridedSlice S8192x4083 ![0, 13] · slices_S8192x4096_S8192x4083_0_13)
abbrev w_call12_v1 : HloOp τ sig (Elt F) :=
  TRef.unary (TRef.of (T := ⟨S8192x4096, .f32⟩) main_arg0) (TRef.of (T := ⟨S8192x13, .f32⟩) main_call12_v1) (extractStridedSlice S8192x13 ![0, 0] · slices_S8192x4096_S8192x13_0_0)
abbrev w_v88 : HloOp τ sig (Elt F) :=
  TRef.binary (TRef.of (T := ⟨S8192x4083, .f32⟩) main_call12_v0) (TRef.of (T := ⟨S8192x13, .f32⟩) main_call12_v1) (TRef.of (T := ⟨S8192x4096, .f32⟩) main_v88) (fun a b => concatenate S8192x4096 1 [⟨S8192x4083, a⟩, ⟨S8192x13, b⟩] concatenates_S8192x4083_S8192x13_S8192x4096_d1)
abbrev w_v89 : HloOp τ sig (Elt F) :=
  unary main_v87 main_v89 (broadcastInDim S8192x4096 ![0, 1] bcast_S1x4096_S8192x4096_0_1 : (⟨S1x4096, .f32⟩ : BufTy).Contents (Elt F) → (⟨S8192x4096, .f32⟩ : BufTy).Contents (Elt F))
abbrev w_v90 : HloOp τ sig (Elt F) :=
  binary main_v89 main_v88 main_v90 (mulf : (⟨S8192x4096, .f32⟩ : BufTy).Contents (Elt F) → (⟨S8192x4096, .f32⟩ : BufTy).Contents (Elt F) → (⟨S8192x4096, .f32⟩ : BufTy).Contents (Elt F))
abbrev w_v91 : HloOp τ sig (Elt F) :=
  binary main_v84 main_v90 main_v91 (addf : (⟨S8192x4096, .f32⟩ : BufTy).Contents (Elt F) → (⟨S8192x4096, .f32⟩ : BufTy).Contents (Elt F) → (⟨S8192x4096, .f32⟩ : BufTy).Contents (Elt F))
abbrev w_v92 : HloOp τ sig (Elt F) :=
  unary main_arg1 main_v92 ((extractStridedSlice S1x4096 ![13, 0] · slices_S16x4096_S1x4096_13_0) : (⟨S16x4096, .f32⟩ : BufTy).Contents (Elt F) → (⟨S1x4096, .f32⟩ : BufTy).Contents (Elt F))
abbrev w_v93 : HloOp τ sig (Elt F) :=
  reshape main_v92 main_v93 rfl shapeCasts_S1x4096_S4096
abbrev w_v94 : HloOp τ sig (Elt F) :=
  unary main_v93 main_v94 (broadcastInDim S1x4096 ![1] bcast_S4096_S1x4096_1 : (⟨S4096, .f32⟩ : BufTy).Contents (Elt F) → (⟨S1x4096, .f32⟩ : BufTy).Contents (Elt F))
abbrev w_call13_v0 : HloOp τ sig (Elt F) :=
  TRef.unary (TRef.of (T := ⟨S8192x4096, .f32⟩) main_arg0) (TRef.of (T := ⟨S8192x4082, .f32⟩) main_call13_v0) (extractStridedSlice S8192x4082 ![0, 14] · slices_S8192x4096_S8192x4082_0_14)
abbrev w_call13_v1 : HloOp τ sig (Elt F) :=
  TRef.unary (TRef.of (T := ⟨S8192x4096, .f32⟩) main_arg0) (TRef.of (T := ⟨S8192x14, .f32⟩) main_call13_v1) (extractStridedSlice S8192x14 ![0, 0] · slices_S8192x4096_S8192x14_0_0)
abbrev w_v95 : HloOp τ sig (Elt F) :=
  TRef.binary (TRef.of (T := ⟨S8192x4082, .f32⟩) main_call13_v0) (TRef.of (T := ⟨S8192x14, .f32⟩) main_call13_v1) (TRef.of (T := ⟨S8192x4096, .f32⟩) main_v95) (fun a b => concatenate S8192x4096 1 [⟨S8192x4082, a⟩, ⟨S8192x14, b⟩] concatenates_S8192x4082_S8192x14_S8192x4096_d1)
abbrev w_v96 : HloOp τ sig (Elt F) :=
  unary main_v94 main_v96 (broadcastInDim S8192x4096 ![0, 1] bcast_S1x4096_S8192x4096_0_1 : (⟨S1x4096, .f32⟩ : BufTy).Contents (Elt F) → (⟨S8192x4096, .f32⟩ : BufTy).Contents (Elt F))
abbrev w_v97 : HloOp τ sig (Elt F) :=
  binary main_v96 main_v95 main_v97 (mulf : (⟨S8192x4096, .f32⟩ : BufTy).Contents (Elt F) → (⟨S8192x4096, .f32⟩ : BufTy).Contents (Elt F) → (⟨S8192x4096, .f32⟩ : BufTy).Contents (Elt F))
abbrev w_v98 : HloOp τ sig (Elt F) :=
  binary main_v91 main_v97 main_v98 (addf : (⟨S8192x4096, .f32⟩ : BufTy).Contents (Elt F) → (⟨S8192x4096, .f32⟩ : BufTy).Contents (Elt F) → (⟨S8192x4096, .f32⟩ : BufTy).Contents (Elt F))
abbrev w_v99 : HloOp τ sig (Elt F) :=
  unary main_arg1 main_v99 ((extractStridedSlice S1x4096 ![14, 0] · slices_S16x4096_S1x4096_14_0) : (⟨S16x4096, .f32⟩ : BufTy).Contents (Elt F) → (⟨S1x4096, .f32⟩ : BufTy).Contents (Elt F))
abbrev w_v100 : HloOp τ sig (Elt F) :=
  reshape main_v99 main_v100 rfl shapeCasts_S1x4096_S4096
abbrev w_v101 : HloOp τ sig (Elt F) :=
  unary main_v100 main_v101 (broadcastInDim S1x4096 ![1] bcast_S4096_S1x4096_1 : (⟨S4096, .f32⟩ : BufTy).Contents (Elt F) → (⟨S1x4096, .f32⟩ : BufTy).Contents (Elt F))
abbrev w_call14_v0 : HloOp τ sig (Elt F) :=
  TRef.unary (TRef.of (T := ⟨S8192x4096, .f32⟩) main_arg0) (TRef.of (T := ⟨S8192x4081, .f32⟩) main_call14_v0) (extractStridedSlice S8192x4081 ![0, 15] · slices_S8192x4096_S8192x4081_0_15)
abbrev w_call14_v1 : HloOp τ sig (Elt F) :=
  TRef.unary (TRef.of (T := ⟨S8192x4096, .f32⟩) main_arg0) (TRef.of (T := ⟨S8192x15, .f32⟩) main_call14_v1) (extractStridedSlice S8192x15 ![0, 0] · slices_S8192x4096_S8192x15_0_0)
abbrev w_v102 : HloOp τ sig (Elt F) :=
  TRef.binary (TRef.of (T := ⟨S8192x4081, .f32⟩) main_call14_v0) (TRef.of (T := ⟨S8192x15, .f32⟩) main_call14_v1) (TRef.of (T := ⟨S8192x4096, .f32⟩) main_v102) (fun a b => concatenate S8192x4096 1 [⟨S8192x4081, a⟩, ⟨S8192x15, b⟩] concatenates_S8192x4081_S8192x15_S8192x4096_d1)
abbrev w_v103 : HloOp τ sig (Elt F) :=
  unary main_v101 main_v103 (broadcastInDim S8192x4096 ![0, 1] bcast_S1x4096_S8192x4096_0_1 : (⟨S1x4096, .f32⟩ : BufTy).Contents (Elt F) → (⟨S8192x4096, .f32⟩ : BufTy).Contents (Elt F))
abbrev w_v104 : HloOp τ sig (Elt F) :=
  binary main_v103 main_v102 main_v104 (mulf : (⟨S8192x4096, .f32⟩ : BufTy).Contents (Elt F) → (⟨S8192x4096, .f32⟩ : BufTy).Contents (Elt F) → (⟨S8192x4096, .f32⟩ : BufTy).Contents (Elt F))
abbrev w_v105 : HloOp τ sig (Elt F) :=
  binary main_v98 main_v104 main_v105 (addf : (⟨S8192x4096, .f32⟩ : BufTy).Contents (Elt F) → (⟨S8192x4096, .f32⟩ : BufTy).Contents (Elt F) → (⟨S8192x4096, .f32⟩ : BufTy).Contents (Elt F))
abbrev w_v106 : HloOp τ sig (Elt F) :=
  unary main_arg1 main_v106 ((extractStridedSlice S1x4096 ![15, 0] · slices_S16x4096_S1x4096_15_0) : (⟨S16x4096, .f32⟩ : BufTy).Contents (Elt F) → (⟨S1x4096, .f32⟩ : BufTy).Contents (Elt F))
abbrev w_v107 : HloOp τ sig (Elt F) :=
  reshape main_v106 main_v107 rfl shapeCasts_S1x4096_S4096
abbrev w_v108 : HloOp τ sig (Elt F) :=
  unary main_v107 main_v108 (broadcastInDim S1x4096 ![1] bcast_S4096_S1x4096_1 : (⟨S4096, .f32⟩ : BufTy).Contents (Elt F) → (⟨S1x4096, .f32⟩ : BufTy).Contents (Elt F))
abbrev w_call15_v0 : HloOp τ sig (Elt F) :=
  TRef.unary (TRef.of (T := ⟨S8192x4096, .f32⟩) main_arg0) (TRef.of (T := ⟨S8192x4080, .f32⟩) main_call15_v0) (extractStridedSlice S8192x4080 ![0, 16] · slices_S8192x4096_S8192x4080_0_16)
abbrev w_call15_v1 : HloOp τ sig (Elt F) :=
  TRef.unary (TRef.of (T := ⟨S8192x4096, .f32⟩) main_arg0) (TRef.of (T := ⟨S8192x16, .f32⟩) main_call15_v1) (extractStridedSlice S8192x16 ![0, 0] · slices_S8192x4096_S8192x16_0_0)
abbrev w_v109 : HloOp τ sig (Elt F) :=
  TRef.binary (TRef.of (T := ⟨S8192x4080, .f32⟩) main_call15_v0) (TRef.of (T := ⟨S8192x16, .f32⟩) main_call15_v1) (TRef.of (T := ⟨S8192x4096, .f32⟩) main_v109) (fun a b => concatenate S8192x4096 1 [⟨S8192x4080, a⟩, ⟨S8192x16, b⟩] concatenates_S8192x4080_S8192x16_S8192x4096_d1)
abbrev w_v110 : HloOp τ sig (Elt F) :=
  unary main_v108 main_v110 (broadcastInDim S8192x4096 ![0, 1] bcast_S1x4096_S8192x4096_0_1 : (⟨S1x4096, .f32⟩ : BufTy).Contents (Elt F) → (⟨S8192x4096, .f32⟩ : BufTy).Contents (Elt F))
abbrev w_v111 : HloOp τ sig (Elt F) :=
  binary main_v110 main_v109 main_v111 (mulf : (⟨S8192x4096, .f32⟩ : BufTy).Contents (Elt F) → (⟨S8192x4096, .f32⟩ : BufTy).Contents (Elt F) → (⟨S8192x4096, .f32⟩ : BufTy).Contents (Elt F))
abbrev w_v112 : HloOp τ sig (Elt F) :=
  binary main_v105 main_v111 main_v112 (addf : (⟨S8192x4096, .f32⟩ : BufTy).Contents (Elt F) → (⟨S8192x4096, .f32⟩ : BufTy).Contents (Elt F) → (⟨S8192x4096, .f32⟩ : BufTy).Contents (Elt F))
abbrev w_v113 : HloOp τ sig (Elt F) :=
  binary main_arg0 main_v112 main_v113 (mulf : (⟨S8192x4096, .f32⟩ : BufTy).Contents (Elt F) → (⟨S8192x4096, .f32⟩ : BufTy).Contents (Elt F) → (⟨S8192x4096, .f32⟩ : BufTy).Contents (Elt F))

/-! ## The line, in four stretches -/

abbrev opsA : List (HloOp τ sig (Elt F)) :=
  [w_cst (F := F), w_v0 (F := F), w_v1 (F := F), w_v2 (F := F), w_v3 (F := F), w_call0_v0 (F := F), w_call0_v1 (F := F), w_v4 (F := F), w_v5 (F := F), w_v6 (F := F), w_v7 (F := F), w_v8 (F := F), w_v9 (F := F), w_v10 (F := F), w_call1_v0 (F := F), w_call1_v1 (F := F), w_v11 (F := F), w_v12 (F := F), w_v13 (F := F), w_v14 (F := F), w_v15 (F := F), w_v16 (F := F), w_v17 (F := F), w_call2_v0 (F := F), w_call2_v1 (F := F), w_v18 (F := F), w_v19 (F := F), w_v20 (F := F), w_v21 (F := F), w_v22 (F := F), w_v23 (F := F), w_v24 (F := F), w_call3_v0 (F := F), w_call3_v1 (F := F), w_v25 (F := F), w_v26 (F := F), w_v27 (F := F), w_v28 (F := F)]

abbrev opsB : List (HloOp τ sig (Elt F)) :=
  [w_v29 (F := F), w_v30 (F := F), w_v31 (F := F), w_call4_v0 (F := F), w_call4_v1 (F := F), w_v32 (F := F), w_v33 (F := F), w_v34 (F := F), w_v35 (F := F), w_v36 (F := F), w_v37 (F := F), w_v38 (F := F), w_call5_v0 (F := F), w_call5_v1 (F := F), w_v39 (F := F), w_v40 (F := F), w_v41 (F := F), w_v42 (F := F), w_v43 (F := F), w_v44 (F := F), w_v45 (F := F), w_call6_v0 (F := F), w_call6_v1 (F := F), w_v46 (F := F), w_v47 (F := F), w_v48 (F := F), w_v49 (F := F), w_v50 (F := F), w_v51 (F := F), w_v52 (F := F), w_call7_v0 (F := F), w_call7_v1 (F := F), w_v53 (F := F), w_v54 (F := F), w_v55 (F := F), w_v56 (F := F), w_v57 (F := F), w_v58 (F := F)]

abbrev opsC : List (HloOp τ sig (Elt F)) :=
  [w_v59 (F := F), w_call8_v0 (F := F), w_call8_v1 (F := F), w_v60 (F := F), w_v61 (F := F), w_v62 (F := F), w_v63 (F := F), w_v64 (F := F), w_v65 (F := F), w_v66 (F := F), w_call9_v0 (F := F), w_call9_v1 (F := F), w_v67 (F := F), w_v68 (F := F), w_v69 (F := F), w_v70 (F := F), w_v71 (F := F), w_v72 (F := F), w_v73 (F := F), w_call10_v0 (F := F), w_call10_v1 (F := F), w_v74 (F := F), w_v75 (F := F), w_v76 (F := F), w_v77 (F := F), w_v78 (F := F), w_v79 (F := F), w_v80 (F := F), w_call11_v0 (F := F), w_call11_v1 (F := F), w_v81 (F := F), w_v82 (F := F), w_v83 (F := F), w_v84 (F := F), w_v85 (F := F), w_v86 (F := F)]

abbrev opsD : List (HloOp τ sig (Elt F)) :=
  [w_v87 (F := F), w_call12_v0 (F := F), w_call12_v1 (F := F), w_v88 (F := F), w_v89 (F := F), w_v90 (F := F), w_v91 (F := F), w_v92 (F := F), w_v93 (F := F), w_v94 (F := F), w_call13_v0 (F := F), w_call13_v1 (F := F), w_v95 (F := F), w_v96 (F := F), w_v97 (F := F), w_v98 (F := F), w_v99 (F := F), w_v100 (F := F), w_v101 (F := F), w_call14_v0 (F := F), w_call14_v1 (F := F), w_v102 (F := F), w_v103 (F := F), w_v104 (F := F), w_v105 (F := F), w_v106 (F := F), w_v107 (F := F), w_v108 (F := F), w_call15_v0 (F := F), w_call15_v1 (F := F), w_v109 (F := F), w_v110 (F := F), w_v111 (F := F), w_v112 (F := F), w_v113 (F := F)]

/-- The first part's operations. -/
abbrev ops0 : List (HloOp τ sig (Elt F)) := opsA (F := F) ++ opsB (F := F)
/-- The second part's operations. -/
abbrev ops1 : List (HloOp τ sig (Elt F)) := opsC (F := F) ++ opsD (F := F)
/-- The whole line. -/
abbrev ops : List (HloOp τ sig (Elt F)) := ops0 (F := F) ++ ops1 (F := F)

end Cert.Quad.RefOps

end
-- ==== Proof.RefPart0.lean ====
/-
  The first part of the reference program is the straight line of its operations: the part's statements, with each
  call of the column-shift function replaced by the function's three operations on the call's buffers, are `ops0` in
  order, by unfolding.
-/
import proofs.«150799_j47957604827151_2_alg».proof.Proof.RefOps
import Idealize.ShloMosaic.Lib.StableHlo.Run

noncomputable section

namespace Cert.Quad.RefPart0

open Cert.ReferenceIdeal Cert.ReferenceIdeal.Gen Idealize.ShloMosaic Idealize.ShloMosaic.TcCoe Idealize.SL.Sem Idealize.ShloMosaic.StableHlo
open Cert.Quad.RefOps

variable {F : FTy → Type} [FloatOps F]

set_option maxRecDepth 8192 in
set_option maxHeartbeats 4000000 in
theorem part_eq (c : Dev nD) : main_part0 (F := F) c = seq (ops0 (F := F)) := rfl

end Cert.Quad.RefPart0

end
-- ==== Proof.RefPart1.lean ====
/-
  The second part of the reference program is the straight line of its operations: the part's statements, with each
  call of the column-shift function replaced by the function's three operations on the call's buffers, are `ops1` in
  order, by unfolding.
-/
import proofs.«150799_j47957604827151_2_alg».proof.Proof.RefOps
import Idealize.ShloMosaic.Lib.StableHlo.Run

noncomputable section

namespace Cert.Quad.RefPart1

open Cert.ReferenceIdeal Cert.ReferenceIdeal.Gen Idealize.ShloMosaic Idealize.ShloMosaic.TcCoe Idealize.SL.Sem Idealize.ShloMosaic.StableHlo
open Cert.Quad.RefOps

variable {F : FTy → Type} [FloatOps F]

set_option maxRecDepth 8192 in
set_option maxHeartbeats 4000000 in
theorem part_eq (c : Dev nD) : main_part1 (F := F) c = seq (ops1 (F := F)) := rfl

end Cert.Quad.RefPart1

end
-- ==== Proof.LibSsa.lean ====
/-
  Reading a straight line of host operations in which every buffer is written at most once.

  A line of operations, each writing one buffer, the buffers written all different and every operand written
  before the operation that reads it (or never): the contents of a buffer after the whole line is then the
  writing operation's function of the contents, after the whole line, of its operands. The lemmas here state
  that "defining equation" for each kind of operation, at a position `k` of the line: what is asked is that
  the buffer written at `k` is not written again later, and that the operands are not written at `k` or later.
  The list `ys` names, in order, the buffer each operation writes, so that the side conditions are decided
  over references.
-/
import Idealize.ShloMosaic.Lib.StableHlo.Run

noncomputable section

namespace Idealize.ShloMosaic.StableHlo

variable {τ : Topo} {sig : RefSig} {Val : EltTy → Type}

/-- The line `ops` writes, operation by operation, exactly the buffers `ys`. -/
abbrev WritesList (ops : List (HloOp τ sig Val)) (ys : List (Ref sig .tc)) : Prop :=
  List.Forall₂ (fun op y => op.writes = {Proc.devRef (τ := τ) .tc y}) ops ys

/-- The fold over two stretches, one after the other. -/
theorem after_append' (l1 l2 : List (HloOp τ sig Val)) (V : Valuation τ sig Val) :
    after (l1 ++ l2) V = after l2 (after l1 V) := by
  induction l1 generalizing V with
  | nil => rfl
  | cons op l ih => rw [List.cons_append, after_cons, after_cons, ih]

private theorem forall₂_exists_of_mem {α β : Type _} {R : α → β → Prop} :
    ∀ {l₁ : List α} {l₂ : List β}, List.Forall₂ R l₁ l₂ → ∀ a ∈ l₁, ∃ b ∈ l₂, R a b
  | _, _, .nil, a, h => nomatch h
  | _, _, .cons (a := a') (b := b') hab htl, a, h => by
    rcases List.mem_cons.mp h with rfl | h
    · exact ⟨b', List.mem_cons_self, hab⟩
    · obtain ⟨b, hb, hR⟩ := forall₂_exists_of_mem htl a h
      exact ⟨b, List.mem_cons_of_mem _ hb, hR⟩

private theorem forall₂_drop {α β : Type _} {R : α → β → Prop} :
    ∀ (k : Nat) {l₁ : List α} {l₂ : List β}, List.Forall₂ R l₁ l₂ → List.Forall₂ R (l₁.drop k) (l₂.drop k)
  | 0, _, _, h => h
  | _ + 1, _, _, .nil => .nil
  | k + 1, _, _, .cons _ htl => forall₂_drop k htl

/-- A buffer not written at position `k` or later holds, after the whole line, what it held after the first `k`
    operations. -/
theorem after_persist {ops : List (HloOp τ sig Val)} {ys : List (Ref sig .tc)} (hW : WritesList ops ys)
    (W : Valuation τ sig Val) (k : Nat) {r : Ref sig .tc} (hr : r ∉ ys.drop k) :
    after ops W (Proc.devRef .tc r) = after (ops.take k) W (Proc.devRef .tc r) := by
  conv_lhs => rw [← List.take_append_drop k ops]
  rw [after_append']
  refine after_of_forall_not_mem _ _ fun op hop hmem => ?_
  obtain ⟨y, hy, hwy⟩ := forall₂_exists_of_mem (forall₂_drop k hW) op hop
  rw [hwy, Finset.mem_singleton] at hmem
  exact hr (Proc.devRef_injective _ hmem ▸ hy)

/-- A buffer the line never writes holds what it held before. -/
theorem after_untouched {ops : List (HloOp τ sig Val)} {ys : List (Ref sig .tc)} (hW : WritesList ops ys)
    (W : Valuation τ sig Val) {r : Ref sig .tc} (hr : r ∉ ys) :
    after ops W (Proc.devRef .tc r) = W (Proc.devRef .tc r) :=
  after_persist hW W 0 hr

/-- The first `k + 1` operations are the first `k` and then the one at position `k`. -/
theorem after_take_succ {ops : List (HloOp τ sig Val)} (W : Valuation τ sig Val) (k : Nat) {op : HloOp τ sig Val}
    (hk : ops[k]? = some op) : after (ops.take (k + 1)) W = op.result (after (ops.take k) W) := by
  rw [List.take_succ, hk, Option.toList_some, after_append', after_cons, after_nil]

section Kinds

variable {ops : List (HloOp τ sig Val)} {ys : List (Ref sig .tc)} (hW : WritesList ops ys) (W : Valuation τ sig Val) (k : Nat)
variable {x a b c y : Ref sig .tc}
include hW

/-- A constant at position `k`. -/
theorem ssa_nullary {v : y.ty.Contents Val} {hy} (hk : ops[k]? = some (nullary (τ := τ) y v hy))
    (hy' : y ∉ ys.drop (k + 1)) :
    after ops W (Proc.devRef .tc y) = v := by
  rw [after_persist hW W (k + 1) hy', after_take_succ W k hk, nullary_result]

/-- A one-operand operation at position `k`. -/
theorem ssa_unary {f : x.ty.Contents Val → y.ty.Contents Val} {hx hy} (hk : ops[k]? = some (unary (τ := τ) x y f hx hy))
    (hy' : y ∉ ys.drop (k + 1)) (hx' : x ∉ ys.drop k) :
    after ops W (Proc.devRef .tc y) = f (after ops W (Proc.devRef .tc x)) := by
  rw [after_persist hW W (k + 1) hy', after_take_succ W k hk, unary_result, after_persist hW W k hx']

/-- A two-operand operation at position `k`. -/
theorem ssa_binary {f : a.ty.Contents Val → b.ty.Contents Val → y.ty.Contents Val} {ha hb hy}
    (hk : ops[k]? = some (binary (τ := τ) a b y f ha hb hy))
    (hy' : y ∉ ys.drop (k + 1)) (ha' : a ∉ ys.drop k) (hb' : b ∉ ys.drop k) :
    after ops W (Proc.devRef .tc y) = f (after ops W (Proc.devRef .tc a)) (after ops W (Proc.devRef .tc b)) := by
  rw [after_persist hW W (k + 1) hy', after_take_succ W k hk, binary_result, after_persist hW W k ha',
    after_persist hW W k hb']

/-- A three-operand operation at position `k`. -/
theorem ssa_ternary {f : c.ty.Contents Val → a.ty.Contents Val → b.ty.Contents Val → y.ty.Contents Val} {hc ha hb hy}
    (hk : ops[k]? = some (ternary (τ := τ) c a b y f hc ha hb hy))
    (hy' : y ∉ ys.drop (k + 1)) (hc' : c ∉ ys.drop k) (ha' : a ∉ ys.drop k) (hb' : b ∉ ys.drop k) :
    after ops W (Proc.devRef .tc y)
      = f (after ops W (Proc.devRef .tc c)) (after ops W (Proc.devRef .tc a)) (after ops W (Proc.devRef .tc b)) := by
  rw [after_persist hW W (k + 1) hy', after_take_succ W k hk, ternary_result, after_persist hW W k hc',
    after_persist hW W k ha', after_persist hW W k hb']

/-- An operation over a family of operands at position `k`. -/
theorem ssa_nary {n : Nat} {xs : Fin n → Ref sig .tc} {f : ((j : Fin n) → (xs j).ty.Contents Val) → y.ty.Contents Val} {hxs hy}
    (hk : ops[k]? = some (nary (τ := τ) xs y f hxs hy))
    (hy' : y ∉ ys.drop (k + 1)) (hxs' : ∀ j, xs j ∉ ys.drop k) :
    after ops W (Proc.devRef .tc y) = f (fun j => after ops W (Proc.devRef .tc (xs j))) := by
  rw [after_persist hW W (k + 1) hy', after_take_succ W k hk, nary_result]
  exact congrArg f (funext fun j => (after_persist hW W k (hxs' j)).symm)

end Kinds

end Idealize.ShloMosaic.StableHlo

end
-- ==== Proof.LibSsaOrder.lean ====
/-
  Reading a straight line of host operations whose result buffers are numbered in the order they are written.

  A line of operations, each writing one buffer, the buffer written at position `k` having index `base + k`
  among the buffers of its space: a buffer of index below `base + k` is then written by none of the operations
  from position `k` on. So a buffer of index below `base` keeps its contents through the whole line, and the
  contents of the buffer written at position `k`, after the whole line, is the writing operation's function of
  the contents, after the whole line, of its operands, as soon as every operand has an index below `base + k`
  (it is an argument, or it is written earlier). Every side condition is a comparison of two numbers.
  The lemmas take the operands' contents as equations, so that the value of a buffer is composed from the
  values of its operands without rewriting.
-/
import proofs.«150799_j47957604827151_2_alg».proof.Proof.LibSsa

noncomputable section

namespace Idealize.ShloMosaic.StableHlo

variable {τ : Topo} {sig : RefSig} {Val : EltTy → Type}

/-- Each operation of the line writes exactly one buffer, and the one written at position `k` has index `base + k`. -/
def WritesFrom : Nat → List (HloOp τ sig Val) → Prop
  | _, [] => True
  | base, op :: l =>
    (∃ y : Ref sig .tc, op.writes = {Proc.devRef (τ := τ) .tc y} ∧ y.idx.val = base) ∧ WritesFrom (base + 1) l

private theorem congr3 {α β γ δ : Sort _} (f : α → β → γ → δ) {c₁ c₂ : α} {a₁ a₂ : β} {b₁ b₂ : γ}
    (e₁ : c₁ = c₂) (e₂ : a₁ = a₂) (e₃ : b₁ = b₂) : f c₁ a₁ b₁ = f c₂ a₂ b₂ := by
  subst e₁ e₂ e₃; rfl

namespace WritesFrom

/-- A buffer of index below `base` is written by no operation of the line. -/
theorem after_below : ∀ {base : Nat} (l : List (HloOp τ sig Val)) (V : Valuation τ sig Val), WritesFrom base l →
    ∀ {r : Ref sig .tc}, r.idx.val < base → after l V (Proc.devRef .tc r) = V (Proc.devRef .tc r)
  | _, [], _, _, _, _ => rfl
  | base, op :: l, V, ⟨⟨y, hw, hy⟩, hl⟩, r, hr => by
    rw [after_cons, after_below l _ hl (Nat.lt_succ_of_lt hr), op.result_of_not_mem V]
    rw [hw, Finset.mem_singleton]
    intro e
    have e' : r = y := Proc.devRef_injective _ e
    subst e'
    omega

/-- The line from position `k` on is numbered from `base + k`. -/
theorem drop : ∀ (k : Nat) {base : Nat} {l : List (HloOp τ sig Val)}, WritesFrom base l → WritesFrom (base + k) (l.drop k)
  | 0, _, _, h => h
  | _ + 1, _, [], _ => trivial
  | k + 1, base, _ :: l, ⟨_, hl⟩ => by
    have h := drop k hl
    rw [Nat.add_right_comm] at h
    exact h

variable {base : Nat} {ops : List (HloOp τ sig Val)} (h : WritesFrom base ops) (W : Valuation τ sig Val) (k : Nat)
include h

/-- A buffer of index below `base + k` holds, after the whole line, what it held after the first `k` operations. -/
theorem persist {r : Ref sig .tc} (hr : r.idx.val < base + k) :
    after ops W (Proc.devRef .tc r) = after (ops.take k) W (Proc.devRef .tc r) := by
  conv_lhs => rw [← List.take_append_drop k ops]
  rw [after_append']
  exact after_below _ _ (h.drop k) hr

variable {x a b c y : Ref sig .tc}

/-- A constant at position `k`. -/
theorem nullary {v : y.ty.Contents Val} {hy} (hk : ops[k]? = some (StableHlo.nullary (τ := τ) y v hy))
    (hy' : y.idx.val < base + (k + 1)) :
    after ops W (Proc.devRef .tc y) = v :=
  (h.persist W (k + 1) hy').trans ((congrFun (after_take_succ W k hk) _).trans (nullary_result y v hy _))

/-- A one-operand operation at position `k`, its operand's contents given. -/
theorem unary {f : x.ty.Contents Val → y.ty.Contents Val} {hx hy}
    (hk : ops[k]? = some (StableHlo.unary (τ := τ) x y f hx hy))
    (hy' : y.idx.val < base + (k + 1)) (hx' : x.idx.val < base + k)
    {vx : x.ty.Contents Val} (ex : after ops W (Proc.devRef .tc x) = vx) :
    after ops W (Proc.devRef .tc y) = f vx :=
  (h.persist W (k + 1) hy').trans ((congrFun (after_take_succ W k hk) _).trans ((unary_result x y f hx hy _).trans
    (congrArg f ((h.persist W k hx').symm.trans ex))))

/-- A two-operand operation at position `k`, its operands' contents given. -/
theorem binary {f : a.ty.Contents Val → b.ty.Contents Val → y.ty.Contents Val} {ha hb hy}
    (hk : ops[k]? = some (StableHlo.binary (τ := τ) a b y f ha hb hy))
    (hy' : y.idx.val < base + (k + 1)) (ha' : a.idx.val < base + k) (hb' : b.idx.val < base + k)
    {va : a.ty.Contents Val} {vb : b.ty.Contents Val}
    (ea : after ops W (Proc.devRef .tc a) = va) (eb : after ops W (Proc.devRef .tc b) = vb) :
    after ops W (Proc.devRef .tc y) = f va vb :=
  (h.persist W (k + 1) hy').trans ((congrFun (after_take_succ W k hk) _).trans ((binary_result a b y f ha hb hy _).trans
    (congrArg₂ f ((h.persist W k ha').symm.trans ea) ((h.persist W k hb').symm.trans eb))))

/-- A three-operand operation at position `k`, its operands' contents given. -/
theorem ternary {f : c.ty.Contents Val → a.ty.Contents Val → b.ty.Contents Val → y.ty.Contents Val} {hc ha hb hy}
    (hk : ops[k]? = some (StableHlo.ternary (τ := τ) c a b y f hc ha hb hy))
    (hy' : y.idx.val < base + (k + 1)) (hc' : c.idx.val < base + k) (ha' : a.idx.val < base + k) (hb' : b.idx.val < base + k)
    {vc : c.ty.Contents Val} {va : a.ty.Contents Val} {vb : b.ty.Contents Val}
    (ec : after ops W (Proc.devRef .tc c) = vc) (ea : after ops W (Proc.devRef .tc a) = va)
    (eb : after ops W (Proc.devRef .tc b) = vb) :
    after ops W (Proc.devRef .tc y) = f vc va vb :=
  (h.persist W (k + 1) hy').trans ((congrFun (after_take_succ W k hk) _).trans ((ternary_result c a b y f hc ha hb hy _).trans
    (congr3 f ((h.persist W k hc').symm.trans ec) ((h.persist W k ha').symm.trans ea) ((h.persist W k hb').symm.trans eb))))

/-- A reshape at position `k`, its operand's contents given. -/
theorem reshape {he hn hx hy} (hk : ops[k]? = some (StableHlo.reshape (τ := τ) (Val := Val) x y he hn hx hy))
    (hy' : y.idx.val < base + (k + 1)) (hx' : x.idx.val < base + k)
    {vx : x.ty.Contents Val} (ex : after ops W (Proc.devRef .tc x) = vx) :
    after ops W (Proc.devRef .tc y) = fun i => he ▸ shapeCast y.ty.shape vx hn i :=
  (h.persist W (k + 1) hy').trans ((congrFun (after_take_succ W k hk) _).trans ((reshape_result x y he hn hx hy _).trans
    (congrArg (fun v : x.ty.Contents Val => fun i => he ▸ shapeCast y.ty.shape v hn i) ((h.persist W k hx').symm.trans ex))))

/-- An operation over a family of operands at position `k`, the operands' contents given. -/
theorem nary {n : Nat} {xs : Fin n → Ref sig .tc} {f : ((j : Fin n) → (xs j).ty.Contents Val) → y.ty.Contents Val} {hxs hy}
    (hk : ops[k]? = some (StableHlo.nary (τ := τ) xs y f hxs hy))
    (hy' : y.idx.val < base + (k + 1)) (hxs' : ∀ j, (xs j).idx.val < base + k)
    {vs : (j : Fin n) → (xs j).ty.Contents Val} (es : ∀ j, after ops W (Proc.devRef .tc (xs j)) = vs j) :
    after ops W (Proc.devRef .tc y) = f vs :=
  (h.persist W (k + 1) hy').trans ((congrFun (after_take_succ W k hk) _).trans ((nary_result xs y f hxs hy _).trans
    (congrArg f (funext fun j => (h.persist W k (hxs' j)).symm.trans (es j)))))

/-- An operation over five operands at position `k`, each operand's contents given at its own reference. -/
theorem nary5 {x0 x1 x2 x3 x4 : Ref sig .tc}
    {f : ((j : Fin 5) → ((![x0, x1, x2, x3, x4] : Fin 5 → Ref sig .tc) j).ty.Contents Val) → y.ty.Contents Val} {hxs hy}
    (hk : ops[k]? = some (StableHlo.nary (τ := τ) ![x0, x1, x2, x3, x4] y f hxs hy))
    (hy' : y.idx.val < base + (k + 1))
    (hxs' : ∀ j, ((![x0, x1, x2, x3, x4] : Fin 5 → Ref sig .tc) j).idx.val < base + k)
    {v0 : x0.ty.Contents Val} {v1 : x1.ty.Contents Val} {v2 : x2.ty.Contents Val} {v3 : x3.ty.Contents Val}
    {v4 : x4.ty.Contents Val}
    (e0 : after ops W (Proc.devRef .tc x0) = v0) (e1 : after ops W (Proc.devRef .tc x1) = v1)
    (e2 : after ops W (Proc.devRef .tc x2) = v2) (e3 : after ops W (Proc.devRef .tc x3) = v3)
    (e4 : after ops W (Proc.devRef .tc x4) = v4) :
    after ops W (Proc.devRef .tc y)
      = f (Fin.cons v0 (Fin.cons v1 (Fin.cons v2 (Fin.cons v3 (Fin.cons v4 (fun i => i.elim0)))))) :=
  h.nary W k hk hy' hxs' (fun j => by fin_cases j <;> assumption)

end WritesFrom

end Idealize.ShloMosaic.StableHlo

end
-- ==== Proof.RefTables.lean ====
/-
  Three facts about each stretch of the reference's operations, operation by operation: every buffer an operation
  touches is a TensorCore buffer; no operation allocates a buffer of its own; and the operation at position `k` of the
  whole line writes exactly one buffer, the one numbered `2 + k` (the two arguments are numbered 0 and 1), so that no
  buffer is written twice and every operand is written before it is read.
-/
import proofs.«150799_j47957604827151_2_alg».proof.Proof.RefOps
import proofs.«150799_j47957604827151_2_alg».proof.Proof.LibSsaOrder
import Idealize.ShloMosaic.Lib.StableHlo.Run

noncomputable section

namespace Cert.Quad.RefTables

open Cert.ReferenceIdeal Cert.ReferenceIdeal.Gen Idealize.ShloMosaic Idealize.ShloMosaic.TcCoe Idealize.SL.Sem Idealize.ShloMosaic.StableHlo
open Cert.Quad.RefOps

variable {F : FTy → Type} [FloatOps F]

set_option maxRecDepth 8192 in
theorem sub_A : (opsA (F := F)).Forall fun op => op.bufs ⊆ tcRefs τ sig :=
  ⟨nullary_bufs_sub .., unary_bufs_sub .., unary_bufs_sub .., reshape_bufs_sub .., unary_bufs_sub .., unary_bufs_sub .., unary_bufs_sub .., binary_bufs_sub .., unary_bufs_sub .., binary_bufs_sub .., binary_bufs_sub .., unary_bufs_sub .., reshape_bufs_sub .., unary_bufs_sub .., unary_bufs_sub .., unary_bufs_sub .., binary_bufs_sub .., unary_bufs_sub .., binary_bufs_sub .., binary_bufs_sub .., unary_bufs_sub .., reshape_bufs_sub .., unary_bufs_sub .., unary_bufs_sub .., unary_bufs_sub .., binary_bufs_sub .., unary_bufs_sub .., binary_bufs_sub .., binary_bufs_sub .., unary_bufs_sub .., reshape_bufs_sub .., unary_bufs_sub .., unary_bufs_sub .., unary_bufs_sub .., binary_bufs_sub .., unary_bufs_sub .., binary_bufs_sub .., binary_bufs_sub ..⟩

set_option maxRecDepth 8192 in
theorem fresh_A : (opsA (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem writes_A : WritesFrom 2 (opsA (F := F)) :=
  ⟨⟨main_cst, nullary_writes .., rfl⟩, ⟨⟨main_v0, unary_writes .., rfl⟩, ⟨⟨main_v1, unary_writes .., rfl⟩, ⟨⟨main_v2, reshape_writes .., rfl⟩, ⟨⟨main_v3, unary_writes .., rfl⟩, ⟨⟨main_call0_v0, unary_writes .., rfl⟩, ⟨⟨main_call0_v1, unary_writes .., rfl⟩, ⟨⟨main_v4, binary_writes .., rfl⟩, ⟨⟨main_v5, unary_writes .., rfl⟩, ⟨⟨main_v6, binary_writes .., rfl⟩, ⟨⟨main_v7, binary_writes .., rfl⟩, ⟨⟨main_v8, unary_writes .., rfl⟩, ⟨⟨main_v9, reshape_writes .., rfl⟩, ⟨⟨main_v10, unary_writes .., rfl⟩, ⟨⟨main_call1_v0, unary_writes .., rfl⟩, ⟨⟨main_call1_v1, unary_writes .., rfl⟩, ⟨⟨main_v11, binary_writes .., rfl⟩, ⟨⟨main_v12, unary_writes .., rfl⟩, ⟨⟨main_v13, binary_writes .., rfl⟩, ⟨⟨main_v14, binary_writes .., rfl⟩, ⟨⟨main_v15, unary_writes .., rfl⟩, ⟨⟨main_v16, reshape_writes .., rfl⟩, ⟨⟨main_v17, unary_writes .., rfl⟩, ⟨⟨main_call2_v0, unary_writes .., rfl⟩, ⟨⟨main_call2_v1, unary_writes .., rfl⟩, ⟨⟨main_v18, binary_writes .., rfl⟩, ⟨⟨main_v19, unary_writes .., rfl⟩, ⟨⟨main_v20, binary_writes .., rfl⟩, ⟨⟨main_v21, binary_writes .., rfl⟩, ⟨⟨main_v22, unary_writes .., rfl⟩, ⟨⟨main_v23, reshape_writes .., rfl⟩, ⟨⟨main_v24, unary_writes .., rfl⟩, ⟨⟨main_call3_v0, unary_writes .., rfl⟩, ⟨⟨main_call3_v1, unary_writes .., rfl⟩, ⟨⟨main_v25, binary_writes .., rfl⟩, ⟨⟨main_v26, unary_writes .., rfl⟩, ⟨⟨main_v27, binary_writes .., rfl⟩, ⟨⟨main_v28, binary_writes .., rfl⟩, trivial⟩⟩⟩⟩⟩⟩⟩⟩⟩⟩⟩⟩⟩⟩⟩⟩⟩⟩⟩⟩⟩⟩⟩⟩⟩⟩⟩⟩⟩⟩⟩⟩⟩⟩⟩⟩⟩⟩

set_option maxRecDepth 8192 in
theorem sub_B : (opsB (F := F)).Forall fun op => op.bufs ⊆ tcRefs τ sig :=
  ⟨unary_bufs_sub .., reshape_bufs_sub .., unary_bufs_sub .., unary_bufs_sub .., unary_bufs_sub .., binary_bufs_sub .., unary_bufs_sub .., binary_bufs_sub .., binary_bufs_sub .., unary_bufs_sub .., reshape_bufs_sub .., unary_bufs_sub .., unary_bufs_sub .., unary_bufs_sub .., binary_bufs_sub .., unary_bufs_sub .., binary_bufs_sub .., binary_bufs_sub .., unary_bufs_sub .., reshape_bufs_sub .., unary_bufs_sub .., unary_bufs_sub .., unary_bufs_sub .., binary_bufs_sub .., unary_bufs_sub .., binary_bufs_sub .., binary_bufs_sub .., unary_bufs_sub .., reshape_bufs_sub .., unary_bufs_sub .., unary_bufs_sub .., unary_bufs_sub .., binary_bufs_sub .., unary_bufs_sub .., binary_bufs_sub .., binary_bufs_sub .., unary_bufs_sub .., reshape_bufs_sub ..⟩

set_option maxRecDepth 8192 in
theorem fresh_B : (opsB (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem writes_B : WritesFrom 40 (opsB (F := F)) :=
  ⟨⟨main_v29, unary_writes .., rfl⟩, ⟨⟨main_v30, reshape_writes .., rfl⟩, ⟨⟨main_v31, unary_writes .., rfl⟩, ⟨⟨main_call4_v0, unary_writes .., rfl⟩, ⟨⟨main_call4_v1, unary_writes .., rfl⟩, ⟨⟨main_v32, binary_writes .., rfl⟩, ⟨⟨main_v33, unary_writes .., rfl⟩, ⟨⟨main_v34, binary_writes .., rfl⟩, ⟨⟨main_v35, binary_writes .., rfl⟩, ⟨⟨main_v36, unary_writes .., rfl⟩, ⟨⟨main_v37, reshape_writes .., rfl⟩, ⟨⟨main_v38, unary_writes .., rfl⟩, ⟨⟨main_call5_v0, unary_writes .., rfl⟩, ⟨⟨main_call5_v1, unary_writes .., rfl⟩, ⟨⟨main_v39, binary_writes .., rfl⟩, ⟨⟨main_v40, unary_writes .., rfl⟩, ⟨⟨main_v41, binary_writes .., rfl⟩, ⟨⟨main_v42, binary_writes .., rfl⟩, ⟨⟨main_v43, unary_writes .., rfl⟩, ⟨⟨main_v44, reshape_writes .., rfl⟩, ⟨⟨main_v45, unary_writes .., rfl⟩, ⟨⟨main_call6_v0, unary_writes .., rfl⟩, ⟨⟨main_call6_v1, unary_writes .., rfl⟩, ⟨⟨main_v46, binary_writes .., rfl⟩, ⟨⟨main_v47, unary_writes .., rfl⟩, ⟨⟨main_v48, binary_writes .., rfl⟩, ⟨⟨main_v49, binary_writes .., rfl⟩, ⟨⟨main_v50, unary_writes .., rfl⟩, ⟨⟨main_v51, reshape_writes .., rfl⟩, ⟨⟨main_v52, unary_writes .., rfl⟩, ⟨⟨main_call7_v0, unary_writes .., rfl⟩, ⟨⟨main_call7_v1, unary_writes .., rfl⟩, ⟨⟨main_v53, binary_writes .., rfl⟩, ⟨⟨main_v54, unary_writes .., rfl⟩, ⟨⟨main_v55, binary_writes .., rfl⟩, ⟨⟨main_v56, binary_writes .., rfl⟩, ⟨⟨main_v57, unary_writes .., rfl⟩, ⟨⟨main_v58, reshape_writes .., rfl⟩, trivial⟩⟩⟩⟩⟩⟩⟩⟩⟩⟩⟩⟩⟩⟩⟩⟩⟩⟩⟩⟩⟩⟩⟩⟩⟩⟩⟩⟩⟩⟩⟩⟩⟩⟩⟩⟩⟩⟩

set_option maxRecDepth 8192 in
theorem sub_C : (opsC (F := F)).Forall fun op => op.bufs ⊆ tcRefs τ sig :=
  ⟨unary_bufs_sub .., unary_bufs_sub .., unary_bufs_sub .., binary_bufs_sub .., unary_bufs_sub .., binary_bufs_sub .., binary_bufs_sub .., unary_bufs_sub .., reshape_bufs_sub .., unary_bufs_sub .., unary_bufs_sub .., unary_bufs_sub .., binary_bufs_sub .., unary_bufs_sub .., binary_bufs_sub .., binary_bufs_sub .., unary_bufs_sub .., reshape_bufs_sub .., unary_bufs_sub .., unary_bufs_sub .., unary_bufs_sub .., binary_bufs_sub .., unary_bufs_sub .., binary_bufs_sub .., binary_bufs_sub .., unary_bufs_sub .., reshape_bufs_sub .., unary_bufs_sub .., unary_bufs_sub .., unary_bufs_sub .., binary_bufs_sub .., unary_bufs_sub .., binary_bufs_sub .., binary_bufs_sub .., unary_bufs_sub .., reshape_bufs_sub ..⟩

set_option maxRecDepth 8192 in
theorem fresh_C : (opsC (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem writes_C : WritesFrom 78 (opsC (F := F)) :=
  ⟨⟨main_v59, unary_writes .., rfl⟩, ⟨⟨main_call8_v0, unary_writes .., rfl⟩, ⟨⟨main_call8_v1, unary_writes .., rfl⟩, ⟨⟨main_v60, binary_writes .., rfl⟩, ⟨⟨main_v61, unary_writes .., rfl⟩, ⟨⟨main_v62, binary_writes .., rfl⟩, ⟨⟨main_v63, binary_writes .., rfl⟩, ⟨⟨main_v64, unary_writes .., rfl⟩, ⟨⟨main_v65, reshape_writes .., rfl⟩, ⟨⟨main_v66, unary_writes .., rfl⟩, ⟨⟨main_call9_v0, unary_writes .., rfl⟩, ⟨⟨main_call9_v1, unary_writes .., rfl⟩, ⟨⟨main_v67, binary_writes .., rfl⟩, ⟨⟨main_v68, unary_writes .., rfl⟩, ⟨⟨main_v69, binary_writes .., rfl⟩, ⟨⟨main_v70, binary_writes .., rfl⟩, ⟨⟨main_v71, unary_writes .., rfl⟩, ⟨⟨main_v72, reshape_writes .., rfl⟩, ⟨⟨main_v73, unary_writes .., rfl⟩, ⟨⟨main_call10_v0, unary_writes .., rfl⟩, ⟨⟨main_call10_v1, unary_writes .., rfl⟩, ⟨⟨main_v74, binary_writes .., rfl⟩, ⟨⟨main_v75, unary_writes .., rfl⟩, ⟨⟨main_v76, binary_writes .., rfl⟩, ⟨⟨main_v77, binary_writes .., rfl⟩, ⟨⟨main_v78, unary_writes .., rfl⟩, ⟨⟨main_v79, reshape_writes .., rfl⟩, ⟨⟨main_v80, unary_writes .., rfl⟩, ⟨⟨main_call11_v0, unary_writes .., rfl⟩, ⟨⟨main_call11_v1, unary_writes .., rfl⟩, ⟨⟨main_v81, binary_writes .., rfl⟩, ⟨⟨main_v82, unary_writes .., rfl⟩, ⟨⟨main_v83, binary_writes .., rfl⟩, ⟨⟨main_v84, binary_writes .., rfl⟩, ⟨⟨main_v85, unary_writes .., rfl⟩, ⟨⟨main_v86, reshape_writes .., rfl⟩, trivial⟩⟩⟩⟩⟩⟩⟩⟩⟩⟩⟩⟩⟩⟩⟩⟩⟩⟩⟩⟩⟩⟩⟩⟩⟩⟩⟩⟩⟩⟩⟩⟩⟩⟩⟩⟩

set_option maxRecDepth 8192 in
theorem sub_D : (opsD (F := F)).Forall fun op => op.bufs ⊆ tcRefs τ sig :=
  ⟨unary_bufs_sub .., unary_bufs_sub .., unary_bufs_sub .., binary_bufs_sub .., unary_bufs_sub .., binary_bufs_sub .., binary_bufs_sub .., unary_bufs_sub .., reshape_bufs_sub .., unary_bufs_sub .., unary_bufs_sub .., unary_bufs_sub .., binary_bufs_sub .., unary_bufs_sub .., binary_bufs_sub .., binary_bufs_sub .., unary_bufs_sub .., reshape_bufs_sub .., unary_bufs_sub .., unary_bufs_sub .., unary_bufs_sub .., binary_bufs_sub .., unary_bufs_sub .., binary_bufs_sub .., binary_bufs_sub .., unary_bufs_sub .., reshape_bufs_sub .., unary_bufs_sub .., unary_bufs_sub .., unary_bufs_sub .., binary_bufs_sub .., unary_bufs_sub .., binary_bufs_sub .., binary_bufs_sub .., binary_bufs_sub ..⟩

set_option maxRecDepth 8192 in
theorem fresh_D : (opsD (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem writes_D : WritesFrom 114 (opsD (F := F)) :=
  ⟨⟨main_v87, unary_writes .., rfl⟩, ⟨⟨main_call12_v0, unary_writes .., rfl⟩, ⟨⟨main_call12_v1, unary_writes .., rfl⟩, ⟨⟨main_v88, binary_writes .., rfl⟩, ⟨⟨main_v89, unary_writes .., rfl⟩, ⟨⟨main_v90, binary_writes .., rfl⟩, ⟨⟨main_v91, binary_writes .., rfl⟩, ⟨⟨main_v92, unary_writes .., rfl⟩, ⟨⟨main_v93, reshape_writes .., rfl⟩, ⟨⟨main_v94, unary_writes .., rfl⟩, ⟨⟨main_call13_v0, unary_writes .., rfl⟩, ⟨⟨main_call13_v1, unary_writes .., rfl⟩, ⟨⟨main_v95, binary_writes .., rfl⟩, ⟨⟨main_v96, unary_writes .., rfl⟩, ⟨⟨main_v97, binary_writes .., rfl⟩, ⟨⟨main_v98, binary_writes .., rfl⟩, ⟨⟨main_v99, unary_writes .., rfl⟩, ⟨⟨main_v100, reshape_writes .., rfl⟩, ⟨⟨main_v101, unary_writes .., rfl⟩, ⟨⟨main_call14_v0, unary_writes .., rfl⟩, ⟨⟨main_call14_v1, unary_writes .., rfl⟩, ⟨⟨main_v102, binary_writes .., rfl⟩, ⟨⟨main_v103, unary_writes .., rfl⟩, ⟨⟨main_v104, binary_writes .., rfl⟩, ⟨⟨main_v105, binary_writes .., rfl⟩, ⟨⟨main_v106, unary_writes .., rfl⟩, ⟨⟨main_v107, reshape_writes .., rfl⟩, ⟨⟨main_v108, unary_writes .., rfl⟩, ⟨⟨main_call15_v0, unary_writes .., rfl⟩, ⟨⟨main_call15_v1, unary_writes .., rfl⟩, ⟨⟨main_v109, binary_writes .., rfl⟩, ⟨⟨main_v110, unary_writes .., rfl⟩, ⟨⟨main_v111, binary_writes .., rfl⟩, ⟨⟨main_v112, binary_writes .., rfl⟩, ⟨⟨main_v113, binary_writes .., rfl⟩, trivial⟩⟩⟩⟩⟩⟩⟩⟩⟩⟩⟩⟩⟩⟩⟩⟩⟩⟩⟩⟩⟩⟩⟩⟩⟩⟩⟩⟩⟩⟩⟩⟩⟩⟩⟩

end Cert.Quad.RefTables

end
-- ==== Proof.RefRun.lean ====
/-
  The reference program runs, and every buffer ends at the fold of its operations over the launch contents.

  The program is its first part followed by its second, each the straight line of its operations (RefPart0.lean,
  RefPart1.lean), so it is the straight line of all 147 (`seq_append`). The facts the run theorem for a straight line asks
  of the operations — they touch TensorCore buffers only, they allocate nothing — and the numbering of the buffers they
  write are stated stretch by stretch (RefTables.lean) and joined here. `A W b` names what buffer `b` holds after the
  whole line from contents `W`; an argument buffer, numbered below every written one, holds what it held.
-/
import proofs.«150799_j47957604827151_2_alg».proof.Proof.RefOps
import proofs.«150799_j47957604827151_2_alg».proof.Proof.RefPart0
import proofs.«150799_j47957604827151_2_alg».proof.Proof.RefPart1
import proofs.«150799_j47957604827151_2_alg».proof.Proof.RefTables
import proofs.«150799_j47957604827151_2_alg».proof.Proof.LibSsaOrder
import Idealize.ShloMosaic.Lib.StableHlo.Run

noncomputable section

namespace Cert.Quad.RefRun

open Cert.ReferenceIdeal Cert.ReferenceIdeal.Gen Idealize.ShloMosaic Idealize.ShloMosaic.TcCoe Idealize.SL.Sem Idealize.ShloMosaic.StableHlo
open Cert.Quad.RefOps Cert.Quad.RefTables

/-! ## Two facts about joined lists -/

/-- What holds of every element of each of four lists holds of every element of their join. -/
theorem forall_mem_join {α : Type _} {P : α → Prop} {a b c d : List α} (ha : a.Forall P) (hb : b.Forall P)
    (hc : c.Forall P) (hd : d.Forall P) : ∀ x ∈ (a ++ b) ++ (c ++ d), P x := by
  intro x hx
  rcases List.mem_append.mp hx with h | h <;> rcases List.mem_append.mp h with h | h
  · exact List.forall_iff_forall_mem.mp ha x h
  · exact List.forall_iff_forall_mem.mp hb x h
  · exact List.forall_iff_forall_mem.mp hc x h
  · exact List.forall_iff_forall_mem.mp hd x h

/-- A stretch numbered from `base` followed by one numbered from where the first ends is numbered from `base`. -/
theorem writesFrom_append {τ : Topo} {sig : RefSig} {Val : EltTy → Type} :
    ∀ {base : Nat} (l1 l2 : List (HloOp τ sig Val)), WritesFrom base l1 → WritesFrom (base + l1.length) l2 →
      WritesFrom base (l1 ++ l2)
  | _, [], _, _, h2 => by simpa using h2
  | base, op :: l1, l2, ⟨h, hl⟩, h2 => by
    show WritesFrom base (op :: (l1 ++ l2))
    refine ⟨h, writesFrom_append l1 l2 hl ?_⟩
    have e : base + (op :: l1).length = base + 1 + l1.length := by rw [List.length_cons]; omega
    rw [e] at h2
    exact h2

/-- A value carried into a typed reference's buffer and back is itself. -/
theorem ofBuf_toBuf {Val : EltTy → Type} {T : BufTy} (x : TRef sig T) (v : T.Contents Val) : x.ofBuf (x.toBuf v) = v := by
  unfold TRef.ofBuf TRef.toBuf
  simp

variable {F : FTy → Type} [FloatOps F]

/-! ## The whole line -/

/-- The operation at position `k` of the whole line writes the buffer numbered `2 + k`. -/
theorem writes : WritesFrom 2 (ops (F := F)) :=
  writesFrom_append (base := 2) _ _ (writesFrom_append (base := 2) _ _ writes_A writes_B)
    (writesFrom_append (base := 78) _ _ writes_C writes_D)

/-- Every operation touches TensorCore buffers only. -/
theorem ops_sub : (ops (F := F)).Forall fun op => op.bufs ⊆ tcRefs τ sig :=
  List.forall_iff_forall_mem.mpr (forall_mem_join sub_A sub_B sub_C sub_D)

/-- No operation allocates a buffer. -/
theorem ops_fresh : ∀ op ∈ ops (F := F), op.fresh = ∅ :=
  forall_mem_join fresh_A fresh_B fresh_C fresh_D

/-- The program is the straight line of its operations. -/
theorem main_eq (c : Dev nD) : main (F := F) c = seq (ops (F := F)) := by
  rw [show ops (F := F) = ops0 (F := F) ++ ops1 (F := F) from rfl, seq_append, ← RefPart0.part_eq c, ← RefPart1.part_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution terminates, each TensorCore buffer at the fold of the operations over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

/-! ## What a buffer holds after the line -/

/-- What buffer `b` holds after the whole line, from contents `W`. -/
abbrev A (W : Valuation τ sig (Elt F)) (b : Ref sig .tc) := after (ops (F := F)) W (Proc.devRef .tc b)

/-- The first argument is not written. -/
theorem A_arg0 (W : Valuation τ sig (Elt F)) : A W main_arg0 = W (Proc.devRef .tc main_arg0) :=
  WritesFrom.after_below _ W writes (by decide)

/-- Nor is the second. -/
theorem A_arg1 (W : Valuation τ sig (Elt F)) : A W main_arg1 = W (Proc.devRef .tc main_arg1) :=
  WritesFrom.after_below _ W writes (by decide)

end Cert.Quad.RefRun

end
-- ==== Proof.RefRead.lean ====
/-
  The sixteen taps of the reference, read off its line of operations.

  `A W b` is what buffer `b` holds after the whole line, run from contents `W`. Every buffer is written once and every
  operand before its reader, so each written buffer holds its operation's function of what its operands hold after the
  whole line. For tap `k` that gives three facts: the broadcast weight buffer reads at `(r, d)` as the weight argument at
  `(k, d)` (slice of row `k`, flattened, made a row, broadcast over the rows); the shifted buffer reads at `(r, d)` as the
  `x` argument at `(r, (d + k + 1) mod 4096)` (columns `k + 1 … 4095` joined with columns `0 … k`); and the running sum
  after the tap is the running sum before it plus the product of those two buffers.
-/
import proofs.«150799_j47957604827151_2_alg».proof.Proof.RefRun
import proofs.«150799_j47957604827151_2_alg».proof.Proof.LibRoll
import Idealize.ShloMosaic.Lib.ValueIdx

noncomputable section

namespace Cert.Quad.RefRead

open Cert.ReferenceIdeal Cert.ReferenceIdeal.Gen Idealize.ShloMosaic Idealize.ShloMosaic.TcCoe Idealize.SL.Sem Idealize.ShloMosaic.StableHlo
open Idealize.ShloMosaic.ValueIdx Cert.LibRoll Cert.Quad.RefOps Cert.Quad.RefRun

set_option maxHeartbeats 1000000 in
theorem tap0 (W : Valuation τ sig (Elt Ideal)) (r : Fin 8192) (d : Fin 4096) :
    (A W main_v5 : S8192x4096.Idx → EReal) (ix2 r d) = (A W main_arg1 : S16x4096.Idx → EReal) (ix2 (⟨0, by decide⟩ : Fin 16) d)
    ∧ (A W main_v4 : S8192x4096.Idx → EReal) (ix2 r d) = (A W main_arg0 : S8192x4096.Idx → EReal) (ix2 r (adv d 1))
    ∧ (A W main_v7 : FVec Ideal S8192x4096 .f32) = (addf (A W main_v0 : FVec Ideal S8192x4096 .f32) (mulf (A W main_v5 : FVec Ideal S8192x4096 .f32) (A W main_v4 : FVec Ideal S8192x4096 .f32)) : FVec Ideal S8192x4096 .f32) := by
  have s1 := (writes (F := Ideal)).unary W 2 rfl (by decide) (by decide) (rfl : A W main_arg1 = _)
  have s2 := (writes (F := Ideal)).reshape W 3 rfl (by decide) (by decide) s1
  have s3 := (writes (F := Ideal)).unary W 4 rfl (by decide) (by decide) s2
  have c0 := (writes (F := Ideal)).unary W 5 rfl (by decide) (by decide) (rfl : A W main_arg0 = _)
  have c1 := (writes (F := Ideal)).unary W 6 rfl (by decide) (by decide) (rfl : A W main_arg0 = _)
  have s4 := (writes (F := Ideal)).binary W 7 rfl (by decide) (by decide) (by decide) c0 c1
  have s5 := (writes (F := Ideal)).unary W 8 rfl (by decide) (by decide) s3
  have s6 := (writes (F := Ideal)).binary W 9 rfl (by decide) (by decide) (by decide) (rfl : A W main_v5 = _) (rfl : A W main_v4 = _)
  have s7 := (writes (F := Ideal)).binary W 10 rfl (by decide) (by decide) (by decide) (rfl : A W main_v0 = _) s6
  refine ⟨?_, ?_, s7⟩
  · exact (congrFun s5 (ix2 r d)).trans
      (broadcastInDim_slice_row_apply 0 (by decide) (A W main_arg1 : S16x4096.Idx → EReal) _ _ _ _ r d)
  · rw [ofBuf_toBuf, ofBuf_toBuf] at s4
    have e4 : (A W main_v4 : S8192x4096.Idx → EReal)
        = concatenate S8192x4096 1
            [⟨S8192x4095, extractStridedSlice S8192x4095 ![0, 1] (A W main_arg0 : S8192x4096.Idx → EReal) slices_S8192x4096_S8192x4095_0_1⟩,
             ⟨S8192x1, extractStridedSlice S8192x1 ![0, 0] (A W main_arg0 : S8192x4096.Idx → EReal) slices_S8192x4096_S8192x1_0_0⟩]
            concatenates_S8192x4095_S8192x1_S8192x4096_d1 := s4
    exact (congrFun e4 (ix2 r d)).trans
      (concatenate_slices_cols_apply (a := 4095) (b := 1) rfl (A W main_arg0 : S8192x4096.Idx → EReal)
        slices_S8192x4096_S8192x4095_0_1 slices_S8192x4096_S8192x1_0_0 concatenates_S8192x4095_S8192x1_S8192x4096_d1 r d)

set_option maxHeartbeats 1000000 in
theorem tap1 (W : Valuation τ sig (Elt Ideal)) (r : Fin 8192) (d : Fin 4096) :
    (A W main_v12 : S8192x4096.Idx → EReal) (ix2 r d) = (A W main_arg1 : S16x4096.Idx → EReal) (ix2 (⟨1, by decide⟩ : Fin 16) d)
    ∧ (A W main_v11 : S8192x4096.Idx → EReal) (ix2 r d) = (A W main_arg0 : S8192x4096.Idx → EReal) (ix2 r (adv d 2))
    ∧ (A W main_v14 : FVec Ideal S8192x4096 .f32) = (addf (A W main_v7 : FVec Ideal S8192x4096 .f32) (mulf (A W main_v12 : FVec Ideal S8192x4096 .f32) (A W main_v11 : FVec Ideal S8192x4096 .f32)) : FVec Ideal S8192x4096 .f32) := by
  have s1 := (writes (F := Ideal)).unary W 11 rfl (by decide) (by decide) (rfl : A W main_arg1 = _)
  have s2 := (writes (F := Ideal)).reshape W 12 rfl (by decide) (by decide) s1
  have s3 := (writes (F := Ideal)).unary W 13 rfl (by decide) (by decide) s2
  have c0 := (writes (F := Ideal)).unary W 14 rfl (by decide) (by decide) (rfl : A W main_arg0 = _)
  have c1 := (writes (F := Ideal)).unary W 15 rfl (by decide) (by decide) (rfl : A W main_arg0 = _)
  have s4 := (writes (F := Ideal)).binary W 16 rfl (by decide) (by decide) (by decide) c0 c1
  have s5 := (writes (F := Ideal)).unary W 17 rfl (by decide) (by decide) s3
  have s6 := (writes (F := Ideal)).binary W 18 rfl (by decide) (by decide) (by decide) (rfl : A W main_v12 = _) (rfl : A W main_v11 = _)
  have s7 := (writes (F := Ideal)).binary W 19 rfl (by decide) (by decide) (by decide) (rfl : A W main_v7 = _) s6
  refine ⟨?_, ?_, s7⟩
  · exact (congrFun s5 (ix2 r d)).trans
      (broadcastInDim_slice_row_apply 1 (by decide) (A W main_arg1 : S16x4096.Idx → EReal) _ _ _ _ r d)
  · rw [ofBuf_toBuf, ofBuf_toBuf] at s4
    have e4 : (A W main_v11 : S8192x4096.Idx → EReal)
        = concatenate S8192x4096 1
            [⟨S8192x4094, extractStridedSlice S8192x4094 ![0, 2] (A W main_arg0 : S8192x4096.Idx → EReal) slices_S8192x4096_S8192x4094_0_2⟩,
             ⟨S8192x2, extractStridedSlice S8192x2 ![0, 0] (A W main_arg0 : S8192x4096.Idx → EReal) slices_S8192x4096_S8192x2_0_0⟩]
            concatenates_S8192x4094_S8192x2_S8192x4096_d1 := s4
    exact (congrFun e4 (ix2 r d)).trans
      (concatenate_slices_cols_apply (a := 4094) (b := 2) rfl (A W main_arg0 : S8192x4096.Idx → EReal)
        slices_S8192x4096_S8192x4094_0_2 slices_S8192x4096_S8192x2_0_0 concatenates_S8192x4094_S8192x2_S8192x4096_d1 r d)

set_option maxHeartbeats 1000000 in
theorem tap2 (W : Valuation τ sig (Elt Ideal)) (r : Fin 8192) (d : Fin 4096) :
    (A W main_v19 : S8192x4096.Idx → EReal) (ix2 r d) = (A W main_arg1 : S16x4096.Idx → EReal) (ix2 (⟨2, by decide⟩ : Fin 16) d)
    ∧ (A W main_v18 : S8192x4096.Idx → EReal) (ix2 r d) = (A W main_arg0 : S8192x4096.Idx → EReal) (ix2 r (adv d 3))
    ∧ (A W main_v21 : FVec Ideal S8192x4096 .f32) = (addf (A W main_v14 : FVec Ideal S8192x4096 .f32) (mulf (A W main_v19 : FVec Ideal S8192x4096 .f32) (A W main_v18 : FVec Ideal S8192x4096 .f32)) : FVec Ideal S8192x4096 .f32) := by
  have s1 := (writes (F := Ideal)).unary W 20 rfl (by decide) (by decide) (rfl : A W main_arg1 = _)
  have s2 := (writes (F := Ideal)).reshape W 21 rfl (by decide) (by decide) s1
  have s3 := (writes (F := Ideal)).unary W 22 rfl (by decide) (by decide) s2
  have c0 := (writes (F := Ideal)).unary W 23 rfl (by decide) (by decide) (rfl : A W main_arg0 = _)
  have c1 := (writes (F := Ideal)).unary W 24 rfl (by decide) (by decide) (rfl : A W main_arg0 = _)
  have s4 := (writes (F := Ideal)).binary W 25 rfl (by decide) (by decide) (by decide) c0 c1
  have s5 := (writes (F := Ideal)).unary W 26 rfl (by decide) (by decide) s3
  have s6 := (writes (F := Ideal)).binary W 27 rfl (by decide) (by decide) (by decide) (rfl : A W main_v19 = _) (rfl : A W main_v18 = _)
  have s7 := (writes (F := Ideal)).binary W 28 rfl (by decide) (by decide) (by decide) (rfl : A W main_v14 = _) s6
  refine ⟨?_, ?_, s7⟩
  · exact (congrFun s5 (ix2 r d)).trans
      (broadcastInDim_slice_row_apply 2 (by decide) (A W main_arg1 : S16x4096.Idx → EReal) _ _ _ _ r d)
  · rw [ofBuf_toBuf, ofBuf_toBuf] at s4
    have e4 : (A W main_v18 : S8192x4096.Idx → EReal)
        = concatenate S8192x4096 1
            [⟨S8192x4093, extractStridedSlice S8192x4093 ![0, 3] (A W main_arg0 : S8192x4096.Idx → EReal) slices_S8192x4096_S8192x4093_0_3⟩,
             ⟨S8192x3, extractStridedSlice S8192x3 ![0, 0] (A W main_arg0 : S8192x4096.Idx → EReal) slices_S8192x4096_S8192x3_0_0⟩]
            concatenates_S8192x4093_S8192x3_S8192x4096_d1 := s4
    exact (congrFun e4 (ix2 r d)).trans
      (concatenate_slices_cols_apply (a := 4093) (b := 3) rfl (A W main_arg0 : S8192x4096.Idx → EReal)
        slices_S8192x4096_S8192x4093_0_3 slices_S8192x4096_S8192x3_0_0 concatenates_S8192x4093_S8192x3_S8192x4096_d1 r d)

set_option maxHeartbeats 1000000 in
theorem tap3 (W : Valuation τ sig (Elt Ideal)) (r : Fin 8192) (d : Fin 4096) :
    (A W main_v26 : S8192x4096.Idx → EReal) (ix2 r d) = (A W main_arg1 : S16x4096.Idx → EReal) (ix2 (⟨3, by decide⟩ : Fin 16) d)
    ∧ (A W main_v25 : S8192x4096.Idx → EReal) (ix2 r d) = (A W main_arg0 : S8192x4096.Idx → EReal) (ix2 r (adv d 4))
    ∧ (A W main_v28 : FVec Ideal S8192x4096 .f32) = (addf (A W main_v21 : FVec Ideal S8192x4096 .f32) (mulf (A W main_v26 : FVec Ideal S8192x4096 .f32) (A W main_v25 : FVec Ideal S8192x4096 .f32)) : FVec Ideal S8192x4096 .f32) := by
  have s1 := (writes (F := Ideal)).unary W 29 rfl (by decide) (by decide) (rfl : A W main_arg1 = _)
  have s2 := (writes (F := Ideal)).reshape W 30 rfl (by decide) (by decide) s1
  have s3 := (writes (F := Ideal)).unary W 31 rfl (by decide) (by decide) s2
  have c0 := (writes (F := Ideal)).unary W 32 rfl (by decide) (by decide) (rfl : A W main_arg0 = _)
  have c1 := (writes (F := Ideal)).unary W 33 rfl (by decide) (by decide) (rfl : A W main_arg0 = _)
  have s4 := (writes (F := Ideal)).binary W 34 rfl (by decide) (by decide) (by decide) c0 c1
  have s5 := (writes (F := Ideal)).unary W 35 rfl (by decide) (by decide) s3
  have s6 := (writes (F := Ideal)).binary W 36 rfl (by decide) (by decide) (by decide) (rfl : A W main_v26 = _) (rfl : A W main_v25 = _)
  have s7 := (writes (F := Ideal)).binary W 37 rfl (by decide) (by decide) (by decide) (rfl : A W main_v21 = _) s6
  refine ⟨?_, ?_, s7⟩
  · exact (congrFun s5 (ix2 r d)).trans
      (broadcastInDim_slice_row_apply 3 (by decide) (A W main_arg1 : S16x4096.Idx → EReal) _ _ _ _ r d)
  · rw [ofBuf_toBuf, ofBuf_toBuf] at s4
    have e4 : (A W main_v25 : S8192x4096.Idx → EReal)
        = concatenate S8192x4096 1
            [⟨S8192x4092, extractStridedSlice S8192x4092 ![0, 4] (A W main_arg0 : S8192x4096.Idx → EReal) slices_S8192x4096_S8192x4092_0_4⟩,
             ⟨S8192x4, extractStridedSlice S8192x4 ![0, 0] (A W main_arg0 : S8192x4096.Idx → EReal) slices_S8192x4096_S8192x4_0_0⟩]
            concatenates_S8192x4092_S8192x4_S8192x4096_d1 := s4
    exact (congrFun e4 (ix2 r d)).trans
      (concatenate_slices_cols_apply (a := 4092) (b := 4) rfl (A W main_arg0 : S8192x4096.Idx → EReal)
        slices_S8192x4096_S8192x4092_0_4 slices_S8192x4096_S8192x4_0_0 concatenates_S8192x4092_S8192x4_S8192x4096_d1 r d)

set_option maxHeartbeats 1000000 in
theorem tap4 (W : Valuation τ sig (Elt Ideal)) (r : Fin 8192) (d : Fin 4096) :
    (A W main_v33 : S8192x4096.Idx → EReal) (ix2 r d) = (A W main_arg1 : S16x4096.Idx → EReal) (ix2 (⟨4, by decide⟩ : Fin 16) d)
    ∧ (A W main_v32 : S8192x4096.Idx → EReal) (ix2 r d) = (A W main_arg0 : S8192x4096.Idx → EReal) (ix2 r (adv d 5))
    ∧ (A W main_v35 : FVec Ideal S8192x4096 .f32) = (addf (A W main_v28 : FVec Ideal S8192x4096 .f32) (mulf (A W main_v33 : FVec Ideal S8192x4096 .f32) (A W main_v32 : FVec Ideal S8192x4096 .f32)) : FVec Ideal S8192x4096 .f32) := by
  have s1 := (writes (F := Ideal)).unary W 38 rfl (by decide) (by decide) (rfl : A W main_arg1 = _)
  have s2 := (writes (F := Ideal)).reshape W 39 rfl (by decide) (by decide) s1
  have s3 := (writes (F := Ideal)).unary W 40 rfl (by decide) (by decide) s2
  have c0 := (writes (F := Ideal)).unary W 41 rfl (by decide) (by decide) (rfl : A W main_arg0 = _)
  have c1 := (writes (F := Ideal)).unary W 42 rfl (by decide) (by decide) (rfl : A W main_arg0 = _)
  have s4 := (writes (F := Ideal)).binary W 43 rfl (by decide) (by decide) (by decide) c0 c1
  have s5 := (writes (F := Ideal)).unary W 44 rfl (by decide) (by decide) s3
  have s6 := (writes (F := Ideal)).binary W 45 rfl (by decide) (by decide) (by decide) (rfl : A W main_v33 = _) (rfl : A W main_v32 = _)
  have s7 := (writes (F := Ideal)).binary W 46 rfl (by decide) (by decide) (by decide) (rfl : A W main_v28 = _) s6
  refine ⟨?_, ?_, s7⟩
  · exact (congrFun s5 (ix2 r d)).trans
      (broadcastInDim_slice_row_apply 4 (by decide) (A W main_arg1 : S16x4096.Idx → EReal) _ _ _ _ r d)
  · rw [ofBuf_toBuf, ofBuf_toBuf] at s4
    have e4 : (A W main_v32 : S8192x4096.Idx → EReal)
        = concatenate S8192x4096 1
            [⟨S8192x4091, extractStridedSlice S8192x4091 ![0, 5] (A W main_arg0 : S8192x4096.Idx → EReal) slices_S8192x4096_S8192x4091_0_5⟩,
             ⟨S8192x5, extractStridedSlice S8192x5 ![0, 0] (A W main_arg0 : S8192x4096.Idx → EReal) slices_S8192x4096_S8192x5_0_0⟩]
            concatenates_S8192x4091_S8192x5_S8192x4096_d1 := s4
    exact (congrFun e4 (ix2 r d)).trans
      (concatenate_slices_cols_apply (a := 4091) (b := 5) rfl (A W main_arg0 : S8192x4096.Idx → EReal)
        slices_S8192x4096_S8192x4091_0_5 slices_S8192x4096_S8192x5_0_0 concatenates_S8192x4091_S8192x5_S8192x4096_d1 r d)

set_option maxHeartbeats 1000000 in
theorem tap5 (W : Valuation τ sig (Elt Ideal)) (r : Fin 8192) (d : Fin 4096) :
    (A W main_v40 : S8192x4096.Idx → EReal) (ix2 r d) = (A W main_arg1 : S16x4096.Idx → EReal) (ix2 (⟨5, by decide⟩ : Fin 16) d)
    ∧ (A W main_v39 : S8192x4096.Idx → EReal) (ix2 r d) = (A W main_arg0 : S8192x4096.Idx → EReal) (ix2 r (adv d 6))
    ∧ (A W main_v42 : FVec Ideal S8192x4096 .f32) = (addf (A W main_v35 : FVec Ideal S8192x4096 .f32) (mulf (A W main_v40 : FVec Ideal S8192x4096 .f32) (A W main_v39 : FVec Ideal S8192x4096 .f32)) : FVec Ideal S8192x4096 .f32) := by
  have s1 := (writes (F := Ideal)).unary W 47 rfl (by decide) (by decide) (rfl : A W main_arg1 = _)
  have s2 := (writes (F := Ideal)).reshape W 48 rfl (by decide) (by decide) s1
  have s3 := (writes (F := Ideal)).unary W 49 rfl (by decide) (by decide) s2
  have c0 := (writes (F := Ideal)).unary W 50 rfl (by decide) (by decide) (rfl : A W main_arg0 = _)
  have c1 := (writes (F := Ideal)).unary W 51 rfl (by decide) (by decide) (rfl : A W main_arg0 = _)
  have s4 := (writes (F := Ideal)).binary W 52 rfl (by decide) (by decide) (by decide) c0 c1
  have s5 := (writes (F := Ideal)).unary W 53 rfl (by decide) (by decide) s3
  have s6 := (writes (F := Ideal)).binary W 54 rfl (by decide) (by decide) (by decide) (rfl : A W main_v40 = _) (rfl : A W main_v39 = _)
  have s7 := (writes (F := Ideal)).binary W 55 rfl (by decide) (by decide) (by decide) (rfl : A W main_v35 = _) s6
  refine ⟨?_, ?_, s7⟩
  · exact (congrFun s5 (ix2 r d)).trans
      (broadcastInDim_slice_row_apply 5 (by decide) (A W main_arg1 : S16x4096.Idx → EReal) _ _ _ _ r d)
  · rw [ofBuf_toBuf, ofBuf_toBuf] at s4
    have e4 : (A W main_v39 : S8192x4096.Idx → EReal)
        = concatenate S8192x4096 1
            [⟨S8192x4090, extractStridedSlice S8192x4090 ![0, 6] (A W main_arg0 : S8192x4096.Idx → EReal) slices_S8192x4096_S8192x4090_0_6⟩,
             ⟨S8192x6, extractStridedSlice S8192x6 ![0, 0] (A W main_arg0 : S8192x4096.Idx → EReal) slices_S8192x4096_S8192x6_0_0⟩]
            concatenates_S8192x4090_S8192x6_S8192x4096_d1 := s4
    exact (congrFun e4 (ix2 r d)).trans
      (concatenate_slices_cols_apply (a := 4090) (b := 6) rfl (A W main_arg0 : S8192x4096.Idx → EReal)
        slices_S8192x4096_S8192x4090_0_6 slices_S8192x4096_S8192x6_0_0 concatenates_S8192x4090_S8192x6_S8192x4096_d1 r d)

set_option maxHeartbeats 1000000 in
theorem tap6 (W : Valuation τ sig (Elt Ideal)) (r : Fin 8192) (d : Fin 4096) :
    (A W main_v47 : S8192x4096.Idx → EReal) (ix2 r d) = (A W main_arg1 : S16x4096.Idx → EReal) (ix2 (⟨6, by decide⟩ : Fin 16) d)
    ∧ (A W main_v46 : S8192x4096.Idx → EReal) (ix2 r d) = (A W main_arg0 : S8192x4096.Idx → EReal) (ix2 r (adv d 7))
    ∧ (A W main_v49 : FVec Ideal S8192x4096 .f32) = (addf (A W main_v42 : FVec Ideal S8192x4096 .f32) (mulf (A W main_v47 : FVec Ideal S8192x4096 .f32) (A W main_v46 : FVec Ideal S8192x4096 .f32)) : FVec Ideal S8192x4096 .f32) := by
  have s1 := (writes (F := Ideal)).unary W 56 rfl (by decide) (by decide) (rfl : A W main_arg1 = _)
  have s2 := (writes (F := Ideal)).reshape W 57 rfl (by decide) (by decide) s1
  have s3 := (writes (F := Ideal)).unary W 58 rfl (by decide) (by decide) s2
  have c0 := (writes (F := Ideal)).unary W 59 rfl (by decide) (by decide) (rfl : A W main_arg0 = _)
  have c1 := (writes (F := Ideal)).unary W 60 rfl (by decide) (by decide) (rfl : A W main_arg0 = _)
  have s4 := (writes (F := Ideal)).binary W 61 rfl (by decide) (by decide) (by decide) c0 c1
  have s5 := (writes (F := Ideal)).unary W 62 rfl (by decide) (by decide) s3
  have s6 := (writes (F := Ideal)).binary W 63 rfl (by decide) (by decide) (by decide) (rfl : A W main_v47 = _) (rfl : A W main_v46 = _)
  have s7 := (writes (F := Ideal)).binary W 64 rfl (by decide) (by decide) (by decide) (rfl : A W main_v42 = _) s6
  refine ⟨?_, ?_, s7⟩
  · exact (congrFun s5 (ix2 r d)).trans
      (broadcastInDim_slice_row_apply 6 (by decide) (A W main_arg1 : S16x4096.Idx → EReal) _ _ _ _ r d)
  · rw [ofBuf_toBuf, ofBuf_toBuf] at s4
    have e4 : (A W main_v46 : S8192x4096.Idx → EReal)
        = concatenate S8192x4096 1
            [⟨S8192x4089, extractStridedSlice S8192x4089 ![0, 7] (A W main_arg0 : S8192x4096.Idx → EReal) slices_S8192x4096_S8192x4089_0_7⟩,
             ⟨S8192x7, extractStridedSlice S8192x7 ![0, 0] (A W main_arg0 : S8192x4096.Idx → EReal) slices_S8192x4096_S8192x7_0_0⟩]
            concatenates_S8192x4089_S8192x7_S8192x4096_d1 := s4
    exact (congrFun e4 (ix2 r d)).trans
      (concatenate_slices_cols_apply (a := 4089) (b := 7) rfl (A W main_arg0 : S8192x4096.Idx → EReal)
        slices_S8192x4096_S8192x4089_0_7 slices_S8192x4096_S8192x7_0_0 concatenates_S8192x4089_S8192x7_S8192x4096_d1 r d)

set_option maxHeartbeats 1000000 in
theorem tap7 (W : Valuation τ sig (Elt Ideal)) (r : Fin 8192) (d : Fin 4096) :
    (A W main_v54 : S8192x4096.Idx → EReal) (ix2 r d) = (A W main_arg1 : S16x4096.Idx → EReal) (ix2 (⟨7, by decide⟩ : Fin 16) d)
    ∧ (A W main_v53 : S8192x4096.Idx → EReal) (ix2 r d) = (A W main_arg0 : S8192x4096.Idx → EReal) (ix2 r (adv d 8))
    ∧ (A W main_v56 : FVec Ideal S8192x4096 .f32) = (addf (A W main_v49 : FVec Ideal S8192x4096 .f32) (mulf (A W main_v54 : FVec Ideal S8192x4096 .f32) (A W main_v53 : FVec Ideal S8192x4096 .f32)) : FVec Ideal S8192x4096 .f32) := by
  have s1 := (writes (F := Ideal)).unary W 65 rfl (by decide) (by decide) (rfl : A W main_arg1 = _)
  have s2 := (writes (F := Ideal)).reshape W 66 rfl (by decide) (by decide) s1
  have s3 := (writes (F := Ideal)).unary W 67 rfl (by decide) (by decide) s2
  have c0 := (writes (F := Ideal)).unary W 68 rfl (by decide) (by decide) (rfl : A W main_arg0 = _)
  have c1 := (writes (F := Ideal)).unary W 69 rfl (by decide) (by decide) (rfl : A W main_arg0 = _)
  have s4 := (writes (F := Ideal)).binary W 70 rfl (by decide) (by decide) (by decide) c0 c1
  have s5 := (writes (F := Ideal)).unary W 71 rfl (by decide) (by decide) s3
  have s6 := (writes (F := Ideal)).binary W 72 rfl (by decide) (by decide) (by decide) (rfl : A W main_v54 = _) (rfl : A W main_v53 = _)
  have s7 := (writes (F := Ideal)).binary W 73 rfl (by decide) (by decide) (by decide) (rfl : A W main_v49 = _) s6
  refine ⟨?_, ?_, s7⟩
  · exact (congrFun s5 (ix2 r d)).trans
      (broadcastInDim_slice_row_apply 7 (by decide) (A W main_arg1 : S16x4096.Idx → EReal) _ _ _ _ r d)
  · rw [ofBuf_toBuf, ofBuf_toBuf] at s4
    have e4 : (A W main_v53 : S8192x4096.Idx → EReal)
        = concatenate S8192x4096 1
            [⟨S8192x4088, extractStridedSlice S8192x4088 ![0, 8] (A W main_arg0 : S8192x4096.Idx → EReal) slices_S8192x4096_S8192x4088_0_8⟩,
             ⟨S8192x8, extractStridedSlice S8192x8 ![0, 0] (A W main_arg0 : S8192x4096.Idx → EReal) slices_S8192x4096_S8192x8_0_0⟩]
            concatenates_S8192x4088_S8192x8_S8192x4096_d1 := s4
    exact (congrFun e4 (ix2 r d)).trans
      (concatenate_slices_cols_apply (a := 4088) (b := 8) rfl (A W main_arg0 : S8192x4096.Idx → EReal)
        slices_S8192x4096_S8192x4088_0_8 slices_S8192x4096_S8192x8_0_0 concatenates_S8192x4088_S8192x8_S8192x4096_d1 r d)

set_option maxHeartbeats 1000000 in
theorem tap8 (W : Valuation τ sig (Elt Ideal)) (r : Fin 8192) (d : Fin 4096) :
    (A W main_v61 : S8192x4096.Idx → EReal) (ix2 r d) = (A W main_arg1 : S16x4096.Idx → EReal) (ix2 (⟨8, by decide⟩ : Fin 16) d)
    ∧ (A W main_v60 : S8192x4096.Idx → EReal) (ix2 r d) = (A W main_arg0 : S8192x4096.Idx → EReal) (ix2 r (adv d 9))
    ∧ (A W main_v63 : FVec Ideal S8192x4096 .f32) = (addf (A W main_v56 : FVec Ideal S8192x4096 .f32) (mulf (A W main_v61 : FVec Ideal S8192x4096 .f32) (A W main_v60 : FVec Ideal S8192x4096 .f32)) : FVec Ideal S8192x4096 .f32) := by
  have s1 := (writes (F := Ideal)).unary W 74 rfl (by decide) (by decide) (rfl : A W main_arg1 = _)
  have s2 := (writes (F := Ideal)).reshape W 75 rfl (by decide) (by decide) s1
  have s3 := (writes (F := Ideal)).unary W 76 rfl (by decide) (by decide) s2
  have c0 := (writes (F := Ideal)).unary W 77 rfl (by decide) (by decide) (rfl : A W main_arg0 = _)
  have c1 := (writes (F := Ideal)).unary W 78 rfl (by decide) (by decide) (rfl : A W main_arg0 = _)
  have s4 := (writes (F := Ideal)).binary W 79 rfl (by decide) (by decide) (by decide) c0 c1
  have s5 := (writes (F := Ideal)).unary W 80 rfl (by decide) (by decide) s3
  have s6 := (writes (F := Ideal)).binary W 81 rfl (by decide) (by decide) (by decide) (rfl : A W main_v61 = _) (rfl : A W main_v60 = _)
  have s7 := (writes (F := Ideal)).binary W 82 rfl (by decide) (by decide) (by decide) (rfl : A W main_v56 = _) s6
  refine ⟨?_, ?_, s7⟩
  · exact (congrFun s5 (ix2 r d)).trans
      (broadcastInDim_slice_row_apply 8 (by decide) (A W main_arg1 : S16x4096.Idx → EReal) _ _ _ _ r d)
  · rw [ofBuf_toBuf, ofBuf_toBuf] at s4
    have e4 : (A W main_v60 : S8192x4096.Idx → EReal)
        = concatenate S8192x4096 1
            [⟨S8192x4087, extractStridedSlice S8192x4087 ![0, 9] (A W main_arg0 : S8192x4096.Idx → EReal) slices_S8192x4096_S8192x4087_0_9⟩,
             ⟨S8192x9, extractStridedSlice S8192x9 ![0, 0] (A W main_arg0 : S8192x4096.Idx → EReal) slices_S8192x4096_S8192x9_0_0⟩]
            concatenates_S8192x4087_S8192x9_S8192x4096_d1 := s4
    exact (congrFun e4 (ix2 r d)).trans
      (concatenate_slices_cols_apply (a := 4087) (b := 9) rfl (A W main_arg0 : S8192x4096.Idx → EReal)
        slices_S8192x4096_S8192x4087_0_9 slices_S8192x4096_S8192x9_0_0 concatenates_S8192x4087_S8192x9_S8192x4096_d1 r d)

set_option maxHeartbeats 1000000 in
theorem tap9 (W : Valuation τ sig (Elt Ideal)) (r : Fin 8192) (d : Fin 4096) :
    (A W main_v68 : S8192x4096.Idx → EReal) (ix2 r d) = (A W main_arg1 : S16x4096.Idx → EReal) (ix2 (⟨9, by decide⟩ : Fin 16) d)
    ∧ (A W main_v67 : S8192x4096.Idx → EReal) (ix2 r d) = (A W main_arg0 : S8192x4096.Idx → EReal) (ix2 r (adv d 10))
    ∧ (A W main_v70 : FVec Ideal S8192x4096 .f32) = (addf (A W main_v63 : FVec Ideal S8192x4096 .f32) (mulf (A W main_v68 : FVec Ideal S8192x4096 .f32) (A W main_v67 : FVec Ideal S8192x4096 .f32)) : FVec Ideal S8192x4096 .f32) := by
  have s1 := (writes (F := Ideal)).unary W 83 rfl (by decide) (by decide) (rfl : A W main_arg1 = _)
  have s2 := (writes (F := Ideal)).reshape W 84 rfl (by decide) (by decide) s1
  have s3 := (writes (F := Ideal)).unary W 85 rfl (by decide) (by decide) s2
  have c0 := (writes (F := Ideal)).unary W 86 rfl (by decide) (by decide) (rfl : A W main_arg0 = _)
  have c1 := (writes (F := Ideal)).unary W 87 rfl (by decide) (by decide) (rfl : A W main_arg0 = _)
  have s4 := (writes (F := Ideal)).binary W 88 rfl (by decide) (by decide) (by decide) c0 c1
  have s5 := (writes (F := Ideal)).unary W 89 rfl (by decide) (by decide) s3
  have s6 := (writes (F := Ideal)).binary W 90 rfl (by decide) (by decide) (by decide) (rfl : A W main_v68 = _) (rfl : A W main_v67 = _)
  have s7 := (writes (F := Ideal)).binary W 91 rfl (by decide) (by decide) (by decide) (rfl : A W main_v63 = _) s6
  refine ⟨?_, ?_, s7⟩
  · exact (congrFun s5 (ix2 r d)).trans
      (broadcastInDim_slice_row_apply 9 (by decide) (A W main_arg1 : S16x4096.Idx → EReal) _ _ _ _ r d)
  · rw [ofBuf_toBuf, ofBuf_toBuf] at s4
    have e4 : (A W main_v67 : S8192x4096.Idx → EReal)
        = concatenate S8192x4096 1
            [⟨S8192x4086, extractStridedSlice S8192x4086 ![0, 10] (A W main_arg0 : S8192x4096.Idx → EReal) slices_S8192x4096_S8192x4086_0_10⟩,
             ⟨S8192x10, extractStridedSlice S8192x10 ![0, 0] (A W main_arg0 : S8192x4096.Idx → EReal) slices_S8192x4096_S8192x10_0_0⟩]
            concatenates_S8192x4086_S8192x10_S8192x4096_d1 := s4
    exact (congrFun e4 (ix2 r d)).trans
      (concatenate_slices_cols_apply (a := 4086) (b := 10) rfl (A W main_arg0 : S8192x4096.Idx → EReal)
        slices_S8192x4096_S8192x4086_0_10 slices_S8192x4096_S8192x10_0_0 concatenates_S8192x4086_S8192x10_S8192x4096_d1 r d)

set_option maxHeartbeats 1000000 in
theorem tap10 (W : Valuation τ sig (Elt Ideal)) (r : Fin 8192) (d : Fin 4096) :
    (A W main_v75 : S8192x4096.Idx → EReal) (ix2 r d) = (A W main_arg1 : S16x4096.Idx → EReal) (ix2 (⟨10, by decide⟩ : Fin 16) d)
    ∧ (A W main_v74 : S8192x4096.Idx → EReal) (ix2 r d) = (A W main_arg0 : S8192x4096.Idx → EReal) (ix2 r (adv d 11))
    ∧ (A W main_v77 : FVec Ideal S8192x4096 .f32) = (addf (A W main_v70 : FVec Ideal S8192x4096 .f32) (mulf (A W main_v75 : FVec Ideal S8192x4096 .f32) (A W main_v74 : FVec Ideal S8192x4096 .f32)) : FVec Ideal S8192x4096 .f32) := by
  have s1 := (writes (F := Ideal)).unary W 92 rfl (by decide) (by decide) (rfl : A W main_arg1 = _)
  have s2 := (writes (F := Ideal)).reshape W 93 rfl (by decide) (by decide) s1
  have s3 := (writes (F := Ideal)).unary W 94 rfl (by decide) (by decide) s2
  have c0 := (writes (F := Ideal)).unary W 95 rfl (by decide) (by decide) (rfl : A W main_arg0 = _)
  have c1 := (writes (F := Ideal)).unary W 96 rfl (by decide) (by decide) (rfl : A W main_arg0 = _)
  have s4 := (writes (F := Ideal)).binary W 97 rfl (by decide) (by decide) (by decide) c0 c1
  have s5 := (writes (F := Ideal)).unary W 98 rfl (by decide) (by decide) s3
  have s6 := (writes (F := Ideal)).binary W 99 rfl (by decide) (by decide) (by decide) (rfl : A W main_v75 = _) (rfl : A W main_v74 = _)
  have s7 := (writes (F := Ideal)).binary W 100 rfl (by decide) (by decide) (by decide) (rfl : A W main_v70 = _) s6
  refine ⟨?_, ?_, s7⟩
  · exact (congrFun s5 (ix2 r d)).trans
      (broadcastInDim_slice_row_apply 10 (by decide) (A W main_arg1 : S16x4096.Idx → EReal) _ _ _ _ r d)
  · rw [ofBuf_toBuf, ofBuf_toBuf] at s4
    have e4 : (A W main_v74 : S8192x4096.Idx → EReal)
        = concatenate S8192x4096 1
            [⟨S8192x4085, extractStridedSlice S8192x4085 ![0, 11] (A W main_arg0 : S8192x4096.Idx → EReal) slices_S8192x4096_S8192x4085_0_11⟩,
             ⟨S8192x11, extractStridedSlice S8192x11 ![0, 0] (A W main_arg0 : S8192x4096.Idx → EReal) slices_S8192x4096_S8192x11_0_0⟩]
            concatenates_S8192x4085_S8192x11_S8192x4096_d1 := s4
    exact (congrFun e4 (ix2 r d)).trans
      (concatenate_slices_cols_apply (a := 4085) (b := 11) rfl (A W main_arg0 : S8192x4096.Idx → EReal)
        slices_S8192x4096_S8192x4085_0_11 slices_S8192x4096_S8192x11_0_0 concatenates_S8192x4085_S8192x11_S8192x4096_d1 r d)

set_option maxHeartbeats 1000000 in
theorem tap11 (W : Valuation τ sig (Elt Ideal)) (r : Fin 8192) (d : Fin 4096) :
    (A W main_v82 : S8192x4096.Idx → EReal) (ix2 r d) = (A W main_arg1 : S16x4096.Idx → EReal) (ix2 (⟨11, by decide⟩ : Fin 16) d)
    ∧ (A W main_v81 : S8192x4096.Idx → EReal) (ix2 r d) = (A W main_arg0 : S8192x4096.Idx → EReal) (ix2 r (adv d 12))
    ∧ (A W main_v84 : FVec Ideal S8192x4096 .f32) = (addf (A W main_v77 : FVec Ideal S8192x4096 .f32) (mulf (A W main_v82 : FVec Ideal S8192x4096 .f32) (A W main_v81 : FVec Ideal S8192x4096 .f32)) : FVec Ideal S8192x4096 .f32) := by
  have s1 := (writes (F := Ideal)).unary W 101 rfl (by decide) (by decide) (rfl : A W main_arg1 = _)
  have s2 := (writes (F := Ideal)).reshape W 102 rfl (by decide) (by decide) s1
  have s3 := (writes (F := Ideal)).unary W 103 rfl (by decide) (by decide) s2
  have c0 := (writes (F := Ideal)).unary W 104 rfl (by decide) (by decide) (rfl : A W main_arg0 = _)
  have c1 := (writes (F := Ideal)).unary W 105 rfl (by decide) (by decide) (rfl : A W main_arg0 = _)
  have s4 := (writes (F := Ideal)).binary W 106 rfl (by decide) (by decide) (by decide) c0 c1
  have s5 := (writes (F := Ideal)).unary W 107 rfl (by decide) (by decide) s3
  have s6 := (writes (F := Ideal)).binary W 108 rfl (by decide) (by decide) (by decide) (rfl : A W main_v82 = _) (rfl : A W main_v81 = _)
  have s7 := (writes (F := Ideal)).binary W 109 rfl (by decide) (by decide) (by decide) (rfl : A W main_v77 = _) s6
  refine ⟨?_, ?_, s7⟩
  · exact (congrFun s5 (ix2 r d)).trans
      (broadcastInDim_slice_row_apply 11 (by decide) (A W main_arg1 : S16x4096.Idx → EReal) _ _ _ _ r d)
  · rw [ofBuf_toBuf, ofBuf_toBuf] at s4
    have e4 : (A W main_v81 : S8192x4096.Idx → EReal)
        = concatenate S8192x4096 1
            [⟨S8192x4084, extractStridedSlice S8192x4084 ![0, 12] (A W main_arg0 : S8192x4096.Idx → EReal) slices_S8192x4096_S8192x4084_0_12⟩,
             ⟨S8192x12, extractStridedSlice S8192x12 ![0, 0] (A W main_arg0 : S8192x4096.Idx → EReal) slices_S8192x4096_S8192x12_0_0⟩]
            concatenates_S8192x4084_S8192x12_S8192x4096_d1 := s4
    exact (congrFun e4 (ix2 r d)).trans
      (concatenate_slices_cols_apply (a := 4084) (b := 12) rfl (A W main_arg0 : S8192x4096.Idx → EReal)
        slices_S8192x4096_S8192x4084_0_12 slices_S8192x4096_S8192x12_0_0 concatenates_S8192x4084_S8192x12_S8192x4096_d1 r d)

set_option maxHeartbeats 1000000 in
theorem tap12 (W : Valuation τ sig (Elt Ideal)) (r : Fin 8192) (d : Fin 4096) :
    (A W main_v89 : S8192x4096.Idx → EReal) (ix2 r d) = (A W main_arg1 : S16x4096.Idx → EReal) (ix2 (⟨12, by decide⟩ : Fin 16) d)
    ∧ (A W main_v88 : S8192x4096.Idx → EReal) (ix2 r d) = (A W main_arg0 : S8192x4096.Idx → EReal) (ix2 r (adv d 13))
    ∧ (A W main_v91 : FVec Ideal S8192x4096 .f32) = (addf (A W main_v84 : FVec Ideal S8192x4096 .f32) (mulf (A W main_v89 : FVec Ideal S8192x4096 .f32) (A W main_v88 : FVec Ideal S8192x4096 .f32)) : FVec Ideal S8192x4096 .f32) := by
  have s1 := (writes (F := Ideal)).unary W 110 rfl (by decide) (by decide) (rfl : A W main_arg1 = _)
  have s2 := (writes (F := Ideal)).reshape W 111 rfl (by decide) (by decide) s1
  have s3 := (writes (F := Ideal)).unary W 112 rfl (by decide) (by decide) s2
  have c0 := (writes (F := Ideal)).unary W 113 rfl (by decide) (by decide) (rfl : A W main_arg0 = _)
  have c1 := (writes (F := Ideal)).unary W 114 rfl (by decide) (by decide) (rfl : A W main_arg0 = _)
  have s4 := (writes (F := Ideal)).binary W 115 rfl (by decide) (by decide) (by decide) c0 c1
  have s5 := (writes (F := Ideal)).unary W 116 rfl (by decide) (by decide) s3
  have s6 := (writes (F := Ideal)).binary W 117 rfl (by decide) (by decide) (by decide) (rfl : A W main_v89 = _) (rfl : A W main_v88 = _)
  have s7 := (writes (F := Ideal)).binary W 118 rfl (by decide) (by decide) (by decide) (rfl : A W main_v84 = _) s6
  refine ⟨?_, ?_, s7⟩
  · exact (congrFun s5 (ix2 r d)).trans
      (broadcastInDim_slice_row_apply 12 (by decide) (A W main_arg1 : S16x4096.Idx → EReal) _ _ _ _ r d)
  · rw [ofBuf_toBuf, ofBuf_toBuf] at s4
    have e4 : (A W main_v88 : S8192x4096.Idx → EReal)
        = concatenate S8192x4096 1
            [⟨S8192x4083, extractStridedSlice S8192x4083 ![0, 13] (A W main_arg0 : S8192x4096.Idx → EReal) slices_S8192x4096_S8192x4083_0_13⟩,
             ⟨S8192x13, extractStridedSlice S8192x13 ![0, 0] (A W main_arg0 : S8192x4096.Idx → EReal) slices_S8192x4096_S8192x13_0_0⟩]
            concatenates_S8192x4083_S8192x13_S8192x4096_d1 := s4
    exact (congrFun e4 (ix2 r d)).trans
      (concatenate_slices_cols_apply (a := 4083) (b := 13) rfl (A W main_arg0 : S8192x4096.Idx → EReal)
        slices_S8192x4096_S8192x4083_0_13 slices_S8192x4096_S8192x13_0_0 concatenates_S8192x4083_S8192x13_S8192x4096_d1 r d)

set_option maxHeartbeats 1000000 in
theorem tap13 (W : Valuation τ sig (Elt Ideal)) (r : Fin 8192) (d : Fin 4096) :
    (A W main_v96 : S8192x4096.Idx → EReal) (ix2 r d) = (A W main_arg1 : S16x4096.Idx → EReal) (ix2 (⟨13, by decide⟩ : Fin 16) d)
    ∧ (A W main_v95 : S8192x4096.Idx → EReal) (ix2 r d) = (A W main_arg0 : S8192x4096.Idx → EReal) (ix2 r (adv d 14))
    ∧ (A W main_v98 : FVec Ideal S8192x4096 .f32) = (addf (A W main_v91 : FVec Ideal S8192x4096 .f32) (mulf (A W main_v96 : FVec Ideal S8192x4096 .f32) (A W main_v95 : FVec Ideal S8192x4096 .f32)) : FVec Ideal S8192x4096 .f32) := by
  have s1 := (writes (F := Ideal)).unary W 119 rfl (by decide) (by decide) (rfl : A W main_arg1 = _)
  have s2 := (writes (F := Ideal)).reshape W 120 rfl (by decide) (by decide) s1
  have s3 := (writes (F := Ideal)).unary W 121 rfl (by decide) (by decide) s2
  have c0 := (writes (F := Ideal)).unary W 122 rfl (by decide) (by decide) (rfl : A W main_arg0 = _)
  have c1 := (writes (F := Ideal)).unary W 123 rfl (by decide) (by decide) (rfl : A W main_arg0 = _)
  have s4 := (writes (F := Ideal)).binary W 124 rfl (by decide) (by decide) (by decide) c0 c1
  have s5 := (writes (F := Ideal)).unary W 125 rfl (by decide) (by decide) s3
  have s6 := (writes (F := Ideal)).binary W 126 rfl (by decide) (by decide) (by decide) (rfl : A W main_v96 = _) (rfl : A W main_v95 = _)
  have s7 := (writes (F := Ideal)).binary W 127 rfl (by decide) (by decide) (by decide) (rfl : A W main_v91 = _) s6
  refine ⟨?_, ?_, s7⟩
  · exact (congrFun s5 (ix2 r d)).trans
      (broadcastInDim_slice_row_apply 13 (by decide) (A W main_arg1 : S16x4096.Idx → EReal) _ _ _ _ r d)
  · rw [ofBuf_toBuf, ofBuf_toBuf] at s4
    have e4 : (A W main_v95 : S8192x4096.Idx → EReal)
        = concatenate S8192x4096 1
            [⟨S8192x4082, extractStridedSlice S8192x4082 ![0, 14] (A W main_arg0 : S8192x4096.Idx → EReal) slices_S8192x4096_S8192x4082_0_14⟩,
             ⟨S8192x14, extractStridedSlice S8192x14 ![0, 0] (A W main_arg0 : S8192x4096.Idx → EReal) slices_S8192x4096_S8192x14_0_0⟩]
            concatenates_S8192x4082_S8192x14_S8192x4096_d1 := s4
    exact (congrFun e4 (ix2 r d)).trans
      (concatenate_slices_cols_apply (a := 4082) (b := 14) rfl (A W main_arg0 : S8192x4096.Idx → EReal)
        slices_S8192x4096_S8192x4082_0_14 slices_S8192x4096_S8192x14_0_0 concatenates_S8192x4082_S8192x14_S8192x4096_d1 r d)

set_option maxHeartbeats 1000000 in
theorem tap14 (W : Valuation τ sig (Elt Ideal)) (r : Fin 8192) (d : Fin 4096) :
    (A W main_v103 : S8192x4096.Idx → EReal) (ix2 r d) = (A W main_arg1 : S16x4096.Idx → EReal) (ix2 (⟨14, by decide⟩ : Fin 16) d)
    ∧ (A W main_v102 : S8192x4096.Idx → EReal) (ix2 r d) = (A W main_arg0 : S8192x4096.Idx → EReal) (ix2 r (adv d 15))
    ∧ (A W main_v105 : FVec Ideal S8192x4096 .f32) = (addf (A W main_v98 : FVec Ideal S8192x4096 .f32) (mulf (A W main_v103 : FVec Ideal S8192x4096 .f32) (A W main_v102 : FVec Ideal S8192x4096 .f32)) : FVec Ideal S8192x4096 .f32) := by
  have s1 := (writes (F := Ideal)).unary W 128 rfl (by decide) (by decide) (rfl : A W main_arg1 = _)
  have s2 := (writes (F := Ideal)).reshape W 129 rfl (by decide) (by decide) s1
  have s3 := (writes (F := Ideal)).unary W 130 rfl (by decide) (by decide) s2
  have c0 := (writes (F := Ideal)).unary W 131 rfl (by decide) (by decide) (rfl : A W main_arg0 = _)
  have c1 := (writes (F := Ideal)).unary W 132 rfl (by decide) (by decide) (rfl : A W main_arg0 = _)
  have s4 := (writes (F := Ideal)).binary W 133 rfl (by decide) (by decide) (by decide) c0 c1
  have s5 := (writes (F := Ideal)).unary W 134 rfl (by decide) (by decide) s3
  have s6 := (writes (F := Ideal)).binary W 135 rfl (by decide) (by decide) (by decide) (rfl : A W main_v103 = _) (rfl : A W main_v102 = _)
  have s7 := (writes (F := Ideal)).binary W 136 rfl (by decide) (by decide) (by decide) (rfl : A W main_v98 = _) s6
  refine ⟨?_, ?_, s7⟩
  · exact (congrFun s5 (ix2 r d)).trans
      (broadcastInDim_slice_row_apply 14 (by decide) (A W main_arg1 : S16x4096.Idx → EReal) _ _ _ _ r d)
  · rw [ofBuf_toBuf, ofBuf_toBuf] at s4
    have e4 : (A W main_v102 : S8192x4096.Idx → EReal)
        = concatenate S8192x4096 1
            [⟨S8192x4081, extractStridedSlice S8192x4081 ![0, 15] (A W main_arg0 : S8192x4096.Idx → EReal) slices_S8192x4096_S8192x4081_0_15⟩,
             ⟨S8192x15, extractStridedSlice S8192x15 ![0, 0] (A W main_arg0 : S8192x4096.Idx → EReal) slices_S8192x4096_S8192x15_0_0⟩]
            concatenates_S8192x4081_S8192x15_S8192x4096_d1 := s4
    exact (congrFun e4 (ix2 r d)).trans
      (concatenate_slices_cols_apply (a := 4081) (b := 15) rfl (A W main_arg0 : S8192x4096.Idx → EReal)
        slices_S8192x4096_S8192x4081_0_15 slices_S8192x4096_S8192x15_0_0 concatenates_S8192x4081_S8192x15_S8192x4096_d1 r d)

set_option maxHeartbeats 1000000 in
theorem tap15 (W : Valuation τ sig (Elt Ideal)) (r : Fin 8192) (d : Fin 4096) :
    (A W main_v110 : S8192x4096.Idx → EReal) (ix2 r d) = (A W main_arg1 : S16x4096.Idx → EReal) (ix2 (⟨15, by decide⟩ : Fin 16) d)
    ∧ (A W main_v109 : S8192x4096.Idx → EReal) (ix2 r d) = (A W main_arg0 : S8192x4096.Idx → EReal) (ix2 r (adv d 16))
    ∧ (A W main_v112 : FVec Ideal S8192x4096 .f32) = (addf (A W main_v105 : FVec Ideal S8192x4096 .f32) (mulf (A W main_v110 : FVec Ideal S8192x4096 .f32) (A W main_v109 : FVec Ideal S8192x4096 .f32)) : FVec Ideal S8192x4096 .f32) := by
  have s1 := (writes (F := Ideal)).unary W 137 rfl (by decide) (by decide) (rfl : A W main_arg1 = _)
  have s2 := (writes (F := Ideal)).reshape W 138 rfl (by decide) (by decide) s1
  have s3 := (writes (F := Ideal)).unary W 139 rfl (by decide) (by decide) s2
  have c0 := (writes (F := Ideal)).unary W 140 rfl (by decide) (by decide) (rfl : A W main_arg0 = _)
  have c1 := (writes (F := Ideal)).unary W 141 rfl (by decide) (by decide) (rfl : A W main_arg0 = _)
  have s4 := (writes (F := Ideal)).binary W 142 rfl (by decide) (by decide) (by decide) c0 c1
  have s5 := (writes (F := Ideal)).unary W 143 rfl (by decide) (by decide) s3
  have s6 := (writes (F := Ideal)).binary W 144 rfl (by decide) (by decide) (by decide) (rfl : A W main_v110 = _) (rfl : A W main_v109 = _)
  have s7 := (writes (F := Ideal)).binary W 145 rfl (by decide) (by decide) (by decide) (rfl : A W main_v105 = _) s6
  refine ⟨?_, ?_, s7⟩
  · exact (congrFun s5 (ix2 r d)).trans
      (broadcastInDim_slice_row_apply 15 (by decide) (A W main_arg1 : S16x4096.Idx → EReal) _ _ _ _ r d)
  · rw [ofBuf_toBuf, ofBuf_toBuf] at s4
    have e4 : (A W main_v109 : S8192x4096.Idx → EReal)
        = concatenate S8192x4096 1
            [⟨S8192x4080, extractStridedSlice S8192x4080 ![0, 16] (A W main_arg0 : S8192x4096.Idx → EReal) slices_S8192x4096_S8192x4080_0_16⟩,
             ⟨S8192x16, extractStridedSlice S8192x16 ![0, 0] (A W main_arg0 : S8192x4096.Idx → EReal) slices_S8192x4096_S8192x16_0_0⟩]
            concatenates_S8192x4080_S8192x16_S8192x4096_d1 := s4
    exact (congrFun e4 (ix2 r d)).trans
      (concatenate_slices_cols_apply (a := 4080) (b := 16) rfl (A W main_arg0 : S8192x4096.Idx → EReal)
        slices_S8192x4096_S8192x4080_0_16 slices_S8192x4096_S8192x16_0_0 concatenates_S8192x4080_S8192x16_S8192x4096_d1 r d)

end Cert.Quad.RefRead

end
-- ==== Proof.RefValue.lean ====
/-
  The reference's result, as a function of its two arguments, and its run.

  The host program starts from the constant broadcast to the whole 8192 × 4096 shape and, for `k = 0 … 15`, adds the
  product of weight row `k` broadcast over the 8192 rows with `x` shifted `k + 1` columns; the result is `x` times that
  sum. Read off the line of operations (RefRead.lean: for each tap, what its two factors hold at an index, and that the
  running sum grows by their product), this is `enhance x w` (QuadSpec.lean) at 8192 rows, tap for tap and in the same
  order: sixteen uses of the one step `acc_step`, from the last tap down to the constant. With the run of the line
  (RefRun.lean) that gives the program's run: the result buffer ends at `enhance` of the arguments, the arguments
  unchanged.
-/
import proofs.«150799_j47957604827151_2_alg».proof.Proof.RefRun
import proofs.«150799_j47957604827151_2_alg».proof.Proof.RefRead
import proofs.«150799_j47957604827151_2_alg».proof.Proof.QuadSpec
import proofs.«150799_j47957604827151_2_alg».proof.Proof.LibRoll
import Idealize.ShloMosaic.Lib.ValueIdx

noncomputable section

namespace Cert.Quad.RefValue

open Cert.ReferenceIdeal Cert.ReferenceIdeal.Gen Idealize.ShloMosaic Idealize.ShloMosaic.TcCoe Idealize.SL.Sem Idealize.ShloMosaic.StableHlo
open Idealize.ShloMosaic.ValueIdx Cert.LibRoll Cert.Quad Cert.Quad.RefOps Cert.Quad.RefRun Cert.Quad.RefRead

/-- The broadcast of the constant reads as the constant everywhere. -/
theorem start_apply (W : Valuation τ sig (Elt Ideal)) (r : Fin 8192) (d : Fin 4096) :
    (A W main_v0 : S8192x4096.Idx → EReal) (ix2 r d) = one := by
  have e0 := (writes (F := Ideal)).nullary W 0 rfl (by decide)
  have e1 := (writes (F := Ideal)).unary W 1 rfl (by decide) (by decide) e0
  exact (congrFun e1 (ix2 r d)).trans rfl

/-- The result buffer after the line, read at `(r, d)`, is the function of the two argument buffers there. -/
theorem result_apply (W : Valuation τ sig (Elt Ideal)) (r : Fin 8192) (d : Fin 4096) :
    (A W main_v113 : S8192x4096.Idx → EReal) (ix2 r d)
      = enhance (A W main_arg0 : S8192x4096.Idx → EReal) (A W main_arg1 : S16x4096.Idx → EReal) (ix2 r d) := by
  have e := (writes (F := Ideal)).binary W 146 rfl (by decide) (by decide) (by decide)
    (rfl : A W main_arg0 = _) (rfl : A W main_v112 = _)
  refine (congrFun e (ix2 r d)).trans ?_
  rw [enhance_apply]
  refine congrArg (HMul.hMul (α := EReal) (β := EReal) (γ := EReal) (A W main_arg0 (ix2 r d))) ?_
  obtain ⟨hw15, hr15, hs15⟩ := tap15 W r d
  rw [hs15]
  refine acc_step (A W main_arg0 : S8192x4096.Idx → EReal) (A W main_arg1 : S16x4096.Idx → EReal) r d 15 (by decide) _ _ _ _ ?_ hw15 hr15
  obtain ⟨hw14, hr14, hs14⟩ := tap14 W r d
  rw [hs14]
  refine acc_step (A W main_arg0 : S8192x4096.Idx → EReal) (A W main_arg1 : S16x4096.Idx → EReal) r d 14 (by decide) _ _ _ _ ?_ hw14 hr14
  obtain ⟨hw13, hr13, hs13⟩ := tap13 W r d
  rw [hs13]
  refine acc_step (A W main_arg0 : S8192x4096.Idx → EReal) (A W main_arg1 : S16x4096.Idx → EReal) r d 13 (by decide) _ _ _ _ ?_ hw13 hr13
  obtain ⟨hw12, hr12, hs12⟩ := tap12 W r d
  rw [hs12]
  refine acc_step (A W main_arg0 : S8192x4096.Idx → EReal) (A W main_arg1 : S16x4096.Idx → EReal) r d 12 (by decide) _ _ _ _ ?_ hw12 hr12
  obtain ⟨hw11, hr11, hs11⟩ := tap11 W r d
  rw [hs11]
  refine acc_step (A W main_arg0 : S8192x4096.Idx → EReal) (A W main_arg1 : S16x4096.Idx → EReal) r d 11 (by decide) _ _ _ _ ?_ hw11 hr11
  obtain ⟨hw10, hr10, hs10⟩ := tap10 W r d
  rw [hs10]
  refine acc_step (A W main_arg0 : S8192x4096.Idx → EReal) (A W main_arg1 : S16x4096.Idx → EReal) r d 10 (by decide) _ _ _ _ ?_ hw10 hr10
  obtain ⟨hw9, hr9, hs9⟩ := tap9 W r d
  rw [hs9]
  refine acc_step (A W main_arg0 : S8192x4096.Idx → EReal) (A W main_arg1 : S16x4096.Idx → EReal) r d 9 (by decide) _ _ _ _ ?_ hw9 hr9
  obtain ⟨hw8, hr8, hs8⟩ := tap8 W r d
  rw [hs8]
  refine acc_step (A W main_arg0 : S8192x4096.Idx → EReal) (A W main_arg1 : S16x4096.Idx → EReal) r d 8 (by decide) _ _ _ _ ?_ hw8 hr8
  obtain ⟨hw7, hr7, hs7⟩ := tap7 W r d
  rw [hs7]
  refine acc_step (A W main_arg0 : S8192x4096.Idx → EReal) (A W main_arg1 : S16x4096.Idx → EReal) r d 7 (by decide) _ _ _ _ ?_ hw7 hr7
  obtain ⟨hw6, hr6, hs6⟩ := tap6 W r d
  rw [hs6]
  refine acc_step (A W main_arg0 : S8192x4096.Idx → EReal) (A W main_arg1 : S16x4096.Idx → EReal) r d 6 (by decide) _ _ _ _ ?_ hw6 hr6
  obtain ⟨hw5, hr5, hs5⟩ := tap5 W r d
  rw [hs5]
  refine acc_step (A W main_arg0 : S8192x4096.Idx → EReal) (A W main_arg1 : S16x4096.Idx → EReal) r d 5 (by decide) _ _ _ _ ?_ hw5 hr5
  obtain ⟨hw4, hr4, hs4⟩ := tap4 W r d
  rw [hs4]
  refine acc_step (A W main_arg0 : S8192x4096.Idx → EReal) (A W main_arg1 : S16x4096.Idx → EReal) r d 4 (by decide) _ _ _ _ ?_ hw4 hr4
  obtain ⟨hw3, hr3, hs3⟩ := tap3 W r d
  rw [hs3]
  refine acc_step (A W main_arg0 : S8192x4096.Idx → EReal) (A W main_arg1 : S16x4096.Idx → EReal) r d 3 (by decide) _ _ _ _ ?_ hw3 hr3
  obtain ⟨hw2, hr2, hs2⟩ := tap2 W r d
  rw [hs2]
  refine acc_step (A W main_arg0 : S8192x4096.Idx → EReal) (A W main_arg1 : S16x4096.Idx → EReal) r d 2 (by decide) _ _ _ _ ?_ hw2 hr2
  obtain ⟨hw1, hr1, hs1⟩ := tap1 W r d
  rw [hs1]
  refine acc_step (A W main_arg0 : S8192x4096.Idx → EReal) (A W main_arg1 : S16x4096.Idx → EReal) r d 1 (by decide) _ _ _ _ ?_ hw1 hr1
  obtain ⟨hw0, hr0, hs0⟩ := tap0 W r d
  rw [hs0]
  refine acc_step (A W main_arg0 : S8192x4096.Idx → EReal) (A W main_arg1 : S16x4096.Idx → EReal) r d 0 (by decide) _ _ _ _ ?_ hw0 hr0
  exact start_apply W r d

/-- The same as an equation of arrays, the argument buffers at what they held before the line. -/
theorem result_eq (W : Valuation τ sig (Elt Ideal)) :
    (A W main_v113 : S8192x4096.Idx → EReal)
      = enhance (W (Proc.devRef .tc main_arg0) : S8192x4096.Idx → EReal) (W (Proc.devRef .tc main_arg1) : S16x4096.Idx → EReal) := by
  funext j
  obtain ⟨r, d, rfl⟩ : ∃ (r : Fin 8192) (d : Fin 4096), j = ix2 r d := ⟨j 0, j 1, eq_ix2 j⟩
  rw [result_apply W r d, A_arg0, A_arg1]

/-- The reference's run: it terminates without fault, its result at `enhance` of its arguments, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v113)
        = enhance (m ((c.tc : Thread nD τ).loc main_arg0) : S8192x4096.Idx → EReal)
            (m ((c.tc : Thread nD τ).loc main_arg1) : S16x4096.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c main_v113).trans (result_eq (launchContents m c)),
      (h c main_arg0).trans (A_arg0 (launchContents m c)), (h c main_arg1).trans (A_arg1 (launchContents m c))⟩)
    (run_fold m ρ)

end Cert.Quad.RefValue

end
-- ==== Proof.lean ====
/-
  The kernel and its reference compute one function, as extended reals, index by index.

  For `x` of 8192 × 4096 entries and weights `w` of 16 × 4096 entries both programs return

      z (r, d) = x (r, d) · (1 + Σ_{k < 16} w (k, d) · x (r, (d + k + 1) mod 4096)),

  the sum taken left to right from the constant, each tap the weight times the shifted entry (`enhance`, Proof/QuadSpec.lean).
  The kernel walks 64 blocks of 128 rows; on a block it rotates the block's columns by `4096 - (k + 1)` for tap `k` and
  multiplies by weight row `k` broadcast over the rows (Proof/KernelTile.lean: the stored block is `enhance` of the input
  blocks; Proof/KernelArray.lean: the blocks, each depending on its own rows of `x` only, cover the result array, which
  ends at `enhance x w`). The reference shifts the whole array for tap `k` by joining its columns `k + 1 … 4095` with its
  columns `0 … k` (Proof/RefRun.lean: it is the straight line of its 147 operations, each buffer written once;
  Proof/RefRead.lean, Proof/RefValue.lean: read tap by tap its result is `enhance x w`). A rotation of the columns by `4096 - i` and that
  join both read the array at column `(d + i) mod 4096` (Proof/LibRoll.lean). The two sums have the same terms in the
  same order, so no law of the extended reals is used and the precondition (finite inputs) is never opened.

  The three programs run, without fault, keeping their arguments: the kernel's two frames are the generated ones; the
  reference's is its run with the result dropped. The idealized kernel is the kernel's own text read over the
  extended reals (no rewrite was applied), so `preserves` has nothing to state.
-/
import proofs.«150799_j47957604827151_2_alg».proof.Defs
import proofs.«150799_j47957604827151_2_alg».proof.Proof.Gen.Kernel
import proofs.«150799_j47957604827151_2_alg».proof.Proof.Gen.Kernel.Skeleton
import proofs.«150799_j47957604827151_2_alg».proof.Proof.Gen.Kernel.Launch
import proofs.«150799_j47957604827151_2_alg».proof.Proof.Gen.Kernel.Points
import proofs.«150799_j47957604827151_2_alg».proof.Proof.Gen.Kernel.Frame
import proofs.«150799_j47957604827151_2_alg».proof.Proof.Gen.KernelIdeal
import proofs.«150799_j47957604827151_2_alg».proof.Proof.Gen.KernelIdeal.Skeleton
import proofs.«150799_j47957604827151_2_alg».proof.Proof.Gen.KernelIdeal.Launch
import proofs.«150799_j47957604827151_2_alg».proof.Proof.Gen.KernelIdeal.Points
import proofs.«150799_j47957604827151_2_alg».proof.Proof.Gen.KernelIdeal.Frame
import proofs.«150799_j47957604827151_2_alg».proof.Proof.Gen.ReferenceIdeal
import proofs.«150799_j47957604827151_2_alg».proof.Proof.Gen.Pre_finite_inputs
import proofs.«150799_j47957604827151_2_alg».proof.Proof.Gen.KernelIdeal.Value
import proofs.«150799_j47957604827151_2_alg».proof.Proof.QuadSpec
import proofs.«150799_j47957604827151_2_alg».proof.Proof.KernelArray
import proofs.«150799_j47957604827151_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.Quad.RefValue.run m ρ)

/-- No operation of the kernel was rewritten for the extended reals. -/
theorem preserves : Cert.preserves_Kernel_KernelIdeal := trivial

/-- From memories that agree on `x` and `w`, the kernel's result array ends at `enhance x w` (its run over the 64 blocks) and
    so does the reference's (its last stage), the arguments of both unchanged. -/
theorem algebraic : Cert.algebraic_KernelIdeal_ReferenceIdeal := by
  intro m ρ m' ρ' _ hagree
  refine ⟨_, Cert.Quad.KernelArray.run m ρ, ?_⟩
  refine (θ_run Cert.ReferenceIdeal.defs _ _).mono (fun _ h c => ⟨(h c).1.trans ?_, (h c).2⟩)
    (Cert.Quad.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
